-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128x32 .f32) (main_arg10 : FVec F S128x32 .f32) (main_arg11 : FVec F S32 .f32) (main_arg12 : FVec F S128 .f32) (main_arg13 : FVec F S128 .f32) (main_arg14 : FVec F S128 .f32) (main_arg15 : FVec F S128 .f32) (main_v33 : IVec S_ 1) : IVec S_ 1 :=
  let main_v34 : FVec F S128x32 .f32 := Host.absf main_arg9
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S128x32 .f32 := Host.absf main_arg10
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128x128 .f32) (main_arg7 : FVec F S128x128 .f32) (main_arg8 : FVec F S128 .f32) (main_arg9 : FVec F S128x32 .f32) (main_arg10 : FVec F S128x32 .f32) (main_arg11 : FVec F S32 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x32 .f32) (main_arg10 : FVec F S128x32 .f32) (main_arg11 : FVec F S32 .f32) (main_arg12 : FVec F S128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩
abbrev S1x32 : Shape := ⟨2, ![1, 32]⟩
abbrev S100000x32 : Shape := ⟨2, ![100000, 32]⟩
abbrev S2000x32 : Shape := ⟨2, ![2000, 32]⟩
abbrev S1 : Shape := ⟨1, ![1]⟩
abbrev S1x1 : Shape := ⟨2, ![1, 1]⟩

abbrev nBuf : Space → Nat
  | .hbm => 139
  | .vmem => 51
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x32, .f32⟩
  | 10 => ⟨S128x32, .f32⟩
  | 11 => ⟨S32, .f32⟩
  | 12 => ⟨S128, .f32⟩
  | 13 => ⟨S128, .f32⟩
  | 14 => ⟨S128, .f32⟩
  | 15 => ⟨S128, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S100000x1, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S100000x128, .f32⟩
  | 43 => ⟨S100000x128, .f32⟩
  | 44 => ⟨S1x128, .f32⟩
  | 45 => ⟨S100000x128, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S1x128, .f32⟩
  | 55 => ⟨S1x128, .f32⟩
  | 56 => ⟨S1x128, .f32⟩
  | 57 => ⟨S_, .f32⟩
  | 58 => ⟨S1x128, .f32⟩
  | 59 => ⟨S1x128, .f32⟩
  | 60 => ⟨S1x128, .f32⟩
  | 61 => ⟨S1x128, .f32⟩
  | 62 => ⟨S1x128, .f32⟩
  | 63 => ⟨S1x128, .f32⟩
  | 64 => ⟨S1x128, .f32⟩
  | 65 => ⟨S100000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S100000x128, .f32⟩
  | 80 => ⟨S100000x128, .f32⟩
  | 81 => ⟨S1x128, .f32⟩
  | 82 => ⟨S100000x128, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S1x128, .f32⟩
  | 98 => ⟨S1x128, .f32⟩
  | 99 => ⟨S1x128, .f32⟩
  | 100 => ⟨S1x128, .f32⟩
  | 101 => ⟨S1x128, .f32⟩
  | 102 => ⟨S100000x128, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S_, .f32⟩
  | 113 => ⟨S100000x128, .f32⟩
  | 114 => ⟨S1600000x1, .i32⟩
  | 115 => ⟨S100000x128, .f32⟩
  | 116 => ⟨S100000x128, .f32⟩
  | 117 => ⟨S100000x128, .f32⟩
  | 118 => ⟨S1x32, .f32⟩
  | 119 => ⟨S100000x32, .f32⟩
  | 120 => ⟨S1x32, .f32⟩
  | 121 => ⟨S1x32, .f32⟩
  | 122 => ⟨S_, .f32⟩
  | 123 => ⟨S1x32, .f32⟩
  | 124 => ⟨S1x32, .f32⟩
  | 125 => ⟨S_, .f32⟩
  | 126 => ⟨S1, .f32⟩
  | 127 => ⟨S_, .f32⟩
  | _ => ⟨S100000x128, .f32⟩

abbrev hbmTy0_1 (i : Nat) : BufTy := match i % 128 with
  | 0 => ⟨S1, .f32⟩
  | 1 => ⟨S1, .f32⟩
  | 2 => ⟨S1x1, .f32⟩
  | 3 => ⟨S1x32, .f32⟩
  | 4 => ⟨S1x32, .f32⟩
  | 5 => ⟨S1x32, .f32⟩
  | 6 => ⟨S_, .f32⟩
  | 7 => ⟨S1, .f32⟩
  | 8 => ⟨S1x1, .f32⟩
  | 9 => ⟨S1x32, .f32⟩
  | 10 => ⟨S1x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S1x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S128x32, .f32⟩
  | .local _ .vmem, ⟨43, _⟩ => ⟨S128x32, .f32⟩
  | .local _ .vmem, ⟨44, _⟩ => ⟨S1x32, .f32⟩
  | .local _ .vmem, ⟨45, _⟩ => ⟨S2000x32, .f32⟩
  | .local _ .vmem, ⟨46, _⟩ => ⟨S2000x32, .f32⟩
  | .local _ .vmem, ⟨47, _⟩ => ⟨S2000x32, .f32⟩
  | .local _ .vmem, ⟨48, _⟩ => ⟨S2000x32, .f32⟩
  | .local _ .vmem, ⟨49, _⟩ => ⟨S1x32, .f32⟩
  | .local _ .vmem, ⟨50, _⟩ => ⟨S1x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23_0 : Ref sig .tc := ⟨.hbm, 46, rfl⟩
abbrev main_v23_1 : Ref sig .tc := ⟨.hbm, 47, rfl⟩
abbrev main_cst_5 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_7 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_8 : Ref sig .tc := ⟨.hbm, 66, rfl⟩
abbrev main_v39 : Ref sig .tc := ⟨.hbm, 67, rfl⟩
abbrev main_v40 : Ref sig .tc := ⟨.hbm, 68, rfl⟩
abbrev main_c_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53_0 : Ref sig .tc := ⟨.hbm, 83, rfl⟩
abbrev main_v53_1 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_14 : Ref sig .tc := ⟨.hbm, 103, rfl⟩
abbrev main_v69 : Ref sig .tc := ⟨.hbm, 104, rfl⟩
abbrev main_v70 : Ref sig .tc := ⟨.hbm, 105, rfl⟩
abbrev main_c_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83_0 : Ref sig .tc := ⟨.hbm, 120, rfl⟩
abbrev main_v83_1 : Ref sig .tc := ⟨.hbm, 121, rfl⟩
abbrev main_cst_17 : Ref sig .tc := ⟨.hbm, 122, rfl⟩
abbrev main_v84 : Ref sig .tc := ⟨.hbm, 123, rfl⟩
abbrev main_v85 : Ref sig .tc := ⟨.hbm, 124, rfl⟩
abbrev main_cst_18 : Ref sig .tc := ⟨.hbm, 125, rfl⟩
abbrev main_v86 : Ref sig .tc := ⟨.hbm, 126, rfl⟩
abbrev main_cst_19 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_20 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg4_0 : Ref sig .tc := ⟨.vmem, 44, rfl⟩
abbrev cc6_stg5_0 : Ref sig .tc := ⟨.vmem, 45, rfl⟩
abbrev cc6_stg5_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem3_0 : DmaSem sig := 43
abbrev cc6_sem4_0 : DmaSem sig := 44
abbrev cc6_sem5_0 : DmaSem sig := 45
abbrev cc6_sem5_1 : DmaSem sig := 46
abbrev cc7_sem0_0 : DmaSem sig := 47
abbrev cc7_sem0_1 : DmaSem sig := 48
abbrev cc7_sem1_0 : DmaSem sig := 49
abbrev cc7_sem2_0 : DmaSem sig := 50

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x32 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  shapeCasts_S32_S1x32 : S32.ShapeCasts S1x32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  reduces_S2000x32_S32 : S2000x32.Reduces [0] S32
  bcast_S_S1x32 : S_.BroadcastsInDim S1x32 (![] : Fin 0 → Fin S1x32.rank)
  reducesTo_S1x32_S1_d1 : S1x32.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x32_0_1 : S1x1.BroadcastsInDim S1x32 (![0, 1] : Fin 2 → Fin S1x32.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x32_S2000x32_1_0_0_1_n_n_wf : DotDims.WF S2000x128 S128x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S100000x128.size a
  hwx6_1 : ∀ i : grid6.Coords, EltTy.bits .f32 = 32 ∨ (Rect.block (s := S100000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x32.size a ≤ S128x32.size a
  hwx6_2 : ∀ i : grid6.Coords, EltTy.bits .f32 = 32 ∨ (Rect.block (s := S128x32) S128x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x32.size a ≤ S128x32.size a
  hwx6_3 : ∀ i : grid6.Coords, EltTy.bits .f32 = 32 ∨ (Rect.block (s := S128x32) S128x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x32.size a ≤ S1x32.size a
  hwx6_4 : ∀ i : grid6.Coords, EltTy.bits .f32 = 32 ∨ (Rect.block (s := S1x32) S1x32.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x32.size a ≤ S100000x32.size a
  hwx6_5 : ∀ i : grid6.Coords, EltTy.bits .f32 = 32 ∨ (Rect.block (s := S100000x32) S2000x32.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x32.size a ≤ S100000x32.size a
  hwx7_0 : ∀ i : grid7.Coords, EltTy.bits .f32 = 32 ∨ (Rect.block (s := S100000x32) S2000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v22) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v52) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v53_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v52) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v68) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v80) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S128x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S128x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v81) S1x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v82) S2000x32.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v82) S2000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v83_0) S1x32.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v83_1) S1x32.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x32 : Shape := ⟨2, ![100000, 32]⟩
abbrev S1x32 : Shape := ⟨2, ![1, 32]⟩
abbrev S1 : Shape := ⟨1, ![1]⟩
abbrev S1x1 : Shape := ⟨2, ![1, 1]⟩

abbrev nBuf : Space → Nat
  | .hbm => 212
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x32, .f32⟩
  | 10 => ⟨S128x32, .f32⟩
  | 11 => ⟨S32, .f32⟩
  | 12 => ⟨S128, .f32⟩
  | 13 => ⟨S128, .f32⟩
  | 14 => ⟨S128, .f32⟩
  | 15 => ⟨S128, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S100000x1, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S100000x128, .f32⟩
  | 66 => ⟨S100000x128, .f32⟩
  | 67 => ⟨S100000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S_, .f32⟩
  | 85 => ⟨S128, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S100000x128, .f32⟩
  | 114 => ⟨S100000x128, .f32⟩
  | 115 => ⟨S100000x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S_, .f32⟩
  | 125 => ⟨S128, .f32⟩
  | 126 => ⟨S_, .f32⟩
  | 127 => ⟨S128, .f32⟩
  | _ => ⟨S100000x128, .f32⟩

abbrev hbmTy0_1 (i : Nat) : BufTy := match i % 128 with
  | 0 => ⟨S128, .f32⟩
  | 1 => ⟨S_, .i32⟩
  | 2 => ⟨S_, .f32⟩
  | 3 => ⟨S128, .f32⟩
  | 4 => ⟨S1x128, .f32⟩
  | 5 => ⟨S_, .f32⟩
  | 6 => ⟨S1x128, .f32⟩
  | 7 => ⟨S1x128, .f32⟩
  | 8 => ⟨S100000x128, .f32⟩
  | 9 => ⟨S100000x128, .f32⟩
  | 10 => ⟨S100000x128, .f32⟩
  | 11 => ⟨S_, .f32⟩
  | 12 => ⟨S_, .f32⟩
  | 13 => ⟨S_, .f32⟩
  | 14 => ⟨S_, .f32⟩
  | 15 => ⟨S128, .f32⟩
  | 16 => ⟨S128, .f32⟩
  | 17 => ⟨S128, .f32⟩
  | 18 => ⟨S_, .f32⟩
  | 19 => ⟨S_, .i1⟩
  | 20 => ⟨S_, .f32⟩
  | 21 => ⟨S_, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S_, .f32⟩
  | 28 => ⟨S128, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S100000x128, .f32⟩
  | 57 => ⟨S100000x128, .f32⟩
  | 58 => ⟨S100000x32, .f32⟩
  | 59 => ⟨S100000x32, .f32⟩
  | 60 => ⟨S100000x32, .f32⟩
  | 61 => ⟨S1x32, .f32⟩
  | 62 => ⟨S100000x32, .f32⟩
  | 63 => ⟨S100000x32, .f32⟩
  | 64 => ⟨S_, .f32⟩
  | 65 => ⟨S32, .f32⟩
  | 66 => ⟨S1x32, .f32⟩
  | 67 => ⟨S_, .f32⟩
  | 68 => ⟨S1x32, .f32⟩
  | 69 => ⟨S1x32, .f32⟩
  | 70 => ⟨S_, .f32⟩
  | 71 => ⟨S1, .f32⟩
  | 72 => ⟨S_, .f32⟩
  | 73 => ⟨S1, .f32⟩
  | 74 => ⟨S1, .f32⟩
  | 75 => ⟨S1x1, .f32⟩
  | 76 => ⟨S1x32, .f32⟩
  | 77 => ⟨S1x32, .f32⟩
  | 78 => ⟨S1x32, .f32⟩
  | 79 => ⟨S_, .f32⟩
  | 80 => ⟨S1, .f32⟩
  | 81 => ⟨S1x1, .f32⟩
  | 82 => ⟨S1x32, .f32⟩
  | 83 => ⟨S1x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call0_cst : Ref sig .tc := ⟨.hbm, 50, rfl⟩
abbrev main_call0_v0 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_c_7 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_cst_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_cst_1 : Ref sig .tc := ⟨.hbm, 69, rfl⟩
abbrev main_call1_v8 : Ref sig .tc := ⟨.hbm, 70, rfl⟩
abbrev main_call1_cst_2 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_cst_3 : Ref sig .tc := ⟨.hbm, 75, rfl⟩
abbrev main_call1_v12 : Ref sig .tc := ⟨.hbm, 76, rfl⟩
abbrev main_call1_cst_4 : Ref sig .tc := ⟨.hbm, 77, rfl⟩
abbrev main_call1_call0_v0 : Ref sig .tc := ⟨.hbm, 78, rfl⟩
abbrev main_call1_call0_v1 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_8 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_call2_cst : Ref sig .tc := ⟨.hbm, 97, rfl⟩
abbrev main_call2_v0 : Ref sig .tc := ⟨.hbm, 98, rfl⟩
abbrev main_v47 : Ref sig .tc := ⟨.hbm, 99, rfl⟩
abbrev main_c_9 : Ref sig .tc := ⟨.hbm, 100, rfl⟩
abbrev main_v48 : Ref sig .tc := ⟨.hbm, 101, rfl⟩
abbrev main_v49 : Ref sig .tc := ⟨.hbm, 102, rfl⟩
abbrev main_c_10 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_cst_11 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_call3_cst : Ref sig .tc := ⟨.hbm, 121, rfl⟩
abbrev main_call3_v0 : Ref sig .tc := ⟨.hbm, 122, rfl⟩
abbrev main_v66 : Ref sig .tc := ⟨.hbm, 123, rfl⟩
abbrev main_cst_12 : Ref sig .tc := ⟨.hbm, 124, rfl⟩
abbrev main_v67 : Ref sig .tc := ⟨.hbm, 125, rfl⟩
abbrev main_cst_13 : Ref sig .tc := ⟨.hbm, 126, rfl⟩
abbrev main_v68 : Ref sig .tc := ⟨.hbm, 127, rfl⟩
abbrev main_v69 : Ref sig .tc := ⟨.hbm, 128, rfl⟩
abbrev main_c_14 : Ref sig .tc := ⟨.hbm, 129, rfl⟩
abbrev main_call4_cst : Ref sig .tc := ⟨.hbm, 130, rfl⟩
abbrev main_call4_v0 : Ref sig .tc := ⟨.hbm, 131, rfl⟩
abbrev main_call4_v1 : Ref sig .tc := ⟨.hbm, 132, rfl⟩
abbrev main_call4_cst_0 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_v5 : Ref sig .tc := ⟨.hbm, 137, rfl⟩
abbrev main_call4_v6 : Ref sig .tc := ⟨.hbm, 138, rfl⟩
abbrev main_call4_v7 : Ref sig .tc := ⟨.hbm, 139, rfl⟩
abbrev main_call4_cst_1 : Ref sig .tc := ⟨.hbm, 140, rfl⟩
abbrev main_call4_v8 : Ref sig .tc := ⟨.hbm, 141, rfl⟩
abbrev main_call4_cst_2 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_cst_3 : Ref sig .tc := ⟨.hbm, 146, rfl⟩
abbrev main_call4_v12 : Ref sig .tc := ⟨.hbm, 147, rfl⟩
abbrev main_call4_cst_4 : Ref sig .tc := ⟨.hbm, 148, rfl⟩
abbrev main_call4_call0_v0 : Ref sig .tc := ⟨.hbm, 149, rfl⟩
abbrev main_call4_call0_v1 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_cst_15 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_call5_cst : Ref sig .tc := ⟨.hbm, 168, rfl⟩
abbrev main_call5_v0 : Ref sig .tc := ⟨.hbm, 169, rfl⟩
abbrev main_v86 : Ref sig .tc := ⟨.hbm, 170, rfl⟩
abbrev main_c_16 : Ref sig .tc := ⟨.hbm, 171, rfl⟩
abbrev main_v87 : Ref sig .tc := ⟨.hbm, 172, rfl⟩
abbrev main_v88 : Ref sig .tc := ⟨.hbm, 173, rfl⟩
abbrev main_c_17 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_cst_18 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_cst_19 : Ref sig .tc := ⟨.hbm, 192, rfl⟩
abbrev main_v105 : Ref sig .tc := ⟨.hbm, 193, rfl⟩
abbrev main_v106 : Ref sig .tc := ⟨.hbm, 194, rfl⟩
abbrev main_cst_20 : Ref sig .tc := ⟨.hbm, 195, rfl⟩
abbrev main_v107 : Ref sig .tc := ⟨.hbm, 196, rfl⟩
abbrev main_v108 : Ref sig .tc := ⟨.hbm, 197, rfl⟩
abbrev main_cst_21 : Ref sig .tc := ⟨.hbm, 198, rfl⟩
abbrev main_v109 : Ref sig .tc := ⟨.hbm, 199, rfl⟩
abbrev main_cst_22 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_cst_23 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  bcast_S_S1x32 : S_.BroadcastsInDim S1x32 (![] : Fin 0 → Fin S1x32.rank)
  reducesTo_S1x32_S1_d1 : S1x32.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x32_0_1 : S1x1.BroadcastsInDim S1x32 (![0, 1] : Fin 2 → Fin S1x32.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.Spec.lean ====
/-
  The two programs of this certificate compute a three-layer mean-aggregating graph network over 100000 nodes:
  per layer a linear combination  h·Ws + a·Wn + b  of a node's features h and its neighbourhood mean a, a
  rectifier, and (layers 0 and 1) a batch normalisation over the node axis.  This module states, index by index
  on the extended reals, the array functions that the kernel's regions compute: the linear layer (128 or 32
  output columns), the column sums and column sums of squares over the node axis, and the affine-plus-rectifier
  pass  max(x·scale + shift, 0).
-/
import proofs.«112237_j46686294507759_1_alg».proof.KernelIdeal
import Idealize.ShloMosaic.PureOps.Ideal
import Idealize.ShloMosaic.Lib.ValueIdx

noncomputable section

namespace Cert.Sage

open Idealize.ShloMosaic Idealize.ShloMosaic.ValueIdx Cert.KernelIdeal
open scoped BigOperators

/-- One entry of  max((h·Ws + a·Wn) + b, 0): row `r`, column `q`, 128 contracted columns. -/
def linRelu128At (h a : S100000x128.Idx → EReal) (Ws Wn : S128x128.Idx → EReal) (b : S1x128.Idx → EReal)
    (r : Fin 100000) (q : Fin 128) : EReal :=
  max (((∑ k : Fin 128, h (ix2 r k) * Ws (ix2 k q)) + (∑ k : Fin 128, a (ix2 r k) * Wn (ix2 k q))) + b (ix2 (0 : Fin 1) q)) 0

/-- The rectified linear layer with 128 output columns, as an array. -/
def linRelu128 (h a : S100000x128.Idx → EReal) (Ws Wn : S128x128.Idx → EReal) (b : S1x128.Idx → EReal) :
    S100000x128.Idx → EReal := fun i => linRelu128At h a Ws Wn b (i 0) (i 1)

/-- One entry of  (h·Ws + a·Wn) + b  with 32 output columns (no rectifier). -/
def lin32At (h a : S100000x128.Idx → EReal) (Ws Wn : S128x32.Idx → EReal) (b : S1x32.Idx → EReal)
    (r : Fin 100000) (q : Fin 32) : EReal :=
  ((∑ k : Fin 128, h (ix2 r k) * Ws (ix2 k q)) + (∑ k : Fin 128, a (ix2 r k) * Wn (ix2 k q))) + b (ix2 (0 : Fin 1) q)

/-- The output layer, as an array. -/
def lin32 (h a : S100000x128.Idx → EReal) (Ws Wn : S128x32.Idx → EReal) (b : S1x32.Idx → EReal) :
    S100000x32.Idx → EReal := fun i => lin32At h a Ws Wn b (i 0) (i 1)

/-- Column sums over the 100000 rows, kept as a 1×128 row. -/
def colsum128 (x : S100000x128.Idx → EReal) : S1x128.Idx → EReal := fun i => ∑ r : Fin 100000, x (ix2 r (i 1))

/-- Column sums of squares over the 100000 rows. -/
def colsumsq128 (x : S100000x128.Idx → EReal) : S1x128.Idx → EReal :=
  fun i => ∑ r : Fin 100000, x (ix2 r (i 1)) * x (ix2 r (i 1))

/-- Column sums over the 100000 rows of a 32-column array. -/
def colsum32 (x : S100000x32.Idx → EReal) : S1x32.Idx → EReal := fun i => ∑ r : Fin 100000, x (ix2 r (i 1))

/-- max(x·scale + shift, 0), scale and shift one value per column. -/
def affRelu (x : S100000x128.Idx → EReal) (sc sh : S1x128.Idx → EReal) : S100000x128.Idx → EReal :=
  fun i => max (x i * sc (ix2 (0 : Fin 1) (i 1)) + sh (ix2 (0 : Fin 1) (i 1))) 0

end Cert.Sage

end
-- ==== Proof.KStages.lean ====
/-
  The host side of the kernel program, as named pure functions of its arrays: the edge-source indices normalised
  for the gather, the reciprocal in-degree of every node, the neighbourhood mean (gather the source rows, add them
  into the destination rows, scale each row by the reciprocal in-degree), the bias rows, the batch-normalisation
  scale and shift from the column sums and column sums of squares, and the closing softmax of the column means.
  Each body is the program's own operations, composed in the program's order with the program's literals.
  `kresult` composes them with the region functions of Spec.lean into the program's result as a function of its
  sixteen argument arrays.
-/
import proofs.«112237_j46686294507759_1_alg».proof.Proof.Gen.KernelIdeal.Launch
import proofs.«112237_j46686294507759_1_alg».proof.Proof.Spec

noncomputable section

namespace Cert.KernelIdeal.KRun

open Idealize.ShloMosaic Idealize.ShloMosaic.TcCoe
open Cert.KernelIdeal.Gen

variable {F : FTy → Type} [FloatOps F]

/-- The edge-source indices as the gather reads them: a negative index is taken from the end (100000 added), and
    the vector is read as a column. -/
def normIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32)))
      src)

/-- The reciprocal in-degree of every node, as a column: one is added into a zero vector at every edge's
    destination, the count is clamped below by one, and one is divided by it. -/
def invDeg (dst : IVec S1600000 32) : FVec F S100000x1 .f32 :=
  broadcastInDim S100000x1 ![0] bcast_S100000_S100000x1_0
    (Host.divf (broadcastInDim S100000 ![] bcast_S_S100000 (constant S_ .f32 0x3F800000#32))
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 dst)
          (broadcastInDim S1600000 ![] bcast_S_S1600000 (constant S_ .f32 0x3F800000#32)))
        (broadcastInDim S100000 ![] bcast_S_S100000 (constant S_ .f32 0x3F800000#32))))

/-- The neighbourhood sums scaled row by row by a given column `d`: the rows of `h` at the edges' sources are
    gathered, added into a zero array at the edges' destinations, and multiplied by `d` broadcast along the rows. -/
def aggWith (h : FVec F S100000x128 .f32) (src dst : IVec S1600000 32) (d : FVec F S100000x1 .f32) :
    FVec F S100000x128 .f32 :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h (normIdx src)))
    (broadcastInDim S100000x128 ![0, 1] bcast_S100000x1_S100000x128_0_1 d)

/-- The neighbourhood mean: the neighbourhood sums scaled by the reciprocal in-degree. -/
def agg (h : FVec F S100000x128 .f32) (src dst : IVec S1600000 32) : FVec F S100000x128 .f32 :=
  aggWith h src dst (invDeg dst)

/-- A 128-vector read as a 1×128 row. -/
def row128 (b : FVec F S128 .f32) : FVec F S1x128 .f32 := shapeCast S1x128 b shapeCasts_S128_S1x128

/-- A 32-vector read as a 1×32 row. -/
def row32 (b : FVec F S32 .f32) : FVec F S1x32 .f32 := shapeCast S1x32 b shapeCasts_S32_S1x32

/-- The column means: the column sums divided by the number of rows (100000). -/
def mean128 (s : FVec F S1x128 .f32) : FVec F S1x128 .f32 :=
  Host.divf s (broadcastInDim S1x128 ![] bcast_S_S1x128 (constant S_ .f32 0x47C35000#32))

/-- The batch-normalisation scale: the gain times the reciprocal square root of the variance (mean of squares
    minus squared mean) plus the stabiliser. -/
def scale (s q : FVec F S1x128 .f32) (g : FVec F S128 .f32) : FVec F S1x128 .f32 :=
  mulf (row128 g)
    (Host.rsqrt (addf (subf (mean128 q) (mulf (mean128 s) (mean128 s)))
      (broadcastInDim S1x128 ![] bcast_S_S1x128 (constant S_ .f32 0x3727C5AC#32))))

/-- The batch-normalisation shift: the offset minus the mean times the scale. -/
def shift (s q : FVec F S1x128 .f32) (g be : FVec F S128 .f32) : FVec F S1x128 .f32 :=
  subf (row128 be) (mulf (mean128 s) (scale s q g))

/-- The column means of the last layer, before the softmax. -/
def mean32 (s : FVec F S1x32 .f32) : FVec F S1x32 .f32 :=
  Host.divf s (broadcastInDim S1x32 ![] bcast_S_S1x32 (constant S_ .f32 0x47C35000#32))

/-- The exponentials of the column means less their maximum (taken against minus infinity twice, as the program
    does). -/
def expShifted (s : FVec F S1x32 .f32) : FVec F S1x32 .f32 :=
  Host.exp (subf (mean32 s)
    (broadcastInDim S1x32 ![0, 1] bcast_S1x1_S1x32_0_1
      (broadcastInDim S1x1 ![0] bcast_S1_S1x1_0
        (maximumf (broadcastInDim S1 ![] bcast_S_S1 (constant S_ .f32 0xFF800000#32))
          (Host.reduce FloatOps.maximumf (mean32 s) (constant S_ .f32 0xFF800000#32) reducesTo_S1x32_S1_d1 h_S_)))))

/-- The closing softmax over the 32 columns of the column means of the last layer. -/
def tail (s : FVec F S1x32 .f32) : FVec F S1x32 .f32 :=
  Host.divf (expShifted s)
    (broadcastInDim S1x32 ![0, 1] bcast_S1x1_S1x32_0_1
      (broadcastInDim S1x1 ![0] bcast_S1_S1x1_0
        (Host.reduceAdd (expShifted s) (constant S_ .f32 0x00000000#32) reducesTo_S1x32_S1_d1 h_S_)))

/-- The kernel program's result as a function of its sixteen argument arrays: three mean-aggregating layers, the
    first two rectified and batch-normalised, and the softmax of the last layer's column means. -/
def kresult (x0 : FVec Ideal S100000x128 .f32) (src dst : IVec S1600000 32)
    (Ws0 Wn0 : FVec Ideal S128x128 .f32) (b0 : FVec Ideal S128 .f32)
    (Ws1 Wn1 : FVec Ideal S128x128 .f32) (b1 : FVec Ideal S128 .f32)
    (Ws2 Wn2 : FVec Ideal S128x32 .f32) (b2 : FVec Ideal S32 .f32)
    (g0 be0 g1 be1 : FVec Ideal S128 .f32) : FVec Ideal S1x32 .f32 :=
  let y0 := Cert.Sage.linRelu128 x0 (agg (F := Ideal) x0 src dst) Ws0 Wn0 (row128 (F := Ideal) b0)
  let h1 := Cert.Sage.affRelu y0
    (scale (F := Ideal) (Cert.Sage.colsum128 y0) (Cert.Sage.colsumsq128 y0) g0)
    (shift (F := Ideal) (Cert.Sage.colsum128 y0) (Cert.Sage.colsumsq128 y0) g0 be0)
  let y1 := Cert.Sage.linRelu128 h1 (agg (F := Ideal) h1 src dst) Ws1 Wn1 (row128 (F := Ideal) b1)
  let h2 := Cert.Sage.affRelu y1
    (scale (F := Ideal) (Cert.Sage.colsum128 y1) (Cert.Sage.colsumsq128 y1) g1)
    (shift (F := Ideal) (Cert.Sage.colsum128 y1) (Cert.Sage.colsumsq128 y1) g1 be1)
  tail (F := Ideal)
    (Cert.Sage.colsum32 (Cert.Sage.lin32 h2 (agg (F := Ideal) h2 src dst) Ws2 Wn2 (row32 (F := Ideal) b2)))

end Cert.KernelIdeal.KRun

end
-- ==== Proof.KHost0.lean ====
/-
  The first stretch of host operations of the kernel program, read at the buffers the regions take from it: from
  any contents `W` of the device's buffers, the neighbourhood mean of the input features, the first bias row and the
  reciprocal in-degrees are the named host functions of the argument arrays as `W` holds them.
-/
import proofs.«112237_j46686294507759_1_alg».proof.Proof.KStages
import Idealize.ShloMosaic.Lib.StableHlo.Run

noncomputable section

namespace Cert.KernelIdeal.KRun

open Idealize.ShloMosaic Idealize.ShloMosaic.TcCoe
open Cert.KernelIdeal.Gen

variable {F : FTy → Type} [FloatOps F] (W : Valuation τ sig (Elt F))

/-- After the first stretch the reciprocal in-degree buffer holds `invDeg` of the destination indices. -/
theorem host0_v8 : StableHlo.after hostOps0 W (Proc.devRef .tc main_v8) = invDeg (W (Proc.devRef .tc main_arg2)) := by
  after_results_simp; rfl

/-- After the first stretch the first bias row is the reshaped first bias. -/
theorem host0_v21 : StableHlo.after hostOps0 W (Proc.devRef .tc main_v21) = row128 (W (Proc.devRef .tc main_arg5)) := by
  after_results_simp; rfl

/-- After the first stretch the aggregate buffer holds the neighbourhood mean of the input features. -/
theorem host0_v20 : StableHlo.after hostOps0 W (Proc.devRef .tc main_v20) =
    agg (W (Proc.devRef .tc main_arg0)) (W (Proc.devRef .tc main_arg1)) (W (Proc.devRef .tc main_arg2)) := by
  after_results_simp; rfl

end Cert.KernelIdeal.KRun

end
-- ==== Proof.KHost2.lean ====
/-
  The two batch-normalisation stretches of host operations of the kernel program: from any contents `W` of the
  device's buffers, the scale and shift rows are the named host functions of the column sums, the column sums of
  squares, the gain and the offset as `W` holds them. The second stretch is the first with its buffers renamed.
-/
import proofs.«112237_j46686294507759_1_alg».proof.Proof.KStages
import Idealize.ShloMosaic.Lib.StableHlo.Run

noncomputable section

namespace Cert.KernelIdeal.KRun

open Idealize.ShloMosaic Idealize.ShloMosaic.TcCoe
open Cert.KernelIdeal.Gen

variable {F : FTy → Type} [FloatOps F] (W : Valuation τ sig (Elt F))

/-- After the first batch-normalisation stretch the scale row is `scale` of the sums, the sums of squares and the
    first gain. -/
theorem host2_v34 : StableHlo.after hostOps2 W (Proc.devRef .tc main_v34) =
    scale (W (Proc.devRef .tc main_v23_0)) (W (Proc.devRef .tc main_v23_1)) (W (Proc.devRef .tc main_arg12)) := by
  after_results_simp; rfl

/-- After the first batch-normalisation stretch the shift row is `shift` of the sums, the sums of squares, the first
    gain and the first offset. -/
theorem host2_v37 : StableHlo.after hostOps2 W (Proc.devRef .tc main_v37) =
    shift (W (Proc.devRef .tc main_v23_0)) (W (Proc.devRef .tc main_v23_1)) (W (Proc.devRef .tc main_arg12))
      (W (Proc.devRef .tc main_arg13)) := by
  after_results_simp; rfl

/-- After the second batch-normalisation stretch the scale row is `scale` of the sums, the sums of squares and the
    second gain. -/
theorem host5_v64 : StableHlo.after hostOps5 W (Proc.devRef .tc main_v64) =
    scale (W (Proc.devRef .tc main_v53_0)) (W (Proc.devRef .tc main_v53_1)) (W (Proc.devRef .tc main_arg14)) := by
  after_results_simp; rfl

/-- After the second batch-normalisation stretch the shift row is `shift` of the sums, the sums of squares, the
    second gain and the second offset. -/
theorem host5_v67 : StableHlo.after hostOps5 W (Proc.devRef .tc main_v67) =
    shift (W (Proc.devRef .tc main_v53_0)) (W (Proc.devRef .tc main_v53_1)) (W (Proc.devRef .tc main_arg14))
      (W (Proc.devRef .tc main_arg15)) := by
  after_results_simp; rfl

end Cert.KernelIdeal.KRun

end
-- ==== Proof.KHost3.lean ====
/-
  The two later aggregation stretches of host operations of the kernel program: from any contents `W` of the
  device's buffers, the aggregate buffer holds the neighbourhood sums of the layer's input scaled by the reciprocal
  in-degree column as `W` holds it (the first stretch computed that column; these stretches read it), and the
  bias row is the reshaped bias. The second of the two is the first with its buffers renamed and a 32-wide bias.
-/
import proofs.«112237_j46686294507759_1_alg».proof.Proof.KStages
import Idealize.ShloMosaic.Lib.StableHlo.Run

noncomputable section

namespace Cert.KernelIdeal.KRun

open Idealize.ShloMosaic Idealize.ShloMosaic.TcCoe
open Cert.KernelIdeal.Gen

variable {F : FTy → Type} [FloatOps F] (W : Valuation τ sig (Elt F))

/-- After the second aggregation stretch the aggregate buffer holds the scaled neighbourhood sums of the second
    layer's input. -/
theorem host3_v50 : StableHlo.after hostOps3 W (Proc.devRef .tc main_v50) =
    aggWith (W (Proc.devRef .tc main_v38)) (W (Proc.devRef .tc main_arg1)) (W (Proc.devRef .tc main_arg2))
      (W (Proc.devRef .tc main_v8)) := by
  after_results_simp; rfl

/-- After the second aggregation stretch the second bias row is the reshaped second bias. -/
theorem host3_v51 : StableHlo.after hostOps3 W (Proc.devRef .tc main_v51) = row128 (W (Proc.devRef .tc main_arg8)) := by
  after_results_simp; rfl

/-- After the third aggregation stretch the aggregate buffer holds the scaled neighbourhood sums of the third
    layer's input. -/
theorem host6_v80 : StableHlo.after hostOps6 W (Proc.devRef .tc main_v80) =
    aggWith (W (Proc.devRef .tc main_v68)) (W (Proc.devRef .tc main_arg1)) (W (Proc.devRef .tc main_arg2))
      (W (Proc.devRef .tc main_v8)) := by
  after_results_simp; rfl

/-- After the third aggregation stretch the third bias row is the reshaped third bias. -/
theorem host6_v81 : StableHlo.after hostOps6 W (Proc.devRef .tc main_v81) = row32 (W (Proc.devRef .tc main_arg11)) := by
  after_results_simp; rfl

end Cert.KernelIdeal.KRun

end
-- ==== Proof.KHost8.lean ====
/-
  The last stretch of host operations of the kernel program: from any contents `W` of the device's buffers, the
  result buffer holds the softmax of the column means of the last layer's column sums as `W` holds them.
-/
import proofs.«112237_j46686294507759_1_alg».proof.Proof.KStages
import Idealize.ShloMosaic.Lib.StableHlo.Run

noncomputable section

namespace Cert.KernelIdeal.KRun

open Idealize.ShloMosaic Idealize.ShloMosaic.TcCoe
open Cert.KernelIdeal.Gen

variable {F : FTy → Type} [FloatOps F] (W : Valuation τ sig (Elt F))

/-- After the last stretch the result buffer holds `tail` of the last layer's column sums. -/
theorem host8_v96 : StableHlo.after hostOps8 W (Proc.devRef .tc main_v96) = tail (W (Proc.devRef .tc main_v83_0)) := by
  after_results_simp; rfl

end Cert.KernelIdeal.KRun

end
-- ==== Proof.KNamed.lean ====
/-
  The kernel program's run, with the result buffer named: from any launch memory with zero counters every weakly
  fair execution of the program terminates without fault, the sixteen argument arrays end as launched, and the
  result buffer ends at the value the program's segments fold from the launch memory.
-/
import proofs.«112237_j46686294507759_1_alg».proof.Proof.Gen.KernelIdeal.Frame
import Idealize.ShloMosaic.PureOps.Ideal
import Idealize.ShloMosaic.Lib.StableHlo.Run
import Idealize.ShloMosaic.Lib.Pipeline.Value

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

-- the launch lemma's implicit arguments are found by unifying its conclusion with this one, which takes unfolding
-- plain definitions in a metavariable's type
set_option backward.isDefEq.respectTransparency.types false in
/-- The run of the kernel program at the extended reals: termination without fault, the result buffer at the last
    boundary's folded contents, and every argument array as launched. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v96) = Gen.W14 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v96 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c)⟩)

end Cert.KernelIdeal.KRun

end
-- ==== Proof.KRun.lean ====
/-
  The value of the kernel program. The program is eight pipelined regions among six stretches of host operations;
  its frame certificate states the contents of every buffer at every boundary between them as a fold from the launch
  memory. Here the fold is read at the buffers that matter: given, for each region, the array function its
  pipeline computes from its inputs (the ten hypotheses, proved region by region elsewhere), each boundary's
  buffers are computed one after the other as named functions of the sixteen argument arrays — an argument is never
  written, a host stretch's results are its named host functions, a region's outputs are its array functions of
  what the boundary before holds — down to the result buffer, which holds `kresult` of the arguments.
-/
import proofs.«112237_j46686294507759_1_alg».proof.Proof.Gen.KernelIdeal.Frame
import proofs.«112237_j46686294507759_1_alg».proof.Proof.Spec
import proofs.«112237_j46686294507759_1_alg».proof.Proof.KStages
import proofs.«112237_j46686294507759_1_alg».proof.Proof.KHost0
import proofs.«112237_j46686294507759_1_alg».proof.Proof.KHost2
import proofs.«112237_j46686294507759_1_alg».proof.Proof.KHost3
import proofs.«112237_j46686294507759_1_alg».proof.Proof.KHost8
import proofs.«112237_j46686294507759_1_alg».proof.Proof.KNamed
import Idealize.ShloMosaic.Lib.StableHlo.Run
import Idealize.ShloMosaic.Lib.Pipeline.Value

set_option maxRecDepth 16384

noncomputable section

namespace Cert.KernelIdeal.KRun

open Idealize.ShloMosaic Idealize.ShloMosaic.TcCoe Idealize.ShloMosaic.Tactic
open Idealize.SL Idealize.SL.Sem
open Idealize.ShloMosaic.Pipeline (Dat Cfg Window)
open Cert.KernelIdeal.Gen

/-- What each region's pipeline leaves in its output arrays, as an array function of the contents `V` the region
    is entered from: the ten region values the program's value is assembled from. -/
structure RegionValues : Prop where
  h0 : ∀ (V : (c : Dev nD) → (b : Ref sig .tc) → Buf (Elt Ideal) ((c : Thread nD τ).loc b)) (c : Dev nD),
    (Gen.dat0 (F := Ideal) V c).arrAt 5 cfg0.N = Cert.Sage.linRelu128 (V c main_arg0) (V c main_v20) (V c main_arg3) (V c main_arg4) (V c main_v21)
  h1s : ∀ (V : (c : Dev nD) → (b : Ref sig .tc) → Buf (Elt Ideal) ((c : Thread nD τ).loc b)) (c : Dev nD),
    (Gen.dat1 (F := Ideal) V c).arrAt 1 cfg1.N = Cert.Sage.colsum128 (V c main_v22)
  h1q : ∀ (V : (c : Dev nD) → (b : Ref sig .tc) → Buf (Elt Ideal) ((c : Thread nD τ).loc b)) (c : Dev nD),
    (Gen.dat1 (F := Ideal) V c).arrAt 2 cfg1.N = Cert.Sage.colsumsq128 (V c main_v22)
  h2 : ∀ (V : (c : Dev nD) → (b : Ref sig .tc) → Buf (Elt Ideal) ((c : Thread nD τ).loc b)) (c : Dev nD),
    (Gen.dat2 (F := Ideal) V c).arrAt 3 cfg2.N = Cert.Sage.affRelu (V c main_v22) (V c main_v34) (V c main_v37)
  h3 : ∀ (V : (c : Dev nD) → (b : Ref sig .tc) → Buf (Elt Ideal) ((c : Thread nD τ).loc b)) (c : Dev nD),
    (Gen.dat3 (F := Ideal) V c).arrAt 5 cfg3.N = Cert.Sage.linRelu128 (V c main_v38) (V c main_v50) (V c main_arg6) (V c main_arg7) (V c main_v51)
  h4s : ∀ (V : (c : Dev nD) → (b : Ref sig .tc) → Buf (Elt Ideal) ((c : Thread nD τ).loc b)) (c : Dev nD),
    (Gen.dat4 (F := Ideal) V c).arrAt 1 cfg4.N = Cert.Sage.colsum128 (V c main_v52)
  h4q : ∀ (V : (c : Dev nD) → (b : Ref sig .tc) → Buf (Elt Ideal) ((c : Thread nD τ).loc b)) (c : Dev nD),
    (Gen.dat4 (F := Ideal) V c).arrAt 2 cfg4.N = Cert.Sage.colsumsq128 (V c main_v52)
  h5 : ∀ (V : (c : Dev nD) → (b : Ref sig .tc) → Buf (Elt Ideal) ((c : Thread nD τ).loc b)) (c : Dev nD),
    (Gen.dat5 (F := Ideal) V c).arrAt 3 cfg5.N = Cert.Sage.affRelu (V c main_v52) (V c main_v64) (V c main_v67)
  h6 : ∀ (V : (c : Dev nD) → (b : Ref sig .tc) → Buf (Elt Ideal) ((c : Thread nD τ).loc b)) (c : Dev nD),
    (Gen.dat6 (F := Ideal) V c).arrAt 5 cfg6.N = Cert.Sage.lin32 (V c main_v68) (V c main_v80) (V c main_arg9) (V c main_arg10) (V c main_v81)
  h7s : ∀ (V : (c : Dev nD) → (b : Ref sig .tc) → Buf (Elt Ideal) ((c : Thread nD τ).loc b)) (c : Dev nD),
    (Gen.dat7 (F := Ideal) V c).arrAt 1 cfg7.N = Cert.Sage.colsum32 (V c main_v82)

/-- A buffer that no operation of a host stretch writes holds after the stretch what it held before: the
    stretch's operations are listed and the buffer told apart from each one's result buffer. -/
local macro "keepH " b:term:max : term =>
  `(StableHlo.after_of_forall_not_mem (b := Proc.devRef .tc $b) _ _ (List.forall_iff_forall_mem.mp (by
      simp only [hostOps0, hostOps2, hostOps3, hostOps5, hostOps6, hostOps8, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## The intermediate arrays, as functions of the launch contents of device `c` -/

/-- The first layer's rectified linear output. -/
def y0 : FVec Ideal S100000x128 .f32 :=
  Cert.Sage.linRelu128 (m ((c.tc : Thread nD τ).loc main_arg0)) (agg (F := Ideal) (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) (row128 (F := Ideal) (m ((c.tc : Thread nD τ).loc main_arg5)))

/-- The second layer's input: the first layer's output, batch-normalised and rectified. -/
def h1 : FVec Ideal S100000x128 .f32 :=
  Cert.Sage.affRelu (y0 m c)
    (scale (F := Ideal) (Cert.Sage.colsum128 (y0 m c)) (Cert.Sage.colsumsq128 (y0 m c)) (m ((c.tc : Thread nD τ).loc main_arg12)))
    (shift (F := Ideal) (Cert.Sage.colsum128 (y0 m c)) (Cert.Sage.colsumsq128 (y0 m c)) (m ((c.tc : Thread nD τ).loc main_arg12)) (m ((c.tc : Thread nD τ).loc main_arg13)))

/-- The second layer's rectified linear output. -/
def y1 : FVec Ideal S100000x128 .f32 :=
  Cert.Sage.linRelu128 (h1 m c) (agg (F := Ideal) (h1 m c) (m ((c.tc : Thread nD τ).loc main_arg1)) (m ((c.tc : Thread nD τ).loc main_arg2)))
    (m ((c.tc : Thread nD τ).loc main_arg6)) (m ((c.tc : Thread nD τ).loc main_arg7)) (row128 (F := Ideal) (m ((c.tc : Thread nD τ).loc main_arg8)))

/-- The third layer's input: the second layer's output, batch-normalised and rectified. -/
def h2 : FVec Ideal S100000x128 .f32 :=
  Cert.Sage.affRelu (y1 m c)
    (scale (F := Ideal) (Cert.Sage.colsum128 (y1 m c)) (Cert.Sage.colsumsq128 (y1 m c)) (m ((c.tc : Thread nD τ).loc main_arg14)))
    (shift (F := Ideal) (Cert.Sage.colsum128 (y1 m c)) (Cert.Sage.colsumsq128 (y1 m c)) (m ((c.tc : Thread nD τ).loc main_arg14)) (m ((c.tc : Thread nD τ).loc main_arg15)))

/-- The third layer's linear output (32 columns). -/
def z : FVec Ideal S100000x32 .f32 :=
  Cert.Sage.lin32 (h2 m c) (agg (F := Ideal) (h2 m c) (m ((c.tc : Thread nD τ).loc main_arg1)) (m ((c.tc : Thread nD τ).loc main_arg2)))
    (m ((c.tc : Thread nD τ).loc main_arg9)) (m ((c.tc : Thread nD τ).loc main_arg10)) (row32 (F := Ideal) (m ((c.tc : Thread nD τ).loc main_arg11)))

/-- The program's result is the softmax of the column means of the third layer's output. -/
theorem kresult_eq : tail (F := Ideal) (Cert.Sage.colsum32 (z m c)) =
    kresult (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) (m ((c.tc : Thread nD τ).loc main_arg15)) := rfl

/-! ## Congruences for the array functions (each argument replaced by an equal one) -/

theorem congr3 {α₁ α₂ α₃ β : Type} (f : α₁ → α₂ → α₃ → β) {a₁ b₁ : α₁} {a₂ b₂ : α₂} {a₃ b₃ : α₃}
    (e₁ : a₁ = b₁) (e₂ : a₂ = b₂) (e₃ : a₃ = b₃) : f a₁ a₂ a₃ = f b₁ b₂ b₃ := by
  subst e₁ e₂ e₃; rfl

theorem congr4 {α₁ α₂ α₃ α₄ β : Type} (f : α₁ → α₂ → α₃ → α₄ → β) {a₁ b₁ : α₁} {a₂ b₂ : α₂} {a₃ b₃ : α₃}
    {a₄ b₄ : α₄} (e₁ : a₁ = b₁) (e₂ : a₂ = b₂) (e₃ : a₃ = b₃) (e₄ : a₄ = b₄) :
    f a₁ a₂ a₃ a₄ = f b₁ b₂ b₃ b₄ := by
  subst e₁ e₂ e₃ e₄; rfl

theorem congr5 {α₁ α₂ α₃ α₄ α₅ β : Type} (f : α₁ → α₂ → α₃ → α₄ → α₅ → β) {a₁ b₁ : α₁} {a₂ b₂ : α₂}
    {a₃ b₃ : α₃} {a₄ b₄ : α₄} {a₅ b₅ : α₅} (e₁ : a₁ = b₁) (e₂ : a₂ = b₂) (e₃ : a₃ = b₃) (e₄ : a₄ = b₄)
    (e₅ : a₅ = b₅) : f a₁ a₂ a₃ a₄ a₅ = f b₁ b₂ b₃ b₄ b₅ := by
  subst e₁ e₂ e₃ e₄ e₅; rfl

/-! ## Boundary 1: after the first host stretch (region 0's entry) -/

/-- The input features are as launched. -/
theorem W1_arg0 : W1 m ρ c (Proc.devRef .tc main_arg0) = m ((c.tc : Thread nD τ).loc main_arg0) :=
  calc W1 m ρ c (Proc.devRef .tc main_arg0)
    _ = W0 m ρ c (Proc.devRef .tc main_arg0) := keepH main_arg0
    _ = m ((c.tc : Thread nD τ).loc main_arg0) := rfl
/-- The first self weights are as launched. -/
theorem W1_arg3 : W1 m ρ c (Proc.devRef .tc main_arg3) = m ((c.tc : Thread nD τ).loc main_arg3) :=
  calc W1 m ρ c (Proc.devRef .tc main_arg3)
    _ = W0 m ρ c (Proc.devRef .tc main_arg3) := keepH main_arg3
    _ = m ((c.tc : Thread nD τ).loc main_arg3) := rfl
/-- The first neighbour weights are as launched. -/
theorem W1_arg4 : W1 m ρ c (Proc.devRef .tc main_arg4) = m ((c.tc : Thread nD τ).loc main_arg4) :=
  calc W1 m ρ c (Proc.devRef .tc main_arg4)
    _ = W0 m ρ c (Proc.devRef .tc main_arg4) := keepH main_arg4
    _ = m ((c.tc : Thread nD τ).loc main_arg4) := rfl
/-- The aggregate buffer holds the neighbourhood mean of the input features. -/
theorem W1_v20 : W1 m ρ c (Proc.devRef .tc main_v20) = agg (F := Ideal) (m ((c.tc : Thread nD τ).loc main_arg0)) (m ((c.tc : Thread nD τ).loc main_arg1)) (m ((c.tc : Thread nD τ).loc main_arg2)) :=
  host0_v20 (W0 m ρ c)
/-- The first bias row. -/
theorem W1_v21 : W1 m ρ c (Proc.devRef .tc main_v21) = row128 (F := Ideal) (m ((c.tc : Thread nD τ).loc main_arg5)) :=
  host0_v21 (W0 m ρ c)
/-- The reciprocal in-degrees. -/
theorem W1_v8 : W1 m ρ c (Proc.devRef .tc main_v8) = invDeg (F := Ideal) (m ((c.tc : Thread nD τ).loc main_arg2)) :=
  host0_v8 (W0 m ρ c)

/-- The first gain is as launched when the first batch-normalisation stretch reads it. -/
theorem W3_arg12 : W3 m ρ c (Proc.devRef .tc main_arg12) = m ((c.tc : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := keepH main_arg12
    _ = m ((c.tc : Thread nD τ).loc main_arg12) := rfl
/-- The first offset is as launched when the first batch-normalisation stretch reads it. -/
theorem W3_arg13 : W3 m ρ c (Proc.devRef .tc main_arg13) = m ((c.tc : Thread nD τ).loc main_arg13) :=
  calc W3 m ρ c (Proc.devRef .tc main_arg13)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := keepH main_arg13
    _ = m ((c.tc : Thread nD τ).loc main_arg13) := rfl
/-- The edge sources are as launched when the second aggregation reads them. -/
theorem W5_arg1 : W5 m ρ c (Proc.devRef .tc main_arg1) = m ((c.tc : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := keepH main_arg1
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := keepH main_arg1
    _ = m ((c.tc : Thread nD τ).loc main_arg1) := rfl
/-- The edge destinations are as launched when the second aggregation reads them. -/
theorem W5_arg2 : W5 m ρ c (Proc.devRef .tc main_arg2) = m ((c.tc : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := keepH main_arg2
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := keepH main_arg2
    _ = m ((c.tc : Thread nD τ).loc main_arg2) := rfl
/-- The second bias is as launched when it is reshaped. -/
theorem W5_arg8 : W5 m ρ c (Proc.devRef .tc main_arg8) = m ((c.tc : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := keepH main_arg8
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := keepH main_arg8
    _ = m ((c.tc : Thread nD τ).loc main_arg8) := rfl
/-- The reciprocal in-degrees are still held when the second aggregation reads them. -/
theorem W5_v8 : W5 m ρ c (Proc.devRef .tc main_v8) = invDeg (F := Ideal) (m ((c.tc : Thread nD τ).loc main_arg2)) :=
  calc W5 m ρ c (Proc.devRef .tc main_v8)
    _ = W4 m ρ c (Proc.devRef .tc main_v8) := W5_of_ne m ρ c main_v8 (by decide)
    _ = W3 m ρ c (Proc.devRef .tc main_v8) := keepH main_v8
    _ = W2 m ρ c (Proc.devRef .tc main_v8) := W3_of_ne m ρ c main_v8 (by decide)
    _ = W1 m ρ c (Proc.devRef .tc main_v8) := W2_of_ne m ρ c main_v8 (by decide)
    _ = invDeg (F := Ideal) (m ((c.tc : Thread nD τ).loc main_arg2)) := W1_v8 m ρ c
/-- The second self weights are as launched at region 3's entry. -/
theorem W6_arg6 : W6 m ρ c (Proc.devRef .tc main_arg6) = m ((c.tc : Thread nD τ).loc main_arg6) :=
  calc W6 m ρ c (Proc.devRef .tc main_arg6)
    _ = W5 m ρ c (Proc.devRef .tc main_arg6) := keepH main_arg6
    _ = W4 m ρ c (Proc.devRef .tc main_arg6) := W5_of_ne m ρ c main_arg6 (by decide)
    _ = W3 m ρ c (Proc.devRef .tc main_arg6) := keepH main_arg6
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := keepH main_arg6
    _ = m ((c.tc : Thread nD τ).loc main_arg6) := rfl
/-- The second neighbour weights are as launched at region 3's entry. -/
theorem W6_arg7 : W6 m ρ c (Proc.devRef .tc main_arg7) = m ((c.tc : Thread nD τ).loc main_arg7) :=
  calc W6 m ρ c (Proc.devRef .tc main_arg7)
    _ = W5 m ρ c (Proc.devRef .tc main_arg7) := keepH main_arg7
    _ = W4 m ρ c (Proc.devRef .tc main_arg7) := W5_of_ne m ρ c main_arg7 (by decide)
    _ = W3 m ρ c (Proc.devRef .tc main_arg7) := keepH main_arg7
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := keepH main_arg7
    _ = m ((c.tc : Thread nD τ).loc main_arg7) := rfl
/-- The second gain is as launched when the second batch-normalisation stretch reads it. -/
theorem W8_arg14 : W8 m ρ c (Proc.devRef .tc main_arg14) = m ((c.tc : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := W7_of_ne m ρ c main_arg14 (by decide)
    _ = W5 m ρ c (Proc.devRef .tc main_arg14) := keepH main_arg14
    _ = W4 m ρ c (Proc.devRef .tc main_arg14) := W5_of_ne m ρ c main_arg14 (by decide)
    _ = W3 m ρ c (Proc.devRef .tc main_arg14) := keepH main_arg14
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := keepH main_arg14
    _ = m ((c.tc : Thread nD τ).loc main_arg14) := rfl
/-- The second offset is as launched when the second batch-normalisation stretch reads it. -/
theorem W8_arg15 : W8 m ρ c (Proc.devRef .tc main_arg15) = m ((c.tc : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := W7_of_ne m ρ c main_arg15 (by decide)
    _ = W5 m ρ c (Proc.devRef .tc main_arg15) := keepH main_arg15
    _ = W4 m ρ c (Proc.devRef .tc main_arg15) := W5_of_ne m ρ c main_arg15 (by decide)
    _ = W3 m ρ c (Proc.devRef .tc main_arg15) := keepH main_arg15
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := keepH main_arg15
    _ = m ((c.tc : Thread nD τ).loc main_arg15) := rfl
/-- The edge sources are as launched when the third aggregation reads them. -/
theorem W10_arg1 : W10 m ρ c (Proc.devRef .tc main_arg1) = m ((c.tc : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := keepH main_arg1
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := keepH main_arg1
    _ = m ((c.tc : Thread nD τ).loc main_arg1) := W5_arg1 m ρ c
/-- The edge destinations are as launched when the third aggregation reads them. -/
theorem W10_arg2 : W10 m ρ c (Proc.devRef .tc main_arg2) = m ((c.tc : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := keepH main_arg2
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := keepH main_arg2
    _ = m ((c.tc : Thread nD τ).loc main_arg2) := W5_arg2 m ρ c
/-- The third bias is as launched when it is reshaped. -/
theorem W10_arg11 : W10 m ρ c (Proc.devRef .tc main_arg11) = m ((c.tc : Thread nD τ).loc main_arg11) :=
  calc W10 m ρ c (Proc.devRef .tc main_arg11)
    _ = W9 m ρ c (Proc.devRef .tc main_arg11) := W10_of_ne m ρ c main_arg11 (by decide)
    _ = W8 m ρ c (Proc.devRef .tc main_arg11) := keepH main_arg11
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := keepH main_arg11
    _ = W4 m ρ c (Proc.devRef .tc main_arg11) := W5_of_ne m ρ c main_arg11 (by decide)
    _ = W3 m ρ c (Proc.devRef .tc main_arg11) := keepH main_arg11
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := keepH main_arg11
    _ = m ((c.tc : Thread nD τ).loc main_arg11) := rfl
/-- The reciprocal in-degrees are still held when the third aggregation reads them. -/
theorem W10_v8 : W10 m ρ c (Proc.devRef .tc main_v8) = invDeg (F := Ideal) (m ((c.tc : Thread nD τ).loc main_arg2)) :=
  calc W10 m ρ c (Proc.devRef .tc main_v8)
    _ = W9 m ρ c (Proc.devRef .tc main_v8) := W10_of_ne m ρ c main_v8 (by decide)
    _ = W8 m ρ c (Proc.devRef .tc main_v8) := keepH main_v8
    _ = W7 m ρ c (Proc.devRef .tc main_v8) := W8_of_ne m ρ c main_v8 (by decide)
    _ = W6 m ρ c (Proc.devRef .tc main_v8) := W7_of_ne m ρ c main_v8 (by decide)
    _ = W5 m ρ c (Proc.devRef .tc main_v8) := keepH main_v8
    _ = invDeg (F := Ideal) (m ((c.tc : Thread nD τ).loc main_arg2)) := W5_v8 m ρ c
/-- The third self weights are as launched at region 6's entry. -/
theorem W11_arg9 : W11 m ρ c (Proc.devRef .tc main_arg9) = m ((c.tc : Thread nD τ).loc main_arg9) :=
  calc W11 m ρ c (Proc.devRef .tc main_arg9)
    _ = W10 m ρ c (Proc.devRef .tc main_arg9) := keepH main_arg9
    _ = W9 m ρ c (Proc.devRef .tc main_arg9) := W10_of_ne m ρ c main_arg9 (by decide)
    _ = W8 m ρ c (Proc.devRef .tc main_arg9) := keepH main_arg9
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := keepH main_arg9
    _ = W4 m ρ c (Proc.devRef .tc main_arg9) := W5_of_ne m ρ c main_arg9 (by decide)
    _ = W3 m ρ c (Proc.devRef .tc main_arg9) := keepH main_arg9
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := keepH main_arg9
    _ = m ((c.tc : Thread nD τ).loc main_arg9) := rfl
/-- The third neighbour weights are as launched at region 6's entry. -/
theorem W11_arg10 : W11 m ρ c (Proc.devRef .tc main_arg10) = m ((c.tc : Thread nD τ).loc main_arg10) :=
  calc W11 m ρ c (Proc.devRef .tc main_arg10)
    _ = W10 m ρ c (Proc.devRef .tc main_arg10) := keepH main_arg10
    _ = W9 m ρ c (Proc.devRef .tc main_arg10) := W10_of_ne m ρ c main_arg10 (by decide)
    _ = W8 m ρ c (Proc.devRef .tc main_arg10) := keepH main_arg10
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := keepH main_arg10
    _ = W4 m ρ c (Proc.devRef .tc main_arg10) := W5_of_ne m ρ c main_arg10 (by decide)
    _ = W3 m ρ c (Proc.devRef .tc main_arg10) := keepH main_arg10
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := keepH main_arg10
    _ = m ((c.tc : Thread nD τ).loc main_arg10) := rfl

/-! ## The layers: each region's outputs from what the boundary before holds -/

section Values
variable (H : RegionValues)
include H

/-- Region 0 leaves the first layer's rectified linear output. -/
theorem W2_v22 : W2 m ρ c (Proc.devRef .tc main_v22) = y0 m c :=
  (W2_arr m ρ c 5).trans ((H.h0 (V1 m ρ) c).trans
    (congr5 Cert.Sage.linRelu128 (W1_arg0 m ρ c) (W1_v20 m ρ c) (W1_arg3 m ρ c) (W1_arg4 m ρ c) (W1_v21 m ρ c)))

/-- Region 1 leaves the column sums of the first layer's output, -/
theorem W3_v23_0 : W3 m ρ c (Proc.devRef .tc main_v23_0) = Cert.Sage.colsum128 (y0 m c) :=
  (W3_arr m ρ c 1).trans ((H.h1s (V2 m ρ) c).trans (congrArg Cert.Sage.colsum128 (W2_v22 m ρ c H)))
/-- and its column sums of squares, -/
theorem W3_v23_1 : W3 m ρ c (Proc.devRef .tc main_v23_1) = Cert.Sage.colsumsq128 (y0 m c) :=
  (W3_arr m ρ c 2).trans ((H.h1q (V2 m ρ) c).trans (congrArg Cert.Sage.colsumsq128 (W2_v22 m ρ c H)))
/-- and its input as it was. -/
theorem W3_v22 : W3 m ρ c (Proc.devRef .tc main_v22) = y0 m c :=
  calc W3 m ρ c (Proc.devRef .tc main_v22)
    _ = W2 m ρ c (Proc.devRef .tc main_v22) := (W3_arr m ρ c 0).trans (((dat1 (V2 m ρ) c).arrAt_in 0 rfl _).trans (A_eq1 (V2 m ρ) c 0))
    _ = y0 m c := W2_v22 m ρ c H

/-- The first batch-normalisation stretch leaves the scale row, -/
theorem W4_v34 : W4 m ρ c (Proc.devRef .tc main_v34) = scale (F := Ideal) (Cert.Sage.colsum128 (y0 m c)) (Cert.Sage.colsumsq128 (y0 m c)) (m ((c.tc : Thread nD τ).loc main_arg12)) :=
  (host2_v34 (W3 m ρ c)).trans
    (congr3 (scale (F := Ideal)) (W3_v23_0 m ρ c H) (W3_v23_1 m ρ c H) (W3_arg12 m ρ c))
/-- the shift row, -/
theorem W4_v37 : W4 m ρ c (Proc.devRef .tc main_v37) =
    shift (F := Ideal) (Cert.Sage.colsum128 (y0 m c)) (Cert.Sage.colsumsq128 (y0 m c)) (m ((c.tc : Thread nD τ).loc main_arg12)) (m ((c.tc : Thread nD τ).loc main_arg13)) :=
  (host2_v37 (W3 m ρ c)).trans
    (congr4 (shift (F := Ideal)) (W3_v23_0 m ρ c H) (W3_v23_1 m ρ c H) (W3_arg12 m ρ c) (W3_arg13 m ρ c))
/-- and the first layer's output as it was. -/
theorem W4_v22 : W4 m ρ c (Proc.devRef .tc main_v22) = y0 m c :=
  calc W4 m ρ c (Proc.devRef .tc main_v22)
    _ = W3 m ρ c (Proc.devRef .tc main_v22) := keepH main_v22
    _ = y0 m c := W3_v22 m ρ c H

/-- Region 2 leaves the second layer's input. -/
theorem W5_v38 : W5 m ρ c (Proc.devRef .tc main_v38) = h1 m c :=
  (W5_arr m ρ c 3).trans ((H.h2 (V4 m ρ) c).trans
    (congr3 Cert.Sage.affRelu (W4_v22 m ρ c H) (W4_v34 m ρ c H) (W4_v37 m ρ c H)))

/-- The second aggregation stretch leaves the neighbourhood mean of the second layer's input, -/
theorem W6_v50 : W6 m ρ c (Proc.devRef .tc main_v50) = agg (F := Ideal) (h1 m c) (m ((c.tc : Thread nD τ).loc main_arg1)) (m ((c.tc : Thread nD τ).loc main_arg2)) :=
  (host3_v50 (W5 m ρ c)).trans
    (congr4 (aggWith (F := Ideal)) (W5_v38 m ρ c H) (W5_arg1 m ρ c) (W5_arg2 m ρ c) (W5_v8 m ρ c))
/-- the second bias row, -/
theorem W6_v51 : W6 m ρ c (Proc.devRef .tc main_v51) = row128 (F := Ideal) (m ((c.tc : Thread nD τ).loc main_arg8)) :=
  (host3_v51 (W5 m ρ c)).trans (congrArg (row128 (F := Ideal)) (W5_arg8 m ρ c))
/-- and the second layer's input as it was. -/
theorem W6_v38 : W6 m ρ c (Proc.devRef .tc main_v38) = h1 m c :=
  calc W6 m ρ c (Proc.devRef .tc main_v38)
    _ = W5 m ρ c (Proc.devRef .tc main_v38) := keepH main_v38
    _ = h1 m c := W5_v38 m ρ c H

/-- Region 3 leaves the second layer's rectified linear output. -/
theorem W7_v52 : W7 m ρ c (Proc.devRef .tc main_v52) = y1 m c :=
  (W7_arr m ρ c 5).trans ((H.h3 (V6 m ρ) c).trans
    (congr5 Cert.Sage.linRelu128 (W6_v38 m ρ c H) (W6_v50 m ρ c H) (W6_arg6 m ρ c) (W6_arg7 m ρ c) (W6_v51 m ρ c H)))

/-- Region 4 leaves the column sums of the second layer's output, -/
theorem W8_v53_0 : W8 m ρ c (Proc.devRef .tc main_v53_0) = Cert.Sage.colsum128 (y1 m c) :=
  (W8_arr m ρ c 1).trans ((H.h4s (V7 m ρ) c).trans (congrArg Cert.Sage.colsum128 (W7_v52 m ρ c H)))
/-- and its column sums of squares, -/
theorem W8_v53_1 : W8 m ρ c (Proc.devRef .tc main_v53_1) = Cert.Sage.colsumsq128 (y1 m c) :=
  (W8_arr m ρ c 2).trans ((H.h4q (V7 m ρ) c).trans (congrArg Cert.Sage.colsumsq128 (W7_v52 m ρ c H)))
/-- and its input as it was. -/
theorem W8_v52 : W8 m ρ c (Proc.devRef .tc main_v52) = y1 m c :=
  calc W8 m ρ c (Proc.devRef .tc main_v52)
    _ = W7 m ρ c (Proc.devRef .tc main_v52) := (W8_arr m ρ c 0).trans (((dat4 (V7 m ρ) c).arrAt_in 0 rfl _).trans (A_eq4 (V7 m ρ) c 0))
    _ = y1 m c := W7_v52 m ρ c H

/-- The second batch-normalisation stretch leaves the scale row, -/
theorem W9_v64 : W9 m ρ c (Proc.devRef .tc main_v64) = scale (F := Ideal) (Cert.Sage.colsum128 (y1 m c)) (Cert.Sage.colsumsq128 (y1 m c)) (m ((c.tc : Thread nD τ).loc main_arg14)) :=
  (host5_v64 (W8 m ρ c)).trans
    (congr3 (scale (F := Ideal)) (W8_v53_0 m ρ c H) (W8_v53_1 m ρ c H) (W8_arg14 m ρ c))
/-- the shift row, -/
theorem W9_v67 : W9 m ρ c (Proc.devRef .tc main_v67) =
    shift (F := Ideal) (Cert.Sage.colsum128 (y1 m c)) (Cert.Sage.colsumsq128 (y1 m c)) (m ((c.tc : Thread nD τ).loc main_arg14)) (m ((c.tc : Thread nD τ).loc main_arg15)) :=
  (host5_v67 (W8 m ρ c)).trans
    (congr4 (shift (F := Ideal)) (W8_v53_0 m ρ c H) (W8_v53_1 m ρ c H) (W8_arg14 m ρ c) (W8_arg15 m ρ c))
/-- and the second layer's output as it was. -/
theorem W9_v52 : W9 m ρ c (Proc.devRef .tc main_v52) = y1 m c :=
  calc W9 m ρ c (Proc.devRef .tc main_v52)
    _ = W8 m ρ c (Proc.devRef .tc main_v52) := keepH main_v52
    _ = y1 m c := W8_v52 m ρ c H

/-- Region 5 leaves the third layer's input. -/
theorem W10_v68 : W10 m ρ c (Proc.devRef .tc main_v68) = h2 m c :=
  (W10_arr m ρ c 3).trans ((H.h5 (V9 m ρ) c).trans
    (congr3 Cert.Sage.affRelu (W9_v52 m ρ c H) (W9_v64 m ρ c H) (W9_v67 m ρ c H)))

/-- The third aggregation stretch leaves the neighbourhood mean of the third layer's input, -/
theorem W11_v80 : W11 m ρ c (Proc.devRef .tc main_v80) = agg (F := Ideal) (h2 m c) (m ((c.tc : Thread nD τ).loc main_arg1)) (m ((c.tc : Thread nD τ).loc main_arg2)) :=
  (host6_v80 (W10 m ρ c)).trans
    (congr4 (aggWith (F := Ideal)) (W10_v68 m ρ c H) (W10_arg1 m ρ c) (W10_arg2 m ρ c) (W10_v8 m ρ c))
/-- the third bias row, -/
theorem W11_v81 : W11 m ρ c (Proc.devRef .tc main_v81) = row32 (F := Ideal) (m ((c.tc : Thread nD τ).loc main_arg11)) :=
  (host6_v81 (W10 m ρ c)).trans (congrArg (row32 (F := Ideal)) (W10_arg11 m ρ c))
/-- and the third layer's input as it was. -/
theorem W11_v68 : W11 m ρ c (Proc.devRef .tc main_v68) = h2 m c :=
  calc W11 m ρ c (Proc.devRef .tc main_v68)
    _ = W10 m ρ c (Proc.devRef .tc main_v68) := keepH main_v68
    _ = h2 m c := W10_v68 m ρ c H

/-- Region 6 leaves the third layer's linear output. -/
theorem W12_v82 : W12 m ρ c (Proc.devRef .tc main_v82) = z m c :=
  (W12_arr m ρ c 5).trans ((H.h6 (V11 m ρ) c).trans
    (congr5 Cert.Sage.lin32 (W11_v68 m ρ c H) (W11_v80 m ρ c H) (W11_arg9 m ρ c) (W11_arg10 m ρ c) (W11_v81 m ρ c H)))

/-- Region 7 leaves the column sums of the third layer's output. -/
theorem W13_v83_0 : W13 m ρ c (Proc.devRef .tc main_v83_0) = Cert.Sage.colsum32 (z m c) :=
  (W13_arr m ρ c 1).trans ((H.h7s (V12 m ρ) c).trans (congrArg Cert.Sage.colsum32 (W12_v82 m ρ c H)))

/-- The last stretch leaves the softmax of their means in the result buffer. -/
theorem W14_v96 : W14 m ρ c (Proc.devRef .tc main_v96) = tail (F := Ideal) (Cert.Sage.colsum32 (z m c)) :=
  (host8_v96 (W13 m ρ c)).trans (congrArg (tail (F := Ideal)) (W13_v83_0 m ρ c H))

end Values

/-! ## The program's value -/

/-- The result buffer at the last boundary holds `kresult` of the argument arrays as launched, given what each
    region's pipeline leaves in its output arrays. -/
theorem kernel_value (m : (ℓ : Loc nD τ sig) → Buf (Elt Ideal) ℓ) (ρ : Dev nD → PrngReg) (c : Dev nD)
    (h0 : ∀ (V : (c : Dev nD) → (b : Ref sig .tc) → Buf (Elt Ideal) ((c : Thread nD τ).loc b)) (c : Dev nD), (Gen.dat0 (F := Ideal) V c).arrAt 5 cfg0.N = Cert.Sage.linRelu128 (V c main_arg0) (V c main_v20) (V c main_arg3) (V c main_arg4) (V c main_v21))
    (h1s : ∀ (V : (c : Dev nD) → (b : Ref sig .tc) → Buf (Elt Ideal) ((c : Thread nD τ).loc b)) (c : Dev nD), (Gen.dat1 (F := Ideal) V c).arrAt 1 cfg1.N = Cert.Sage.colsum128 (V c main_v22))
    (h1q : ∀ (V : (c : Dev nD) → (b : Ref sig .tc) → Buf (Elt Ideal) ((c : Thread nD τ).loc b)) (c : Dev nD), (Gen.dat1 (F := Ideal) V c).arrAt 2 cfg1.N = Cert.Sage.colsumsq128 (V c main_v22))
    (h2 : ∀ (V : (c : Dev nD) → (b : Ref sig .tc) → Buf (Elt Ideal) ((c : Thread nD τ).loc b)) (c : Dev nD), (Gen.dat2 (F := Ideal) V c).arrAt 3 cfg2.N = Cert.Sage.affRelu (V c main_v22) (V c main_v34) (V c main_v37))
    (h3 : ∀ (V : (c : Dev nD) → (b : Ref sig .tc) → Buf (Elt Ideal) ((c : Thread nD τ).loc b)) (c : Dev nD), (Gen.dat3 (F := Ideal) V c).arrAt 5 cfg3.N = Cert.Sage.linRelu128 (V c main_v38) (V c main_v50) (V c main_arg6) (V c main_arg7) (V c main_v51))
    (h4s : ∀ (V : (c : Dev nD) → (b : Ref sig .tc) → Buf (Elt Ideal) ((c : Thread nD τ).loc b)) (c : Dev nD), (Gen.dat4 (F := Ideal) V c).arrAt 1 cfg4.N = Cert.Sage.colsum128 (V c main_v52))
    (h4q : ∀ (V : (c : Dev nD) → (b : Ref sig .tc) → Buf (Elt Ideal) ((c : Thread nD τ).loc b)) (c : Dev nD), (Gen.dat4 (F := Ideal) V c).arrAt 2 cfg4.N = Cert.Sage.colsumsq128 (V c main_v52))
    (h5 : ∀ (V : (c : Dev nD) → (b : Ref sig .tc) → Buf (Elt Ideal) ((c : Thread nD τ).loc b)) (c : Dev nD), (Gen.dat5 (F := Ideal) V c).arrAt 3 cfg5.N = Cert.Sage.affRelu (V c main_v52) (V c main_v64) (V c main_v67))
    (h6 : ∀ (V : (c : Dev nD) → (b : Ref sig .tc) → Buf (Elt Ideal) ((c : Thread nD τ).loc b)) (c : Dev nD), (Gen.dat6 (F := Ideal) V c).arrAt 5 cfg6.N = Cert.Sage.lin32 (V c main_v68) (V c main_v80) (V c main_arg9) (V c main_arg10) (V c main_v81))
    (h7s : ∀ (V : (c : Dev nD) → (b : Ref sig .tc) → Buf (Elt Ideal) ((c : Thread nD τ).loc b)) (c : Dev nD), (Gen.dat7 (F := Ideal) V c).arrAt 1 cfg7.N = Cert.Sage.colsum32 (V c main_v82)) :
    Gen.W14 (F := Ideal) m ρ c (Proc.devRef .tc main_v96) =
    kresult (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) (m ((c.tc : Thread nD τ).loc main_arg15)) :=
  (W14_v96 m ρ c ⟨h0, h1s, h1q, h2, h3, h4s, h4q, h5, h6, h7s⟩).trans (kresult_eq m c)

/-- The run of the kernel program at the extended reals: from any launch memory with zero counters every weakly
    fair execution terminates without fault, the result buffer ends at `kresult` of the argument arrays as launched,
    and every argument array ends as launched. -/
theorem run (m : (ℓ : Loc nD τ sig) → Buf (Elt Ideal) ℓ) (ρ : Dev nD → PrngReg)
    (h0 : ∀ (V : (c : Dev nD) → (b : Ref sig .tc) → Buf (Elt Ideal) ((c : Thread nD τ).loc b)) (c : Dev nD), (Gen.dat0 (F := Ideal) V c).arrAt 5 cfg0.N = Cert.Sage.linRelu128 (V c main_arg0) (V c main_v20) (V c main_arg3) (V c main_arg4) (V c main_v21))
    (h1s : ∀ (V : (c : Dev nD) → (b : Ref sig .tc) → Buf (Elt Ideal) ((c : Thread nD τ).loc b)) (c : Dev nD), (Gen.dat1 (F := Ideal) V c).arrAt 1 cfg1.N = Cert.Sage.colsum128 (V c main_v22))
    (h1q : ∀ (V : (c : Dev nD) → (b : Ref sig .tc) → Buf (Elt Ideal) ((c : Thread nD τ).loc b)) (c : Dev nD), (Gen.dat1 (F := Ideal) V c).arrAt 2 cfg1.N = Cert.Sage.colsumsq128 (V c main_v22))
    (h2 : ∀ (V : (c : Dev nD) → (b : Ref sig .tc) → Buf (Elt Ideal) ((c : Thread nD τ).loc b)) (c : Dev nD), (Gen.dat2 (F := Ideal) V c).arrAt 3 cfg2.N = Cert.Sage.affRelu (V c main_v22) (V c main_v34) (V c main_v37))
    (h3 : ∀ (V : (c : Dev nD) → (b : Ref sig .tc) → Buf (Elt Ideal) ((c : Thread nD τ).loc b)) (c : Dev nD), (Gen.dat3 (F := Ideal) V c).arrAt 5 cfg3.N = Cert.Sage.linRelu128 (V c main_v38) (V c main_v50) (V c main_arg6) (V c main_arg7) (V c main_v51))
    (h4s : ∀ (V : (c : Dev nD) → (b : Ref sig .tc) → Buf (Elt Ideal) ((c : Thread nD τ).loc b)) (c : Dev nD), (Gen.dat4 (F := Ideal) V c).arrAt 1 cfg4.N = Cert.Sage.colsum128 (V c main_v52))
    (h4q : ∀ (V : (c : Dev nD) → (b : Ref sig .tc) → Buf (Elt Ideal) ((c : Thread nD τ).loc b)) (c : Dev nD), (Gen.dat4 (F := Ideal) V c).arrAt 2 cfg4.N = Cert.Sage.colsumsq128 (V c main_v52))
    (h5 : ∀ (V : (c : Dev nD) → (b : Ref sig .tc) → Buf (Elt Ideal) ((c : Thread nD τ).loc b)) (c : Dev nD), (Gen.dat5 (F := Ideal) V c).arrAt 3 cfg5.N = Cert.Sage.affRelu (V c main_v52) (V c main_v64) (V c main_v67))
    (h6 : ∀ (V : (c : Dev nD) → (b : Ref sig .tc) → Buf (Elt Ideal) ((c : Thread nD τ).loc b)) (c : Dev nD), (Gen.dat6 (F := Ideal) V c).arrAt 5 cfg6.N = Cert.Sage.lin32 (V c main_v68) (V c main_v80) (V c main_arg9) (V c main_arg10) (V c main_v81))
    (h7s : ∀ (V : (c : Dev nD) → (b : Ref sig .tc) → Buf (Elt Ideal) ((c : Thread nD τ).loc b)) (c : Dev nD), (Gen.dat7 (F := Ideal) V c).arrAt 1 cfg7.N = Cert.Sage.colsum32 (V c main_v82)) :
    θ_run (defs (F := Ideal)) (onTc (τ := τ) (main (F := Ideal))) ⟨m, fun _ => 0, ρ⟩ (fun r => ∀ c : Dev nD,
      r.2.mem ((c.tc : Thread nD τ).loc main_v96) =
        kresult (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run (defs (F := Ideal)) _ _).mono
    (fun r h c => ⟨(h c).1.trans (kernel_value m ρ c h0 h1s h1q h2 h3 h4s h4q h5 h6 h7s), (h c).2⟩)
    (run_named m ρ)

end Cert.KernelIdeal.KRun

end
-- ==== Proof.RefStages.lean ====
/- The reference program's stages as pure functions of its arguments: each body is the printed operations of one
   stretch of @main (and of the functions it calls), composed in the printed order over the printed shape
   records and literals. The three graph layers print the same records and literals, so one definition per
   stage serves all three. -/
import proofs.«112237_j46686294507759_1_alg».proof.ReferenceIdeal

noncomputable section

namespace Cert.ReferenceIdeal.RefRun

open Cert.ReferenceIdeal Cert.ReferenceIdeal.Facts₀ Idealize.ShloMosaic Idealize.SL.Sem

variable {F : FTy → Type} [FloatOps F] [Facts₀]

/-- %9 … %14 over a given scalar `z` (the printed zero): where `src < z` take `src + 100000`, else `src`;
    then the vector as a column. -/
def normIdxAt (z : IVec S_ 32) (src : IVec S1600000 32) : IVec S1600000x1 32 :=
  broadcastInDim S1600000x1 ![0] bcast_S1600000_S1600000x1_0
    (select (cmpi .slt src (broadcastInDim S1600000 ![] bcast_S_S1600000 z))
      (addi src (broadcastInDim S1600000 ![] bcast_S_S1600000 (constantI S_ 32 100000#32)))
      src)

/-- %9 … %14: negative source indices wrapped by the node count, as a column. -/
def normIdx (src : IVec S1600000 32) : IVec S1600000x1 32 :=
  normIdxAt (constantI S_ 32 0#32) src

/-- %cst … %8: one over the in-degree (ones scatter-added at `dst`), the degree clamped below by one, as a column. -/
def invDeg (dst : IVec S1600000 32) : FVec F S100000x1 .f32 :=
  broadcastInDim S100000x1 ![0] bcast_S100000_S100000x1_0
    (Host.divf (broadcastInDim S100000 ![] bcast_S_S100000 (constant S_ .f32 0x3F800000#32))
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 dst)
          (broadcastInDim S1600000 ![] bcast_S_S1600000 (constant S_ .f32 0x3F800000#32)))
        (broadcastInDim S100000 ![] bcast_S_S100000 (constant S_ .f32 0x3F800000#32))))

/-- %15 … %20 over a given index column and a given degree column: the rows of `h` gathered at `idx`,
    scatter-added at `dst` into zeros, each row scaled by its entry of `inv`. -/
def aggWith (h : FVec F S100000x128 .f32) (idx : IVec S1600000x1 32) (dst : IVec S1600000 32)
    (inv : FVec F S100000x1 .f32) : FVec F S100000x128 .f32 :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h idx))
    (broadcastInDim S100000x128 ![0, 1] bcast_S100000x1_S100000x128_0_1 inv)

/-- %15 … %20: the mean of the source rows over each node's incoming edges. -/
def agg (h : FVec F S100000x128 .f32) (src dst : IVec S1600000 32) : FVec F S100000x128 .f32 :=
  aggWith h (normIdx src) dst (invDeg dst)

/-- %21 … %26: `h · Ws + a · Wn + b`, the bias broadcast over the rows. -/
def lin128 (h a : FVec F S100000x128 .f32) (Ws Wn : FVec F S128x128 .f32) (b : FVec F S128 .f32) :
    FVec F S100000x128 .f32 :=
  addf
    (addf (Host.dotGeneral dot_S100000x128_S128x128_S100000x128_1_0_0_1_n_n none h Ws)
      (Host.dotGeneral dot_S100000x128_S128x128_S100000x128_1_0_0_1_n_n none a Wn))
    (broadcastInDim S100000x128 ![0, 1] bcast_S1x128_S100000x128_0_1
      (broadcastInDim S1x128 ![1] bcast_S128_S1x128_1 b))

/-- @relu: the maximum with zero. -/
def relu128 (x : FVec F S100000x128 .f32) : FVec F S100000x128 .f32 :=
  maximumf x (broadcastInDim S100000x128 ![] bcast_S_S100000x128 (constant S_ .f32 0x00000000#32))

/-- %28 … %30: the column means. -/
def colMean128 (y : FVec F S100000x128 .f32) : FVec F S128 .f32 :=
  Host.divf (Host.reduceAdd y (constant S_ .f32 0x00000000#32) reducesTo_S100000x128_S128_d0 h_S_)
    (broadcastInDim S128 ![] bcast_S_S128 (constant S_ .f32 0x47C35000#32))

/-- @_var's %7 … %8 at the printed count operand (the zero `%c_7`): the row count less it. -/
def varCount : FVec F S_ .f32 :=
  subf (constant S_ .f32 0x47C35000#32) (sitofp .f32 (constantI S_ 32 0#32))

/-- @_var's %0 … %6: the squared deviations from the column means. -/
def sqDev128 (y : FVec F S100000x128 .f32) : FVec F S100000x128 .f32 :=
  mulf
    (subf y
      (broadcastInDim S100000x128 ![0, 1] bcast_S1x128_S100000x128_0_1
        (Host.divf
          (broadcastInDim S1x128 ![1] bcast_S128_S1x128_1
            (Host.reduceAdd y (constant S_ .f32 0x00000000#32) reducesTo_S100000x128_S128_d0 h_S_))
          (broadcastInDim S1x128 ![] bcast_S_S1x128 (constant S_ .f32 0x47C35000#32)))))
    (subf y
      (broadcastInDim S100000x128 ![0, 1] bcast_S1x128_S100000x128_0_1
        (Host.divf
          (broadcastInDim S1x128 ![1] bcast_S128_S1x128_1
            (Host.reduceAdd y (constant S_ .f32 0x00000000#32) reducesTo_S100000x128_S128_d0 h_S_))
          (broadcastInDim S1x128 ![] bcast_S_S1x128 (constant S_ .f32 0x47C35000#32)))))

/-- @_var with @_where inlined: the column variances — the sum of squared deviations over the count where the
    count is positive, the printed not-a-number constant otherwise. -/
def colVar128 (y : FVec F S100000x128 .f32) : FVec F S128 .f32 :=
  select (broadcastInDim S128 ![] bcast_S_S128 (cmpf .ogt (varCount (F := F)) (constant S_ .f32 0x00000000#32)))
    (Host.divf (Host.reduceAdd (sqDev128 y) (constant S_ .f32 0x00000000#32) reducesTo_S100000x128_S128_d0 h_S_)
      (broadcastInDim S128 ![] bcast_S_S128 (varCount (F := F))))
    (broadcastInDim S128 ![] bcast_S_S128 (id (constant S_ .f32 0x7FC00000#32)))

/-- %28 … %46 with @_var and @_where inlined: the columns centred by their means, scaled by the reciprocal root of
    their variances plus the printed epsilon, then by `g`, then shifted by `be`. -/
def bn (y : FVec F S100000x128 .f32) (g be : FVec F S128 .f32) : FVec F S100000x128 .f32 :=
  addf
    (mulf
      (mulf
        (subf y
          (broadcastInDim S100000x128 ![0, 1] bcast_S1x128_S100000x128_0_1
            (broadcastInDim S1x128 ![1] bcast_S128_S1x128_1 (colMean128 y))))
        (broadcastInDim S100000x128 ![0, 1] bcast_S1x128_S100000x128_0_1
          (broadcastInDim S1x128 ![1] bcast_S128_S1x128_1
            (Host.rsqrt
              (addf (colVar128 y) (broadcastInDim S128 ![] bcast_S_S128 (constant S_ .f32 0x3727C5AC#32)))))))
      (broadcastInDim S100000x128 ![0, 1] bcast_S1x128_S100000x128_0_1
        (broadcastInDim S1x128 ![1] bcast_S128_S1x128_1 g)))
    (broadcastInDim S100000x128 ![0, 1] bcast_S1x128_S100000x128_0_1
      (broadcastInDim S1x128 ![1] bcast_S128_S1x128_1 be))

/-- %99 … %104: `h · Ws + a · Wn + b` into 32 columns. -/
def lin32 (h a : FVec F S100000x128 .f32) (Ws Wn : FVec F S128x32 .f32) (b : FVec F S32 .f32) :
    FVec F S100000x32 .f32 :=
  addf
    (addf (Host.dotGeneral dot_S100000x128_S128x32_S100000x32_1_0_0_1_n_n none h Ws)
      (Host.dotGeneral dot_S100000x128_S128x32_S100000x32_1_0_0_1_n_n none a Wn))
    (broadcastInDim S100000x32 ![0, 1] bcast_S1x32_S100000x32_0_1
      (broadcastInDim S1x32 ![1] bcast_S32_S1x32_1 b))

/-- %105 … %108: the column means, as a row. -/
def colMean32 (h3 : FVec F S100000x32 .f32) : FVec F S1x32 .f32 :=
  Host.divf
    (broadcastInDim S1x32 ![1] bcast_S32_S1x32_1
      (Host.reduceAdd h3 (constant S_ .f32 0x00000000#32) reducesTo_S100000x32_S32_d0 h_S_))
    (broadcastInDim S1x32 ![] bcast_S_S1x32 (constant S_ .f32 0x47C35000#32))

/-- %109 … %115: the exponentials of the row less its maximum. -/
def expShift (x : FVec F S1x32 .f32) : FVec F S1x32 .f32 :=
  Host.exp
    (subf x
      (broadcastInDim S1x32 ![0, 1] bcast_S1x1_S1x32_0_1
        (broadcastInDim S1x1 ![0] bcast_S1_S1x1_0
          (maximumf (broadcastInDim S1 ![] bcast_S_S1 (constant S_ .f32 0xFF800000#32))
            (Host.reduce FloatOps.maximumf x (constant S_ .f32 0xFF800000#32) reducesTo_S1x32_S1_d1 h_S_)))))

/-- %109 … %119: the softmax of a row. -/
def softmaxRow (x : FVec F S1x32 .f32) : FVec F S1x32 .f32 :=
  Host.divf (expShift x)
    (broadcastInDim S1x32 ![0, 1] bcast_S1x1_S1x32_0_1
      (broadcastInDim S1x1 ![0] bcast_S1_S1x1_0
        (Host.reduceAdd (expShift x) (constant S_ .f32 0x00000000#32) reducesTo_S1x32_S1_d1 h_S_)))

/-- %105 … %119: the column means, then their softmax. -/
def tail (h3 : FVec F S100000x32 .f32) : FVec F S1x32 .f32 :=
  softmaxRow (colMean32 h3)

/-- @main's result as a function of its sixteen arguments: three graph layers (the first two each followed by the
    column normalisation and @relu), the column means of the last, their softmax. -/
def result (x0 : FVec F S100000x128 .f32) (src dst : IVec S1600000 32)
    (Ws0 Wn0 : FVec F S128x128 .f32) (b0 : FVec F S128 .f32)
    (Ws1 Wn1 : FVec F S128x128 .f32) (b1 : FVec F S128 .f32)
    (Ws2 Wn2 : FVec F S128x32 .f32) (b2 : FVec F S32 .f32)
    (g0 be0 g1 be1 : FVec F S128 .f32) : FVec F S1x32 .f32 :=
  let y0 := relu128 (lin128 x0 (agg x0 src dst) Ws0 Wn0 b0)
  let h1 := relu128 (bn y0 g0 be0)
  let y1 := relu128 (lin128 h1 (agg h1 src dst) Ws1 Wn1 b1)
  let h2 := relu128 (bn y1 g1 be1)
  tail (lin32 h2 (agg h2 src dst) Ws2 Wn2 b2)

end Cert.ReferenceIdeal.RefRun

end
-- ==== Proof.RefRunOps.lean ====
/- The reference program's @main as a list of its host operations, the calls of the module-local functions
   replaced by the callee's operations over the call's buffer record, window by window as the program is printed;
   and its run read back: every weakly fair execution terminates with each buffer at the fold of the
   operations' results over the launch contents. -/
import proofs.«112237_j46686294507759_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60 of @main: 57 operations of its own, @relu twice (3 each) and @_var once (19, then @_where's 3). -/
abbrev ops0 : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg2 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v6 (broadcastInDim S100000 ![] bcast_S_S100000 : (⟨S_, .f32⟩ : BufTy).Contents (Elt F) → (⟨S100000, .f32⟩ : BufTy).Contents (Elt F)),
    binary main_v6 main_v5 main_v7 (Host.divf : (⟨S100000, .f32⟩ : BufTy).Contents (Elt F) → (⟨S100000, .f32⟩ : BufTy).Contents (Elt F) → (⟨S100000, .f32⟩ : BufTy).Contents (Elt F)),
    unary main_v7 main_v8 (broadcastInDim S100000x1 ![0] bcast_S100000_S100000x1_0 : (⟨S100000, .f32⟩ : BufTy).Contents (Elt F) → (⟨S100000x1, .f32⟩ : BufTy).Contents (Elt F)),
    nullary main_c (constantI S_ 32 0#32),
    unary main_c main_v9 (broadcastInDim S1600000 ![] bcast_S_S1600000 : (⟨S_, .i32⟩ : BufTy).Contents (Elt F) → (⟨S1600000, .i32⟩ : BufTy).Contents (Elt F)),
    binary main_arg1 main_v9 main_v10 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v11 (broadcastInDim S1600000 ![] bcast_S_S1600000 : (⟨S_, .i32⟩ : BufTy).Contents (Elt F) → (⟨S1600000, .i32⟩ : BufTy).Contents (Elt F)),
    binary main_arg1 main_v11 main_v12 (addi : (⟨S1600000, .i32⟩ : BufTy).Contents (Elt F) → (⟨S1600000, .i32⟩ : BufTy).Contents (Elt F) → (⟨S1600000, .i32⟩ : BufTy).Contents (Elt F)),
    ternary main_v10 main_v12 main_arg1 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v13 main_v14 (broadcastInDim S1600000x1 ![0] bcast_S1600000_S1600000x1_0 : (⟨S1600000, .i32⟩ : BufTy).Contents (Elt F) → (⟨S1600000x1, .i32⟩ : BufTy).Contents (Elt F)),
    binary main_arg0 main_v14 main_v15 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v16 (broadcastInDim S100000x128 ![] bcast_S_S100000x128 : (⟨S_, .f32⟩ : BufTy).Contents (Elt F) → (⟨S100000x128, .f32⟩ : BufTy).Contents (Elt F)),
    unary main_arg2 main_v17 (broadcastInDim S1600000x1 ![0] bcast_S1600000_S1600000x1_0 : (⟨S1600000, .i32⟩ : BufTy).Contents (Elt F) → (⟨S1600000x1, .i32⟩ : BufTy).Contents (Elt F)),
    ternary main_v16 main_v17 main_v15 main_v18 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v19 (broadcastInDim S100000x128 ![0, 1] bcast_S100000x1_S100000x128_0_1 : (⟨S100000x1, .f32⟩ : BufTy).Contents (Elt F) → (⟨S100000x128, .f32⟩ : BufTy).Contents (Elt F)),
    binary main_v18 main_v19 main_v20 (mulf : (⟨S100000x128, .f32⟩ : BufTy).Contents (Elt F) → (⟨S100000x128, .f32⟩ : BufTy).Contents (Elt F) → (⟨S100000x128, .f32⟩ : BufTy).Contents (Elt F)),
    binary main_arg0 main_arg3 main_v21 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v20 main_arg4 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v21 main_v22 main_v23 (addf : (⟨S100000x128, .f32⟩ : BufTy).Contents (Elt F) → (⟨S100000x128, .f32⟩ : BufTy).Contents (Elt F) → (⟨S100000x128, .f32⟩ : BufTy).Contents (Elt F)),
    unary main_arg5 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v23 main_v25 main_v26 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (TRef.of main_v26 : TRef sig ⟨S100000x128, .f32⟩) main_call0.v0 main_call0.v1 maximumf,
    nullary main_cst_5 (constant S_ .f32 0x00000000#32),
    binary main_v27 main_cst_5 main_v28 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_6 (constant S_ .f32 0x47C35000#32),
    unary main_cst_6 main_v29 (broadcastInDim S128 ![] bcast_S_S128 : (⟨S_, .f32⟩ : BufTy).Contents (Elt F) → (⟨S128, .f32⟩ : BufTy).Contents (Elt F)),
    binary main_v28 main_v29 main_v30 (Host.divf : (⟨S128, .f32⟩ : BufTy).Contents (Elt F) → (⟨S128, .f32⟩ : BufTy).Contents (Elt F) → (⟨S128, .f32⟩ : BufTy).Contents (Elt F)),
    nullary main_c_7 (constantI S_ 32 0#32),
    TRef.nullary main_call1.cst (constant S_ .f32 0x00000000#32),
    TRef.binary (TRef.of main_v27 : TRef sig ⟨S100000x128, .f32⟩) main_call1.cst main_call1.v0 (fun x v => Host.reduceAdd x v reducesTo_S100000x128_S128_d0 h_S_),
    TRef.unary main_call1.v0 main_call1.v1 (broadcastInDim S1x128 ![1] bcast_S128_S1x128_1),
    TRef.nullary main_call1.cst_0 (constant S_ .f32 0x47C35000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S100000x128 ![0, 1] bcast_S1x128_S100000x128_0_1),
    TRef.binary (TRef.of main_v27 : TRef sig ⟨S100000x128, .f32⟩) main_call1.v4 main_call1.v5 subf,
    TRef.binary main_call1.v5 main_call1.v5 main_call1.v6 mulf,
    TRef.unary (TRef.of main_c_7 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v30 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v27 main_v33 main_v34 (subf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x3727C5AC#32),
    unary main_cst_8 main_v35 (broadcastInDim S128 ![] bcast_S_S128 : (⟨S_, .f32⟩ : BufTy).Contents (Elt F) → (⟨S128, .f32⟩ : BufTy).Contents (Elt F)),
    binary main_v31 main_v35 main_v36 (addf : (⟨S128, .f32⟩ : BufTy).Contents (Elt F) → (⟨S128, .f32⟩ : BufTy).Contents (Elt F) → (⟨S128, .f32⟩ : BufTy).Contents (Elt F)),
    unary main_v36 main_v37 (Host.rsqrt : (⟨S128, .f32⟩ : BufTy).Contents (Elt F) → (⟨S128, .f32⟩ : BufTy).Contents (Elt F)),
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v34 main_v39 main_v40 (mulf : (⟨S100000x128, .f32⟩ : BufTy).Contents (Elt F) → (⟨S100000x128, .f32⟩ : BufTy).Contents (Elt F) → (⟨S100000x128, .f32⟩ : BufTy).Contents (Elt F)),
    unary main_arg12 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (mulf : (⟨S100000x128, .f32⟩ : BufTy).Contents (Elt F) → (⟨S100000x128, .f32⟩ : BufTy).Contents (Elt F) → (⟨S100000x128, .f32⟩ : BufTy).Contents (Elt F)),
    unary main_arg13 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (TRef.of main_v46 : TRef sig ⟨S100000x128, .f32⟩) main_call2.v0 main_call2.v1 maximumf,
    nullary main_c_9 (constantI S_ 32 0#32) ]

/-- Statements 61 … 120 of @main: 57 operations of its own, @relu twice and @_var once. -/
abbrev ops1 : List (HloOp τ sig (Elt F)) :=
  [ unary main_c_9 main_v48 (broadcastInDim S1600000 ![] bcast_S_S1600000 : (⟨S_, .i32⟩ : BufTy).Contents (Elt F) → (⟨S1600000, .i32⟩ : BufTy).Contents (Elt F)),
    binary main_arg1 main_v48 main_v49 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v50 (broadcastInDim S1600000 ![] bcast_S_S1600000 : (⟨S_, .i32⟩ : BufTy).Contents (Elt F) → (⟨S1600000, .i32⟩ : BufTy).Contents (Elt F)),
    binary main_arg1 main_v50 main_v51 (addi : (⟨S1600000, .i32⟩ : BufTy).Contents (Elt F) → (⟨S1600000, .i32⟩ : BufTy).Contents (Elt F) → (⟨S1600000, .i32⟩ : BufTy).Contents (Elt F)),
    ternary main_v49 main_v51 main_arg1 main_v52 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v52 main_v53 (broadcastInDim S1600000x1 ![0] bcast_S1600000_S1600000x1_0 : (⟨S1600000, .i32⟩ : BufTy).Contents (Elt F) → (⟨S1600000x1, .i32⟩ : BufTy).Contents (Elt F)),
    binary main_v47 main_v53 main_v54 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_11 (constant S_ .f32 0x00000000#32),
    unary main_cst_11 main_v55 (broadcastInDim S100000x128 ![] bcast_S_S100000x128 : (⟨S_, .f32⟩ : BufTy).Contents (Elt F) → (⟨S100000x128, .f32⟩ : BufTy).Contents (Elt F)),
    unary main_arg2 main_v56 (broadcastInDim S1600000x1 ![0] bcast_S1600000_S1600000x1_0 : (⟨S1600000, .i32⟩ : BufTy).Contents (Elt F) → (⟨S1600000x1, .i32⟩ : BufTy).Contents (Elt F)),
    ternary main_v55 main_v56 main_v54 main_v57 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v58 (broadcastInDim S100000x128 ![0, 1] bcast_S100000x1_S100000x128_0_1 : (⟨S100000x1, .f32⟩ : BufTy).Contents (Elt F) → (⟨S100000x128, .f32⟩ : BufTy).Contents (Elt F)),
    binary main_v57 main_v58 main_v59 (mulf : (⟨S100000x128, .f32⟩ : BufTy).Contents (Elt F) → (⟨S100000x128, .f32⟩ : BufTy).Contents (Elt F) → (⟨S100000x128, .f32⟩ : BufTy).Contents (Elt F)),
    binary main_v47 main_arg6 main_v60 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v59 main_arg7 main_v61 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v60 main_v61 main_v62 (addf : (⟨S100000x128, .f32⟩ : BufTy).Contents (Elt F) → (⟨S100000x128, .f32⟩ : BufTy).Contents (Elt F) → (⟨S100000x128, .f32⟩ : BufTy).Contents (Elt F)),
    unary main_arg8 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v62 main_v64 main_v65 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (TRef.of main_v65 : TRef sig ⟨S100000x128, .f32⟩) main_call3.v0 main_call3.v1 maximumf,
    nullary main_cst_12 (constant S_ .f32 0x00000000#32),
    binary main_v66 main_cst_12 main_v67 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_13 (constant S_ .f32 0x47C35000#32),
    unary main_cst_13 main_v68 (broadcastInDim S128 ![] bcast_S_S128 : (⟨S_, .f32⟩ : BufTy).Contents (Elt F) → (⟨S128, .f32⟩ : BufTy).Contents (Elt F)),
    binary main_v67 main_v68 main_v69 (Host.divf : (⟨S128, .f32⟩ : BufTy).Contents (Elt F) → (⟨S128, .f32⟩ : BufTy).Contents (Elt F) → (⟨S128, .f32⟩ : BufTy).Contents (Elt F)),
    nullary main_c_14 (constantI S_ 32 0#32),
    TRef.nullary main_call4.cst (constant S_ .f32 0x00000000#32),
    TRef.binary (TRef.of main_v66 : TRef sig ⟨S100000x128, .f32⟩) main_call4.cst main_call4.v0 (fun x v => Host.reduceAdd x v reducesTo_S100000x128_S128_d0 h_S_),
    TRef.unary main_call4.v0 main_call4.v1 (broadcastInDim S1x128 ![1] bcast_S128_S1x128_1),
    TRef.nullary main_call4.cst_0 (constant S_ .f32 0x47C35000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S100000x128 ![0, 1] bcast_S1x128_S100000x128_0_1),
    TRef.binary (TRef.of main_v66 : TRef sig ⟨S100000x128, .f32⟩) main_call4.v4 main_call4.v5 subf,
    TRef.binary main_call4.v5 main_call4.v5 main_call4.v6 mulf,
    TRef.unary (TRef.of main_c_14 : TRef sig ⟨S_, .i32⟩) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v69 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v66 main_v72 main_v73 (subf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x3727C5AC#32),
    unary main_cst_15 main_v74 (broadcastInDim S128 ![] bcast_S_S128 : (⟨S_, .f32⟩ : BufTy).Contents (Elt F) → (⟨S128, .f32⟩ : BufTy).Contents (Elt F)),
    binary main_v70 main_v74 main_v75 (addf : (⟨S128, .f32⟩ : BufTy).Contents (Elt F) → (⟨S128, .f32⟩ : BufTy).Contents (Elt F) → (⟨S128, .f32⟩ : BufTy).Contents (Elt F)),
    unary main_v75 main_v76 (Host.rsqrt : (⟨S128, .f32⟩ : BufTy).Contents (Elt F) → (⟨S128, .f32⟩ : BufTy).Contents (Elt F)),
    unary main_v76 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v73 main_v78 main_v79 (mulf : (⟨S100000x128, .f32⟩ : BufTy).Contents (Elt F) → (⟨S100000x128, .f32⟩ : BufTy).Contents (Elt F) → (⟨S100000x128, .f32⟩ : BufTy).Contents (Elt F)),
    unary main_arg14 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v79 main_v81 main_v82 (mulf : (⟨S100000x128, .f32⟩ : BufTy).Contents (Elt F) → (⟨S100000x128, .f32⟩ : BufTy).Contents (Elt F) → (⟨S100000x128, .f32⟩ : BufTy).Contents (Elt F)),
    unary main_arg15 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v82 main_v84 main_v85 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (TRef.of main_v85 : TRef sig ⟨S100000x128, .f32⟩) main_call5.v0 main_call5.v1 maximumf,
    nullary main_c_16 (constantI S_ 32 0#32),
    unary main_c_16 main_v87 (broadcastInDim S1600000 ![] bcast_S_S1600000 : (⟨S_, .i32⟩ : BufTy).Contents (Elt F) → (⟨S1600000, .i32⟩ : BufTy).Contents (Elt F)),
    binary main_arg1 main_v87 main_v88 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v89 (broadcastInDim S1600000 ![] bcast_S_S1600000 : (⟨S_, .i32⟩ : BufTy).Contents (Elt F) → (⟨S1600000, .i32⟩ : BufTy).Contents (Elt F)),
    binary main_arg1 main_v89 main_v90 (addi : (⟨S1600000, .i32⟩ : BufTy).Contents (Elt F) → (⟨S1600000, .i32⟩ : BufTy).Contents (Elt F) → (⟨S1600000, .i32⟩ : BufTy).Contents (Elt F)),
    ternary main_v88 main_v90 main_arg1 main_v91 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v91 main_v92 (broadcastInDim S1600000x1 ![0] bcast_S1600000_S1600000x1_0 : (⟨S1600000, .i32⟩ : BufTy).Contents (Elt F) → (⟨S1600000x1, .i32⟩ : BufTy).Contents (Elt F)),
    binary main_v86 main_v92 main_v93 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_18 (constant S_ .f32 0x00000000#32),
    unary main_cst_18 main_v94 (broadcastInDim S100000x128 ![] bcast_S_S100000x128 : (⟨S_, .f32⟩ : BufTy).Contents (Elt F) → (⟨S100000x128, .f32⟩ : BufTy).Contents (Elt F)),
    unary main_arg2 main_v95 (broadcastInDim S1600000x1 ![0] bcast_S1600000_S1600000x1_0 : (⟨S1600000, .i32⟩ : BufTy).Contents (Elt F) → (⟨S1600000x1, .i32⟩ : BufTy).Contents (Elt F)),
    ternary main_v94 main_v95 main_v93 main_v96 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v97 (broadcastInDim S100000x128 ![0, 1] bcast_S100000x1_S100000x128_0_1 : (⟨S100000x1, .f32⟩ : BufTy).Contents (Elt F) → (⟨S100000x128, .f32⟩ : BufTy).Contents (Elt F)),
    binary main_v96 main_v97 main_v98 (mulf : (⟨S100000x128, .f32⟩ : BufTy).Contents (Elt F) → (⟨S100000x128, .f32⟩ : BufTy).Contents (Elt F) → (⟨S100000x128, .f32⟩ : BufTy).Contents (Elt F)) ]

/-- Statements 121 … 146 of @main (147 is the return). -/
abbrev ops2 : List (HloOp τ sig (Elt F)) :=
  [ binary main_v86 main_arg9 main_v99 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    binary main_v98 main_arg10 main_v100 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    binary main_v99 main_v100 main_v101 (addf : (⟨S100000x32, .f32⟩ : BufTy).Contents (Elt F) → (⟨S100000x32, .f32⟩ : BufTy).Contents (Elt F) → (⟨S100000x32, .f32⟩ : BufTy).Contents (Elt F)),
    unary main_arg11 main_v102 (broadcastInDim S1x32 ![1] bcast_S32_S1x32_1 : (⟨S32, .f32⟩ : BufTy).Contents (Elt F) → (⟨S1x32, .f32⟩ : BufTy).Contents (Elt F)),
    unary main_v102 main_v103 (broadcastInDim S100000x32 ![0, 1] bcast_S1x32_S100000x32_0_1 : (⟨S1x32, .f32⟩ : BufTy).Contents (Elt F) → (⟨S100000x32, .f32⟩ : BufTy).Contents (Elt F)),
    binary main_v101 main_v103 main_v104 (addf : (⟨S100000x32, .f32⟩ : BufTy).Contents (Elt F) → (⟨S100000x32, .f32⟩ : BufTy).Contents (Elt F) → (⟨S100000x32, .f32⟩ : BufTy).Contents (Elt F)),
    nullary main_cst_19 (constant S_ .f32 0x00000000#32),
    binary main_v104 main_cst_19 main_v105 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    unary main_v105 main_v106 (broadcastInDim S1x32 ![1] bcast_S32_S1x32_1 : (⟨S32, .f32⟩ : BufTy).Contents (Elt F) → (⟨S1x32, .f32⟩ : BufTy).Contents (Elt F)),
    nullary main_cst_20 (constant S_ .f32 0x47C35000#32),
    unary main_cst_20 main_v107 (broadcastInDim S1x32 ![] bcast_S_S1x32 : (⟨S_, .f32⟩ : BufTy).Contents (Elt F) → (⟨S1x32, .f32⟩ : BufTy).Contents (Elt F)),
    binary main_v106 main_v107 main_v108 (Host.divf : (⟨S1x32, .f32⟩ : BufTy).Contents (Elt F) → (⟨S1x32, .f32⟩ : BufTy).Contents (Elt F) → (⟨S1x32, .f32⟩ : BufTy).Contents (Elt F)),
    nullary main_cst_21 (constant S_ .f32 0xFF800000#32),
    binary main_v108 main_cst_21 main_v109 ((fun x v => Host.reduce FloatOps.maximumf x v reducesTo_S1x32_S1_d1 h_S_) : (⟨S1x32, .f32⟩ : BufTy).Contents (Elt F) → (⟨S_, .f32⟩ : BufTy).Contents (Elt F) → (⟨S1, .f32⟩ : BufTy).Contents (Elt F)),
    nullary main_cst_22 (constant S_ .f32 0xFF800000#32),
    unary main_cst_22 main_v110 (broadcastInDim S1 ![] bcast_S_S1 : (⟨S_, .f32⟩ : BufTy).Contents (Elt F) → (⟨S1, .f32⟩ : BufTy).Contents (Elt F)),
    binary main_v110 main_v109 main_v111 (maximumf : (⟨S1, .f32⟩ : BufTy).Contents (Elt F) → (⟨S1, .f32⟩ : BufTy).Contents (Elt F) → (⟨S1, .f32⟩ : BufTy).Contents (Elt F)),
    unary main_v111 main_v112 (broadcastInDim S1x1 ![0] bcast_S1_S1x1_0 : (⟨S1, .f32⟩ : BufTy).Contents (Elt F) → (⟨S1x1, .f32⟩ : BufTy).Contents (Elt F)),
    unary main_v112 main_v113 (broadcastInDim S1x32 ![0, 1] bcast_S1x1_S1x32_0_1 : (⟨S1x1, .f32⟩ : BufTy).Contents (Elt F) → (⟨S1x32, .f32⟩ : BufTy).Contents (Elt F)),
    binary main_v108 main_v113 main_v114 (subf : (⟨S1x32, .f32⟩ : BufTy).Contents (Elt F) → (⟨S1x32, .f32⟩ : BufTy).Contents (Elt F) → (⟨S1x32, .f32⟩ : BufTy).Contents (Elt F)),
    unary main_v114 main_v115 (Host.exp : (⟨S1x32, .f32⟩ : BufTy).Contents (Elt F) → (⟨S1x32, .f32⟩ : BufTy).Contents (Elt F)),
    nullary main_cst_23 (constant S_ .f32 0x00000000#32),
    binary main_v115 main_cst_23 main_v116 ((fun x v => Host.reduceAdd x v reducesTo_S1x32_S1_d1 h_S_) : (⟨S1x32, .f32⟩ : BufTy).Contents (Elt F) → (⟨S_, .f32⟩ : BufTy).Contents (Elt F) → (⟨S1, .f32⟩ : BufTy).Contents (Elt F)),
    unary main_v116 main_v117 (broadcastInDim S1x1 ![0] bcast_S1_S1x1_0 : (⟨S1, .f32⟩ : BufTy).Contents (Elt F) → (⟨S1x1, .f32⟩ : BufTy).Contents (Elt F)),
    unary main_v117 main_v118 (broadcastInDim S1x32 ![0, 1] bcast_S1x1_S1x32_0_1 : (⟨S1x1, .f32⟩ : BufTy).Contents (Elt F) → (⟨S1x32, .f32⟩ : BufTy).Contents (Elt F)),
    binary main_v115 main_v118 main_v119 (Host.divf : (⟨S1x32, .f32⟩ : BufTy).Contents (Elt F) → (⟨S1x32, .f32⟩ : BufTy).Contents (Elt F) → (⟨S1x32, .f32⟩ : BufTy).Contents (Elt F)) ]

/-- @main's 196 operations, in order. -/
abbrev ops : List (HloOp τ sig (Elt F)) := ops0 ++ (ops1 ++ ops2)

-- one bind re-associated per statement: `simp`'s rewrite under the chain recurses once per statement
set_option maxRecDepth 4096 in
set_option maxHeartbeats 4000000 in
/-- The first window is that straight line: the functions' definitions unfolded at their calls, both sides are one
    chain of `hlo` steps once sequencing is reassociated. -/
theorem part0_eq (c : Dev nD) : main_part0 (F := F) c = seq ops0 := by
  simp only [main_part0, fn_relu.body, fn_var.body, fn_where.body, seq, bind_assoc, pure_bind]
  rfl

set_option maxRecDepth 4096 in
set_option maxHeartbeats 4000000 in
theorem part1_eq (c : Dev nD) : main_part1 (F := F) c = seq ops1 := by
  simp only [main_part1, fn_relu.body, fn_var.body, fn_where.body, seq, bind_assoc, pure_bind]
  rfl

set_option maxRecDepth 4096 in
set_option maxHeartbeats 4000000 in
theorem part2_eq (c : Dev nD) : main_part2 (F := F) c = seq ops2 := by
  simp only [main_part2, seq, bind_assoc, pure_bind]

/-- @main runs its three windows in order: the concatenation run as one line. -/
theorem main_eq (c : Dev nD) : main (F := F) c = seq ops := by
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub ..⟩
theorem ops1_sub : (ops1 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩
theorem ops2_sub : (ops2 : List (HloOp τ sig (Elt F))).Forall fun op => op.bufs ⊆ tcRefs τ sig :=
  ⟨binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    rcases List.mem_append.mp h with h | h
    · exact List.forall_iff_forall_mem.mp ops1_sub op h
    · exact List.forall_iff_forall_mem.mp ops2_sub op h

/-- No operation of a window allocates: each determines its result. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  rcases List.mem_append.mp h with h | h
  · exact ops0_fresh op h
  rcases List.mem_append.mp h with h | h
  · exact ops1_fresh op h
  · exact ops2_fresh op h

/-- The contents after two lines run in order. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The contents after @main's operations, window by window. -/
theorem after_ops (V : Valuation τ sig (Elt F)) : after ops V = after ops2 (after ops1 (after ops0 V)) := by
  rw [after_append, after_append]

/-- On every device, for any float values, from any memory with zero counters: every weakly fair execution of @main
    terminates, and every final state has each buffer at the fold of the operations' results over its launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRunW0.lean ====
/- The first window of the reference program's @main read back: from any contents, the buffers later windows read
   are the stage functions of the contents of the arguments, and the arguments keep their contents. -/
import proofs.«112237_j46686294507759_1_alg».proof.Proof.RefStages
import proofs.«112237_j46686294507759_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 4000000 in
/-- %47: the first layer, normalised, through @relu. -/
theorem w0_v47 (V : Valuation τ sig (Elt F)) :
    after ops0 V (main_v47 : DevRef τ sig)
      = relu128 (bn (relu128 (lin128 (V (main_arg0 : DevRef τ sig)) (agg (V (main_arg0 : DevRef τ sig)) (V (main_arg1 : DevRef τ sig)) (V (main_arg2 : DevRef τ sig)))
          (V (main_arg3 : DevRef τ sig)) (V (main_arg4 : DevRef τ sig)) (V (main_arg5 : DevRef τ sig)))) (V (main_arg12 : DevRef τ sig)) (V (main_arg13 : DevRef τ sig))) := by
  after_results_simp
  rfl

attribute [local irreducible] Host.reduce Host.reduceAdd Host.gather Host.scatterAdd in
set_option maxRecDepth 8192 in
/-- %8: the reciprocal degrees. -/
theorem w0_v8 (V : Valuation τ sig (Elt F)) :
    after ops0 V (main_v8 : DevRef τ sig) = invDeg (V (main_arg2 : DevRef τ sig)) := by
  after_results_simp
  rfl

/-- %c_9: the zero the second layer's index comparison reads. -/
theorem w0_c9 (V : Valuation τ sig (Elt F)) :
    after ops0 V (main_c_9 : DevRef τ sig) = (constantI S_ 32 0#32 : IVec S_ 32) := by
  after_results_simp

theorem w0_arg0 (V : Valuation τ sig (Elt F)) :
    after ops0 V (main_arg0 : DevRef τ sig) = V (main_arg0 : DevRef τ sig) := by
  after_results_simp
theorem w0_arg1 (V : Valuation τ sig (Elt F)) :
    after ops0 V (main_arg1 : DevRef τ sig) = V (main_arg1 : DevRef τ sig) := by
  after_results_simp
theorem w0_arg2 (V : Valuation τ sig (Elt F)) :
    after ops0 V (main_arg2 : DevRef τ sig) = V (main_arg2 : DevRef τ sig) := by
  after_results_simp
theorem w0_arg3 (V : Valuation τ sig (Elt F)) :
    after ops0 V (main_arg3 : DevRef τ sig) = V (main_arg3 : DevRef τ sig) := by
  after_results_simp
theorem w0_arg4 (V : Valuation τ sig (Elt F)) :
    after ops0 V (main_arg4 : DevRef τ sig) = V (main_arg4 : DevRef τ sig) := by
  after_results_simp
theorem w0_arg5 (V : Valuation τ sig (Elt F)) :
    after ops0 V (main_arg5 : DevRef τ sig) = V (main_arg5 : DevRef τ sig) := by
  after_results_simp
theorem w0_arg6 (V : Valuation τ sig (Elt F)) :
    after ops0 V (main_arg6 : DevRef τ sig) = V (main_arg6 : DevRef τ sig) := by
  after_results_simp
theorem w0_arg7 (V : Valuation τ sig (Elt F)) :
    after ops0 V (main_arg7 : DevRef τ sig) = V (main_arg7 : DevRef τ sig) := by
  after_results_simp
theorem w0_arg8 (V : Valuation τ sig (Elt F)) :
    after ops0 V (main_arg8 : DevRef τ sig) = V (main_arg8 : DevRef τ sig) := by
  after_results_simp
theorem w0_arg9 (V : Valuation τ sig (Elt F)) :
    after ops0 V (main_arg9 : DevRef τ sig) = V (main_arg9 : DevRef τ sig) := by
  after_results_simp
theorem w0_arg10 (V : Valuation τ sig (Elt F)) :
    after ops0 V (main_arg10 : DevRef τ sig) = V (main_arg10 : DevRef τ sig) := by
  after_results_simp
theorem w0_arg11 (V : Valuation τ sig (Elt F)) :
    after ops0 V (main_arg11 : DevRef τ sig) = V (main_arg11 : DevRef τ sig) := by
  after_results_simp
theorem w0_arg12 (V : Valuation τ sig (Elt F)) :
    after ops0 V (main_arg12 : DevRef τ sig) = V (main_arg12 : DevRef τ sig) := by
  after_results_simp
theorem w0_arg13 (V : Valuation τ sig (Elt F)) :
    after ops0 V (main_arg13 : DevRef τ sig) = V (main_arg13 : DevRef τ sig) := by
  after_results_simp
theorem w0_arg14 (V : Valuation τ sig (Elt F)) :
    after ops0 V (main_arg14 : DevRef τ sig) = V (main_arg14 : DevRef τ sig) := by
  after_results_simp
theorem w0_arg15 (V : Valuation τ sig (Elt F)) :
    after ops0 V (main_arg15 : DevRef τ sig) = V (main_arg15 : DevRef τ sig) := by
  after_results_simp

end Cert.ReferenceIdeal.RefRun

end
-- ==== Proof.RefRunW1.lean ====
/- The second window of the reference program's @main read back: from any contents, the buffers the third window
   reads are the stage functions of the contents of the buffers this window reads, and the arguments keep theirs. -/
import proofs.«112237_j46686294507759_1_alg».proof.Proof.RefStages
import proofs.«112237_j46686294507759_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxRecDepth 8192 in
set_option maxHeartbeats 4000000 in
/-- %86: the second layer, normalised, through @relu — over the first layer's result (%47), the zero %c_9 and the
    reciprocal degrees (%8) the first window left. -/
theorem w1_v86 (V : Valuation τ sig (Elt F)) :
    after ops1 V (main_v86 : DevRef τ sig)
      = relu128 (bn (relu128 (lin128 (V (main_v47 : DevRef τ sig))
          (aggWith (V (main_v47 : DevRef τ sig)) (normIdxAt (V (main_c_9 : DevRef τ sig)) (V (main_arg1 : DevRef τ sig))) (V (main_arg2 : DevRef τ sig)) (V (main_v8 : DevRef τ sig)))
          (V (main_arg6 : DevRef τ sig)) (V (main_arg7 : DevRef τ sig)) (V (main_arg8 : DevRef τ sig)))) (V (main_arg14 : DevRef τ sig)) (V (main_arg15 : DevRef τ sig))) := by
  after_results_simp
  rfl

attribute [local irreducible] Host.reduce Host.reduceAdd Host.gather Host.scatterAdd in
set_option maxRecDepth 8192 in
set_option maxHeartbeats 4000000 in
/-- %98: the third layer's aggregation of %86. -/
theorem w1_v98 (V : Valuation τ sig (Elt F)) :
    after ops1 V (main_v98 : DevRef τ sig)
      = aggWith (after ops1 V (main_v86 : DevRef τ sig)) (normIdx (V (main_arg1 : DevRef τ sig))) (V (main_arg2 : DevRef τ sig)) (V (main_v8 : DevRef τ sig)) := by
  after_results_simp
  rfl

theorem w1_arg0 (V : Valuation τ sig (Elt F)) :
    after ops1 V (main_arg0 : DevRef τ sig) = V (main_arg0 : DevRef τ sig) := by
  after_results_simp
theorem w1_arg1 (V : Valuation τ sig (Elt F)) :
    after ops1 V (main_arg1 : DevRef τ sig) = V (main_arg1 : DevRef τ sig) := by
  after_results_simp
theorem w1_arg2 (V : Valuation τ sig (Elt F)) :
    after ops1 V (main_arg2 : DevRef τ sig) = V (main_arg2 : DevRef τ sig) := by
  after_results_simp
theorem w1_arg3 (V : Valuation τ sig (Elt F)) :
    after ops1 V (main_arg3 : DevRef τ sig) = V (main_arg3 : DevRef τ sig) := by
  after_results_simp
theorem w1_arg4 (V : Valuation τ sig (Elt F)) :
    after ops1 V (main_arg4 : DevRef τ sig) = V (main_arg4 : DevRef τ sig) := by
  after_results_simp
theorem w1_arg5 (V : Valuation τ sig (Elt F)) :
    after ops1 V (main_arg5 : DevRef τ sig) = V (main_arg5 : DevRef τ sig) := by
  after_results_simp
theorem w1_arg6 (V : Valuation τ sig (Elt F)) :
    after ops1 V (main_arg6 : DevRef τ sig) = V (main_arg6 : DevRef τ sig) := by
  after_results_simp
theorem w1_arg7 (V : Valuation τ sig (Elt F)) :
    after ops1 V (main_arg7 : DevRef τ sig) = V (main_arg7 : DevRef τ sig) := by
  after_results_simp
theorem w1_arg8 (V : Valuation τ sig (Elt F)) :
    after ops1 V (main_arg8 : DevRef τ sig) = V (main_arg8 : DevRef τ sig) := by
  after_results_simp
theorem w1_arg9 (V : Valuation τ sig (Elt F)) :
    after ops1 V (main_arg9 : DevRef τ sig) = V (main_arg9 : DevRef τ sig) := by
  after_results_simp
theorem w1_arg10 (V : Valuation τ sig (Elt F)) :
    after ops1 V (main_arg10 : DevRef τ sig) = V (main_arg10 : DevRef τ sig) := by
  after_results_simp
theorem w1_arg11 (V : Valuation τ sig (Elt F)) :
    after ops1 V (main_arg11 : DevRef τ sig) = V (main_arg11 : DevRef τ sig) := by
  after_results_simp
theorem w1_arg12 (V : Valuation τ sig (Elt F)) :
    after ops1 V (main_arg12 : DevRef τ sig) = V (main_arg12 : DevRef τ sig) := by
  after_results_simp
theorem w1_arg13 (V : Valuation τ sig (Elt F)) :
    after ops1 V (main_arg13 : DevRef τ sig) = V (main_arg13 : DevRef τ sig) := by
  after_results_simp
theorem w1_arg14 (V : Valuation τ sig (Elt F)) :
    after ops1 V (main_arg14 : DevRef τ sig) = V (main_arg14 : DevRef τ sig) := by
  after_results_simp
theorem w1_arg15 (V : Valuation τ sig (Elt F)) :
    after ops1 V (main_arg15 : DevRef τ sig) = V (main_arg15 : DevRef τ sig) := by
  after_results_simp

end Cert.ReferenceIdeal.RefRun

end
-- ==== Proof.RefRunW2.lean ====
/- The third window of the reference program's @main read back: from any contents, the result buffer after its
   operations is the column-mean softmax of the last layer's linear map of the contents of the buffers the window
   reads, and the arguments keep their contents. -/
import proofs.«112237_j46686294507759_1_alg».proof.Proof.RefStages
import proofs.«112237_j46686294507759_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd in
set_option maxRecDepth 8192 in
/-- %99 … %119 from any contents. -/
theorem w2_v119 (V : Valuation τ sig (Elt F)) :
    after ops2 V (main_v119 : DevRef τ sig)
      = tail (lin32 (V (main_v86 : DevRef τ sig)) (V (main_v98 : DevRef τ sig)) (V (main_arg9 : DevRef τ sig))
          (V (main_arg10 : DevRef τ sig)) (V (main_arg11 : DevRef τ sig))) := by
  after_results_simp
  rfl

theorem w2_arg0 (V : Valuation τ sig (Elt F)) :
    after ops2 V (main_arg0 : DevRef τ sig) = V (main_arg0 : DevRef τ sig) := by
  after_results_simp
theorem w2_arg1 (V : Valuation τ sig (Elt F)) :
    after ops2 V (main_arg1 : DevRef τ sig) = V (main_arg1 : DevRef τ sig) := by
  after_results_simp
theorem w2_arg2 (V : Valuation τ sig (Elt F)) :
    after ops2 V (main_arg2 : DevRef τ sig) = V (main_arg2 : DevRef τ sig) := by
  after_results_simp
theorem w2_arg3 (V : Valuation τ sig (Elt F)) :
    after ops2 V (main_arg3 : DevRef τ sig) = V (main_arg3 : DevRef τ sig) := by
  after_results_simp
theorem w2_arg4 (V : Valuation τ sig (Elt F)) :
    after ops2 V (main_arg4 : DevRef τ sig) = V (main_arg4 : DevRef τ sig) := by
  after_results_simp
theorem w2_arg5 (V : Valuation τ sig (Elt F)) :
    after ops2 V (main_arg5 : DevRef τ sig) = V (main_arg5 : DevRef τ sig) := by
  after_results_simp
theorem w2_arg6 (V : Valuation τ sig (Elt F)) :
    after ops2 V (main_arg6 : DevRef τ sig) = V (main_arg6 : DevRef τ sig) := by
  after_results_simp
theorem w2_arg7 (V : Valuation τ sig (Elt F)) :
    after ops2 V (main_arg7 : DevRef τ sig) = V (main_arg7 : DevRef τ sig) := by
  after_results_simp
theorem w2_arg8 (V : Valuation τ sig (Elt F)) :
    after ops2 V (main_arg8 : DevRef τ sig) = V (main_arg8 : DevRef τ sig) := by
  after_results_simp
theorem w2_arg9 (V : Valuation τ sig (Elt F)) :
    after ops2 V (main_arg9 : DevRef τ sig) = V (main_arg9 : DevRef τ sig) := by
  after_results_simp
theorem w2_arg10 (V : Valuation τ sig (Elt F)) :
    after ops2 V (main_arg10 : DevRef τ sig) = V (main_arg10 : DevRef τ sig) := by
  after_results_simp
theorem w2_arg11 (V : Valuation τ sig (Elt F)) :
    after ops2 V (main_arg11 : DevRef τ sig) = V (main_arg11 : DevRef τ sig) := by
  after_results_simp
theorem w2_arg12 (V : Valuation τ sig (Elt F)) :
    after ops2 V (main_arg12 : DevRef τ sig) = V (main_arg12 : DevRef τ sig) := by
  after_results_simp
theorem w2_arg13 (V : Valuation τ sig (Elt F)) :
    after ops2 V (main_arg13 : DevRef τ sig) = V (main_arg13 : DevRef τ sig) := by
  after_results_simp
theorem w2_arg14 (V : Valuation τ sig (Elt F)) :
    after ops2 V (main_arg14 : DevRef τ sig) = V (main_arg14 : DevRef τ sig) := by
  after_results_simp
theorem w2_arg15 (V : Valuation τ sig (Elt F)) :
    after ops2 V (main_arg15 : DevRef τ sig) = V (main_arg15 : DevRef τ sig) := by
  after_results_simp

end Cert.ReferenceIdeal.RefRun

end
-- ==== Proof.RefRun.lean ====
/- The reference program's run: every weakly fair execution of @main terminates with the result buffer at `result`
   of the arguments' launch contents and the arguments unchanged. The three windows' value lemmas are composed:
   the contents after the whole line are the third window's over the second's over the first's. -/
import proofs.«112237_j46686294507759_1_alg».proof.Proof.RefStages
import proofs.«112237_j46686294507759_1_alg».proof.Proof.RefRunOps
import proofs.«112237_j46686294507759_1_alg».proof.Proof.RefRunW0
import proofs.«112237_j46686294507759_1_alg».proof.Proof.RefRunW1
import proofs.«112237_j46686294507759_1_alg».proof.Proof.RefRunW2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The result buffer after @main's operations, from any contents: `result` of the arguments' contents. The second
    window reads the first's %47, %8 and %c_9, the third the second's %86 and %98; the second and third layers'
    index columns and degree column are the first's (`normIdx`, `invDeg`), so each aggregation is `agg`. -/
theorem out_eq (V : Valuation τ sig (Elt F)) :
    after ops V (main_v119 : DevRef τ sig)
      = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  rw [after_ops, w2_v119, w1_v98, w1_v86, w1_arg9, w1_arg10, w1_arg11, w0_v47, w0_v8, w0_c9, w0_arg1, w0_arg2, w0_arg6, w0_arg7,
    w0_arg8, w0_arg9, w0_arg10, w0_arg11, w0_arg14, w0_arg15]
  rfl

theorem arg0_eq (V : Valuation τ sig (Elt F)) :
    after ops V (main_arg0 : DevRef τ sig) = V (main_arg0 : DevRef τ sig) := by
  rw [after_ops, w2_arg0, w1_arg0, w0_arg0]
theorem arg1_eq (V : Valuation τ sig (Elt F)) :
    after ops V (main_arg1 : DevRef τ sig) = V (main_arg1 : DevRef τ sig) := by
  rw [after_ops, w2_arg1, w1_arg1, w0_arg1]
theorem arg2_eq (V : Valuation τ sig (Elt F)) :
    after ops V (main_arg2 : DevRef τ sig) = V (main_arg2 : DevRef τ sig) := by
  rw [after_ops, w2_arg2, w1_arg2, w0_arg2]
theorem arg3_eq (V : Valuation τ sig (Elt F)) :
    after ops V (main_arg3 : DevRef τ sig) = V (main_arg3 : DevRef τ sig) := by
  rw [after_ops, w2_arg3, w1_arg3, w0_arg3]
theorem arg4_eq (V : Valuation τ sig (Elt F)) :
    after ops V (main_arg4 : DevRef τ sig) = V (main_arg4 : DevRef τ sig) := by
  rw [after_ops, w2_arg4, w1_arg4, w0_arg4]
theorem arg5_eq (V : Valuation τ sig (Elt F)) :
    after ops V (main_arg5 : DevRef τ sig) = V (main_arg5 : DevRef τ sig) := by
  rw [after_ops, w2_arg5, w1_arg5, w0_arg5]
theorem arg6_eq (V : Valuation τ sig (Elt F)) :
    after ops V (main_arg6 : DevRef τ sig) = V (main_arg6 : DevRef τ sig) := by
  rw [after_ops, w2_arg6, w1_arg6, w0_arg6]
theorem arg7_eq (V : Valuation τ sig (Elt F)) :
    after ops V (main_arg7 : DevRef τ sig) = V (main_arg7 : DevRef τ sig) := by
  rw [after_ops, w2_arg7, w1_arg7, w0_arg7]
theorem arg8_eq (V : Valuation τ sig (Elt F)) :
    after ops V (main_arg8 : DevRef τ sig) = V (main_arg8 : DevRef τ sig) := by
  rw [after_ops, w2_arg8, w1_arg8, w0_arg8]
theorem arg9_eq (V : Valuation τ sig (Elt F)) :
    after ops V (main_arg9 : DevRef τ sig) = V (main_arg9 : DevRef τ sig) := by
  rw [after_ops, w2_arg9, w1_arg9, w0_arg9]
theorem arg10_eq (V : Valuation τ sig (Elt F)) :
    after ops V (main_arg10 : DevRef τ sig) = V (main_arg10 : DevRef τ sig) := by
  rw [after_ops, w2_arg10, w1_arg10, w0_arg10]
theorem arg11_eq (V : Valuation τ sig (Elt F)) :
    after ops V (main_arg11 : DevRef τ sig) = V (main_arg11 : DevRef τ sig) := by
  rw [after_ops, w2_arg11, w1_arg11, w0_arg11]
theorem arg12_eq (V : Valuation τ sig (Elt F)) :
    after ops V (main_arg12 : DevRef τ sig) = V (main_arg12 : DevRef τ sig) := by
  rw [after_ops, w2_arg12, w1_arg12, w0_arg12]
theorem arg13_eq (V : Valuation τ sig (Elt F)) :
    after ops V (main_arg13 : DevRef τ sig) = V (main_arg13 : DevRef τ sig) := by
  rw [after_ops, w2_arg13, w1_arg13, w0_arg13]
theorem arg14_eq (V : Valuation τ sig (Elt F)) :
    after ops V (main_arg14 : DevRef τ sig) = V (main_arg14 : DevRef τ sig) := by
  rw [after_ops, w2_arg14, w1_arg14, w0_arg14]
theorem arg15_eq (V : Valuation τ sig (Elt F)) :
    after ops V (main_arg15 : DevRef τ sig) = V (main_arg15 : DevRef τ sig) := by
  rw [after_ops, w2_arg15, w1_arg15, w0_arg15]

/-- On every device, for any float values, from any memory with zero counters: every weakly fair execution of @main
    terminates with the result at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119)
        = result (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v119).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _)⟩)
    (run_after m ρ)

end Cert.ReferenceIdeal.RefRun

end
-- ==== Proof.LinPay.lean ====
/-
  The linear layer's block computation at an index.  A block product of a [m,k] by a [k,n] block into a zero
  accumulator, read at (a, b), is the sum over the contracted coordinate c of the products A(a,c)·B(c,b); the layer's
  payload adds two such products and one bias row (broadcast down the rows), and the first two layers take the
  maximum with zero.
-/
import proofs.«112237_j46686294507759_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinPay

open Idealize.ShloMosaic Idealize.ShloMosaic.ValueIdx Cert.KernelIdeal Cert.KernelIdeal.Gen
open scoped BigOperators

/-- A block product contracting the left operand's columns against the right operand's rows, into a zero accumulator,
    read at an index: the sum over the contracted coordinate of the products of the entries. -/
theorem matmul_rows_cols_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The first layer's payload at row p, column q of a block. -/
theorem pay0_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q)
      = max (((∑ k : Fin 128, x0 (ix2 p k) * x2 (ix2 k q)) + (∑ k : Fin 128, x1 (ix2 p k) * x3 (ix2 k q)))
          + x4 (ix2 (0 : Fin 1) q)) 0 := by
  unfold k0_pay1
  simp only [maximumf_apply, addf_apply, broadcast_apply]
  have hm : ∀ (A : FVec Ideal S2000x128 .bf16) (B : FVec Ideal S128x128 .bf16),
      matmul dot_S2000x128_S128x128_S2000x128_1_0_0_1_n_n none A B (constant (F := Ideal) S2000x128 .f32 0x00000000#32) (ix2 p q)
        = ∑ k : Fin 128, A (ix2 p k) * B (ix2 k q) := fun A B => matmul_rows_cols_apply _ none A B p q
  rw [shapeCast_self, shapeCast_self, hm, hm, broadcastTo_1b_ab_apply]
  simp only [truncf_apply]
  rw [show (FloatOps.ofBits (F := Ideal) .f32 0x00000000#32) = (0 : EReal) from Ideal.ofBits_zero_f32]

/-- The second layer's payload at row p, column q of a block. -/
theorem pay3_apply (x0 x1 : Vec Ideal S2000x128 .f32) (x2 x3 : Vec Ideal S128x128 .f32) (x4 : Vec Ideal S1x128 .f32)
    (p : Fin 2000) (q : Fin 128) :
    k3_pay1 (F := Ideal) x0 x1 x2 x3 x4 (ix2 p q)
      = max (((∑ k : Fin 128, x0 (ix2 p k) * x2 (ix2 k q)) + (∑ k : Fin 128, x1 (ix2 p k) * x3 (ix2 k q)))
          + x4 (ix2 (0 : Fin 1) q)) 0 := by
  unfold k3_pay1
  simp only [maximumf_apply, addf_apply, broadcast_apply]
  have hm : ∀ (A : FVec Ideal S2000x128 .bf16) (B : FVec Ideal S128x128 .bf16),
      matmul dot_S2000x128_S128x128_S2000x128_1_0_0_1_n_n none A B (constant (F := Ideal) S2000x128 .f32 0x00000000#32) (ix2 p q)
        = ∑ k : Fin 128, A (ix2 p k) * B (ix2 k q) := fun A B => matmul_rows_cols_apply _ none A B p q
  rw [shapeCast_self, shapeCast_self, shapeCast_self, hm, hm, broadcastTo_1b_ab_apply]
  simp only [truncf_apply]
  rw [show (FloatOps.ofBits (F := Ideal) .f32 0x00000000#32) = (0 : EReal) from Ideal.ofBits_zero_f32]

/-- The output layer's payload at row p, column q of a block (32 columns, no rectifier). -/
theorem pay6_apply (x0 x1 : Vec Ideal S2000x128 .f32) (x2 x3 : Vec Ideal S128x32 .f32) (x4 : Vec Ideal S1x32 .f32)
    (p : Fin 2000) (q : Fin 32) :
    k6_pay1 (F := Ideal) x0 x1 x2 x3 x4 (ix2 p q)
      = ((∑ k : Fin 128, x0 (ix2 p k) * x2 (ix2 k q)) + (∑ k : Fin 128, x1 (ix2 p k) * x3 (ix2 k q)))
          + x4 (ix2 (0 : Fin 1) q) := by
  unfold k6_pay1
  simp only [addf_apply]
  have hm : ∀ (A : FVec Ideal S2000x128 .bf16) (B : FVec Ideal S128x32 .bf16),
      matmul dot_S2000x128_S128x32_S2000x32_1_0_0_1_n_n none A B (constant (F := Ideal) S2000x32 .f32 0x00000000#32) (ix2 p q)
        = ∑ k : Fin 128, A (ix2 p k) * B (ix2 k q) := fun A B => matmul_rows_cols_apply _ none A B p q
  rw [shapeCast_self, shapeCast_self, shapeCast_self, hm, hm, broadcastTo_1b_ab_apply]
  simp only [truncf_apply]

end Cert.KernelIdeal.LinPay

end
-- ==== Proof.RegLin0.lean ====
/-
  The first linear layer (region 0): the region's output array, after its 50 grid points, is the linear layer of the arrays the region finds.
  Point t computes rows 2000·t … 2000·t + 1999: its two row blocks are rows of the node features and of the
  neighbourhood means, the two weight matrices and the bias row are whole, and the block it writes back is those rows
  of the layer.  The 50 blocks tile the 100000 rows.
-/
import proofs.«112237_j46686294507759_1_alg».proof.Proof.Spec
import proofs.«112237_j46686294507759_1_alg».proof.Proof.Gen.KernelIdeal.Frame
import proofs.«112237_j46686294507759_1_alg».proof.Proof.LinPay
import Idealize.ShloMosaic.Lib.Pipeline.Value
import Idealize.ShloMosaic.Lib.ValueIdx

set_option maxRecDepth 16384

noncomputable section

namespace Cert.KernelIdeal.RegLin0

open Idealize.ShloMosaic Idealize.ShloMosaic.TcCoe Idealize.SL.Sem Cert.KernelIdeal Cert.KernelIdeal.Gen Cert.Sage
open Idealize.ShloMosaic.ValueIdx
open Idealize.ShloMosaic.Pipeline (Dat)
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at each grid point: the row-tiled windows are at block (t, 0), the weights and
    the bias row at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block of the node features is row 2000·t + p of the array. -/
theorem rows0 (c : Dev nD) (t : Fin cfg0.N) (p : Fin 2000) (k : Fin 128) (r : Fin 100000)
    (hr : r.val = t.val * 2000 + p.val) :
    (iblk0 (F := Ideal) V c 0 t : Vec Ideal S2000x128 .f32) (ix2 p k)
      = (V c main_arg0 : S100000x128.Idx → EReal) (ix2 r k) := by
  obtain ⟨e0, e1, -⟩ := block_index t
  unfold iblk0
  rw [View.read_apply]
  show V c main_arg0 _ = V c main_arg0 _
  congr 1
  funext a
  apply Fin.ext
  match a with
  | ⟨0, _⟩ => show win0_0.index t (0 : Fin 2) * 2000 + 1 * p.val = r.val; omega
  | ⟨1, _⟩ => show win0_0.index t (1 : Fin 2) * 128 + 1 * k.val = k.val; omega

/-- Row p of point t's block of the neighbourhood means is row 2000·t + p of the array. -/
theorem rows1 (c : Dev nD) (t : Fin cfg0.N) (p : Fin 2000) (k : Fin 128) (r : Fin 100000)
    (hr : r.val = t.val * 2000 + p.val) :
    (iblk0 (F := Ideal) V c 1 t : Vec Ideal S2000x128 .f32) (ix2 p k)
      = (V c main_v20 : S100000x128.Idx → EReal) (ix2 r k) := by
  obtain ⟨-, -, e0, e1, -⟩ := block_index t
  unfold iblk0
  rw [View.read_apply]
  show V c main_v20 _ = V c main_v20 _
  congr 1
  funext a
  apply Fin.ext
  match a with
  | ⟨0, _⟩ => show win0_1.index t (0 : Fin 2) * 2000 + 1 * p.val = r.val; omega
  | ⟨1, _⟩ => show win0_1.index t (1 : Fin 2) * 128 + 1 * k.val = k.val; omega

/-- The one block of the first weight matrix is the matrix. -/
theorem whole2 (c : Dev nD) (t : Fin cfg0.N) (k : Fin 128) (q : Fin 128) :
    (iblk0 (F := Ideal) V c 2 t : Vec Ideal S128x128 .f32) (ix2 k q)
      = (V c main_arg3 : S128x128.Idx → EReal) (ix2 k q) := by
  obtain ⟨-, -, -, -, e0, e1, -⟩ := block_index t
  unfold iblk0
  rw [View.read_apply]
  show V c main_arg3 _ = V c main_arg3 _
  congr 1
  funext a
  apply Fin.ext
  match a with
  | ⟨0, _⟩ => show win0_2.index t (0 : Fin 2) * 128 + 1 * k.val = k.val; omega
  | ⟨1, _⟩ => show win0_2.index t (1 : Fin 2) * 128 + 1 * q.val = q.val; omega

/-- The one block of the second weight matrix is the matrix. -/
theorem whole3 (c : Dev nD) (t : Fin cfg0.N) (k : Fin 128) (q : Fin 128) :
    (iblk0 (F := Ideal) V c 3 t : Vec Ideal S128x128 .f32) (ix2 k q)
      = (V c main_arg4 : S128x128.Idx → EReal) (ix2 k q) := by
  obtain ⟨-, -, -, -, -, -, e0, e1, -⟩ := block_index t
  unfold iblk0
  rw [View.read_apply]
  show V c main_arg4 _ = V c main_arg4 _
  congr 1
  funext a
  apply Fin.ext
  match a with
  | ⟨0, _⟩ => show win0_3.index t (0 : Fin 2) * 128 + 1 * k.val = k.val; omega
  | ⟨1, _⟩ => show win0_3.index t (1 : Fin 2) * 128 + 1 * q.val = q.val; omega

/-- The one block of the bias row is the row. -/
theorem whole4 (c : Dev nD) (t : Fin cfg0.N) (z : Fin 1) (q : Fin 128) :
    (iblk0 (F := Ideal) V c 4 t : Vec Ideal S1x128 .f32) (ix2 z q)
      = (V c main_v21 : S1x128.Idx → EReal) (ix2 z q) := by
  obtain ⟨-, -, -, -, -, -, -, -, e0, e1, -⟩ := block_index t
  unfold iblk0
  rw [View.read_apply]
  show V c main_v21 _ = V c main_v21 _
  congr 1
  funext a
  apply Fin.ext
  match a with
  | ⟨0, _⟩ => show win0_4.index t (0 : Fin 2) * 1 + 1 * z.val = z.val; omega
  | ⟨1, _⟩ => show win0_4.index t (1 : Fin 2) * 128 + 1 * q.val = q.val; omega

/-- What point t computes at row p, column q of its block is the layer at row 2000·t + p, column q. -/
theorem point_eq (c : Dev nD) (t : Fin cfg0.N) (p : Fin 2000) (q : Fin 128) (r : Fin 100000) (q' : Fin 128)
    (hr : r.val = t.val * 2000 + p.val) (hq : q'.val = q.val) :
    k0_pay1 (F := Ideal) (iblk0 V c 0 t) (iblk0 V c 1 t) (iblk0 V c 2 t) (iblk0 V c 3 t) (iblk0 V c 4 t) (ix2 p q)
      = linRelu128At (V c main_arg0) (V c main_v20) (V c main_arg3) (V c main_arg4) (V c main_v21) r q' := by
  obtain rfl : q' = q := Fin.ext hq
  refine (LinPay.pay0_apply (iblk0 V c 0 t) (iblk0 V c 1 t) (iblk0 V c 2 t) (iblk0 V c 3 t) (iblk0 V c 4 t) p q').trans ?_
  unfold linRelu128At
  have h0 : ∀ k : Fin 128, (iblk0 (F := Ideal) V c 0 t : Vec Ideal S2000x128 .f32) (ix2 p k)
      = (V c main_arg0 : S100000x128.Idx → EReal) (ix2 r k) := fun k => rows0 V c t p k r hr
  have h1 : ∀ k : Fin 128, (iblk0 (F := Ideal) V c 1 t : Vec Ideal S2000x128 .f32) (ix2 p k)
      = (V c main_v20 : S100000x128.Idx → EReal) (ix2 r k) := fun k => rows1 V c t p k r hr
  have h2 : ∀ k : Fin 128, (iblk0 (F := Ideal) V c 2 t : Vec Ideal S128x128 .f32) (ix2 k q')
      = (V c main_arg3 : S128x128.Idx → EReal) (ix2 k q') := fun k => whole2 V c t k q'
  have h3 : ∀ k : Fin 128, (iblk0 (F := Ideal) V c 3 t : Vec Ideal S128x128 .f32) (ix2 k q')
      = (V c main_arg4 : S128x128.Idx → EReal) (ix2 k q') := fun k => whole3 V c t k q'
  have h4 : (iblk0 (F := Ideal) V c 4 t : Vec Ideal S1x128 .f32) (ix2 (0 : Fin 1) q')
      = (V c main_v21 : S1x128.Idx → EReal) (ix2 (0 : Fin 1) q') := whole4 V c t 0 q'
  simp only [h0, h1, h2, h3, h4]

/-- What point t writes back is block t of the layer. -/
theorem flushed_eq (c : Dev nD) (t : Fin cfg0.N) :
    (dat0 (F := Ideal) V c).flushed 5 t = ((cfg0.win 5).blk t).view.read (Elt Ideal)
      (linRelu128 (V c main_arg0) (V c main_v20) (V c main_arg3) (V c main_arg4) (V c main_v21)) := by
  show (cfg0.win 5).cut (grid0.coords t) ((dat0 (F := Ideal) V c).after 5 t) = _
  rw [after0_5]
  unfold out0_5
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, -, -, -, -, e0, e1⟩ := block_index t
  funext j
  obtain ⟨p, q, rfl⟩ : ∃ (p : Fin 2000) (q : Fin 128), j = ix2 p q := ⟨j 0, j 1, eq_ix2 j⟩
  exact point_eq V c t p q _ _
    (by show win0_5.index t (0 : Fin 2) * 2000 + 1 * p.val = _; omega)
    (by show win0_5.index t (1 : Fin 2) * 128 + 1 * q.val = _; omega)

/-- An index of the array is in point t's block iff each coordinate is in the block's range on its axis. -/
theorem mem_blk (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v22).slice (win0_5.rect t)).set ↔ _
  rw [View.set_slice_whole, Rect.mem_set_unit]
  exact Iff.rfl

/-- Row r of the array is in the block of point r / 2000: the 50 blocks tile the rows. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := rfl
  have ht : (i 0).val / 2000 < cfg0.N := by omega
  obtain ⟨-, -, -, -, -, -, -, -, -, -, e0, e1⟩ := block_index ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    have e0' : win0_5.index ⟨(i 0).val / 2000, ht⟩ (0 : Fin 2) = (i 0).val / 2000 := e0
    omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    omega

/-- The region's output array after its run is the layer of the arrays the region finds. -/
theorem final0 (c : Dev nD) : (dat0 (F := Ideal) V c).arrAt 5 cfg0.N
    = linRelu128 (V c main_arg0) (V c main_v20) (V c main_arg3) (V c main_arg4) (V c main_v21) :=
  (dat0 (F := Ideal) V c).arrAt_eq_of_cover 5
    (linRelu128 (V c main_arg0) (V c main_v20) (V c main_arg3) (V c main_arg4) (V c main_v21))
    (fun t _ => flushed_eq V c t) (cover)

end Cert.KernelIdeal.RegLin0

end
-- ==== Proof.RegLin3.lean ====
/-
  The second linear layer (region 3): the region's output array, after its 50 grid points, is the linear layer of the arrays the region finds.
  Point t computes rows 2000·t … 2000·t + 1999: its two row blocks are rows of the node features and of the
  neighbourhood means, the two weight matrices and the bias row are whole, and the block it writes back is those rows
  of the layer.  The 50 blocks tile the 100000 rows.
-/
import proofs.«112237_j46686294507759_1_alg».proof.Proof.Spec
import proofs.«112237_j46686294507759_1_alg».proof.Proof.Gen.KernelIdeal.Frame
import proofs.«112237_j46686294507759_1_alg».proof.Proof.LinPay
import Idealize.ShloMosaic.Lib.Pipeline.Value
import Idealize.ShloMosaic.Lib.ValueIdx

set_option maxRecDepth 16384

noncomputable section

namespace Cert.KernelIdeal.RegLin3

open Idealize.ShloMosaic Idealize.ShloMosaic.TcCoe Idealize.SL.Sem Cert.KernelIdeal Cert.KernelIdeal.Gen Cert.Sage
open Idealize.ShloMosaic.ValueIdx
open Idealize.ShloMosaic.Pipeline (Dat)
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at each grid point: the row-tiled windows are at block (t, 0), the weights and
    the bias row at block (0, 0). -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of point t's block of the node features is row 2000·t + p of the array. -/
theorem rows0 (c : Dev nD) (t : Fin cfg3.N) (p : Fin 2000) (k : Fin 128) (r : Fin 100000)
    (hr : r.val = t.val * 2000 + p.val) :
    (iblk3 (F := Ideal) V c 0 t : Vec Ideal S2000x128 .f32) (ix2 p k)
      = (V c main_v38 : S100000x128.Idx → EReal) (ix2 r k) := by
  obtain ⟨e0, e1, -⟩ := block_index t
  unfold iblk3
  rw [View.read_apply]
  show V c main_v38 _ = V c main_v38 _
  congr 1
  funext a
  apply Fin.ext
  match a with
  | ⟨0, _⟩ => show win3_0.index t (0 : Fin 2) * 2000 + 1 * p.val = r.val; omega
  | ⟨1, _⟩ => show win3_0.index t (1 : Fin 2) * 128 + 1 * k.val = k.val; omega

/-- Row p of point t's block of the neighbourhood means is row 2000·t + p of the array. -/
theorem rows1 (c : Dev nD) (t : Fin cfg3.N) (p : Fin 2000) (k : Fin 128) (r : Fin 100000)
    (hr : r.val = t.val * 2000 + p.val) :
    (iblk3 (F := Ideal) V c 1 t : Vec Ideal S2000x128 .f32) (ix2 p k)
      = (V c main_v50 : S100000x128.Idx → EReal) (ix2 r k) := by
  obtain ⟨-, -, e0, e1, -⟩ := block_index t
  unfold iblk3
  rw [View.read_apply]
  show V c main_v50 _ = V c main_v50 _
  congr 1
  funext a
  apply Fin.ext
  match a with
  | ⟨0, _⟩ => show win3_1.index t (0 : Fin 2) * 2000 + 1 * p.val = r.val; omega
  | ⟨1, _⟩ => show win3_1.index t (1 : Fin 2) * 128 + 1 * k.val = k.val; omega

/-- The one block of the first weight matrix is the matrix. -/
theorem whole2 (c : Dev nD) (t : Fin cfg3.N) (k : Fin 128) (q : Fin 128) :
    (iblk3 (F := Ideal) V c 2 t : Vec Ideal S128x128 .f32) (ix2 k q)
      = (V c main_arg6 : S128x128.Idx → EReal) (ix2 k q) := by
  obtain ⟨-, -, -, -, e0, e1, -⟩ := block_index t
  unfold iblk3
  rw [View.read_apply]
  show V c main_arg6 _ = V c main_arg6 _
  congr 1
  funext a
  apply Fin.ext
  match a with
  | ⟨0, _⟩ => show win3_2.index t (0 : Fin 2) * 128 + 1 * k.val = k.val; omega
  | ⟨1, _⟩ => show win3_2.index t (1 : Fin 2) * 128 + 1 * q.val = q.val; omega

/-- The one block of the second weight matrix is the matrix. -/
theorem whole3 (c : Dev nD) (t : Fin cfg3.N) (k : Fin 128) (q : Fin 128) :
    (iblk3 (F := Ideal) V c 3 t : Vec Ideal S128x128 .f32) (ix2 k q)
      = (V c main_arg7 : S128x128.Idx → EReal) (ix2 k q) := by
  obtain ⟨-, -, -, -, -, -, e0, e1, -⟩ := block_index t
  unfold iblk3
  rw [View.read_apply]
  show V c main_arg7 _ = V c main_arg7 _
  congr 1
  funext a
  apply Fin.ext
  match a with
  | ⟨0, _⟩ => show win3_3.index t (0 : Fin 2) * 128 + 1 * k.val = k.val; omega
  | ⟨1, _⟩ => show win3_3.index t (1 : Fin 2) * 128 + 1 * q.val = q.val; omega

/-- The one block of the bias row is the row. -/
theorem whole4 (c : Dev nD) (t : Fin cfg3.N) (z : Fin 1) (q : Fin 128) :
    (iblk3 (F := Ideal) V c 4 t : Vec Ideal S1x128 .f32) (ix2 z q)
      = (V c main_v51 : S1x128.Idx → EReal) (ix2 z q) := by
  obtain ⟨-, -, -, -, -, -, -, -, e0, e1, -⟩ := block_index t
  unfold iblk3
  rw [View.read_apply]
  show V c main_v51 _ = V c main_v51 _
  congr 1
  funext a
  apply Fin.ext
  match a with
  | ⟨0, _⟩ => show win3_4.index t (0 : Fin 2) * 1 + 1 * z.val = z.val; omega
  | ⟨1, _⟩ => show win3_4.index t (1 : Fin 2) * 128 + 1 * q.val = q.val; omega

/-- What point t computes at row p, column q of its block is the layer at row 2000·t + p, column q. -/
theorem point_eq (c : Dev nD) (t : Fin cfg3.N) (p : Fin 2000) (q : Fin 128) (r : Fin 100000) (q' : Fin 128)
    (hr : r.val = t.val * 2000 + p.val) (hq : q'.val = q.val) :
    k3_pay1 (F := Ideal) (iblk3 V c 0 t) (iblk3 V c 1 t) (iblk3 V c 2 t) (iblk3 V c 3 t) (iblk3 V c 4 t) (ix2 p q)
      = linRelu128At (V c main_v38) (V c main_v50) (V c main_arg6) (V c main_arg7) (V c main_v51) r q' := by
  obtain rfl : q' = q := Fin.ext hq
  refine (LinPay.pay3_apply (iblk3 V c 0 t) (iblk3 V c 1 t) (iblk3 V c 2 t) (iblk3 V c 3 t) (iblk3 V c 4 t) p q').trans ?_
  unfold linRelu128At
  have h0 : ∀ k : Fin 128, (iblk3 (F := Ideal) V c 0 t : Vec Ideal S2000x128 .f32) (ix2 p k)
      = (V c main_v38 : S100000x128.Idx → EReal) (ix2 r k) := fun k => rows0 V c t p k r hr
  have h1 : ∀ k : Fin 128, (iblk3 (F := Ideal) V c 1 t : Vec Ideal S2000x128 .f32) (ix2 p k)
      = (V c main_v50 : S100000x128.Idx → EReal) (ix2 r k) := fun k => rows1 V c t p k r hr
  have h2 : ∀ k : Fin 128, (iblk3 (F := Ideal) V c 2 t : Vec Ideal S128x128 .f32) (ix2 k q')
      = (V c main_arg6 : S128x128.Idx → EReal) (ix2 k q') := fun k => whole2 V c t k q'
  have h3 : ∀ k : Fin 128, (iblk3 (F := Ideal) V c 3 t : Vec Ideal S128x128 .f32) (ix2 k q')
      = (V c main_arg7 : S128x128.Idx → EReal) (ix2 k q') := fun k => whole3 V c t k q'
  have h4 : (iblk3 (F := Ideal) V c 4 t : Vec Ideal S1x128 .f32) (ix2 (0 : Fin 1) q')
      = (V c main_v51 : S1x128.Idx → EReal) (ix2 (0 : Fin 1) q') := whole4 V c t 0 q'
  simp only [h0, h1, h2, h3, h4]

/-- What point t writes back is block t of the layer. -/
theorem flushed_eq (c : Dev nD) (t : Fin cfg3.N) :
    (dat3 (F := Ideal) V c).flushed 5 t = ((cfg3.win 5).blk t).view.read (Elt Ideal)
      (linRelu128 (V c main_v38) (V c main_v50) (V c main_arg6) (V c main_arg7) (V c main_v51)) := by
  show (cfg3.win 5).cut (grid3.coords t) ((dat3 (F := Ideal) V c).after 5 t) = _
  rw [after3_5]
  unfold out3_5
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, -, -, -, -, e0, e1⟩ := block_index t
  funext j
  obtain ⟨p, q, rfl⟩ : ∃ (p : Fin 2000) (q : Fin 128), j = ix2 p q := ⟨j 0, j 1, eq_ix2 j⟩
  exact point_eq V c t p q _ _
    (by show win3_5.index t (0 : Fin 2) * 2000 + 1 * p.val = _; omega)
    (by show win3_5.index t (1 : Fin 2) * 128 + 1 * q.val = _; omega)

/-- An index of the array is in point t's block iff each coordinate is in the block's range on its axis. -/
theorem mem_blk (t : Fin cfg3.N) (i : S100000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v52).slice (win3_5.rect t)).set ↔ _
  rw [View.set_slice_whole, Rect.mem_set_unit]
  exact Iff.rfl

/-- Row r of the array is in the block of point r / 2000: the 50 blocks tile the rows. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 50 := rfl
  have ht : (i 0).val / 2000 < cfg3.N := by omega
  obtain ⟨-, -, -, -, -, -, -, -, -, -, e0, e1⟩ := block_index ⟨(i 0).val / 2000, ht⟩
  refine ⟨⟨(i 0).val / 2000, ht⟩, flush3_5 _, ?_⟩
  rw [mem_blk]
  intro a
  match a with
  | ⟨0, _⟩ =>
    show win3_5.index ⟨(i 0).val / 2000, ht⟩ (0 : Fin 2) * 2000 ≤ (i 0).val
      ∧ (i 0).val < win3_5.index ⟨(i 0).val / 2000, ht⟩ (0 : Fin 2) * 2000 + 2000
    have e0' : win3_5.index ⟨(i 0).val / 2000, ht⟩ (0 : Fin 2) = (i 0).val / 2000 := e0
    omega
  | ⟨1, _⟩ =>
    show win3_5.index ⟨(i 0).val / 2000, ht⟩ (1 : Fin 2) * 128 ≤ (i 1).val
      ∧ (i 1).val < win3_5.index ⟨(i 0).val / 2000, ht⟩ (1 : Fin 2) * 128 + 128
    omega

/-- The region's output array after its run is the layer of the arrays the region finds. -/
theorem final3 (c : Dev nD) : (dat3 (F := Ideal) V c).arrAt 5 cfg3.N
    = linRelu128 (V c main_v38) (V c main_v50) (V c main_arg6) (V c main_arg7) (V c main_v51) :=
  (dat3 (F := Ideal) V c).arrAt_eq_of_cover 5
    (linRelu128 (V c main_v38) (V c main_v50) (V c main_arg6) (V c main_arg7) (V c main_v51))
    (fun t _ => flushed_eq V c t) (cover)

end Cert.KernelIdeal.RegLin3

end
-- ==== Proof.RegLin6.lean ====
/-
  The output linear layer (region 6; 32 columns, no rectifier): the region's output array, after its 50 grid points, is the linear layer of the arrays the region finds.
  Point t computes rows 2000·t … 2000·t + 1999: its two row blocks are rows of the node features and of the
  neighbourhood means, the two weight matrices and the bias row are whole, and the block it writes back is those rows
  of the layer.  The 50 blocks tile the 100000 rows.
-/
import proofs.«112237_j46686294507759_1_alg».proof.Proof.Spec
import proofs.«112237_j46686294507759_1_alg».proof.Proof.Gen.KernelIdeal.Frame
import proofs.«112237_j46686294507759_1_alg».proof.Proof.LinPay
import Idealize.ShloMosaic.Lib.Pipeline.Value
import Idealize.ShloMosaic.Lib.ValueIdx

set_option maxRecDepth 16384

noncomputable section

namespace Cert.KernelIdeal.RegLin6

open Idealize.ShloMosaic Idealize.ShloMosaic.TcCoe Idealize.SL.Sem Cert.KernelIdeal Cert.KernelIdeal.Gen Cert.Sage
open Idealize.ShloMosaic.ValueIdx
open Idealize.ShloMosaic.Pipeline (Dat)
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at each grid point: the row-tiled windows are at block (t, 0), the weights and
    the bias row at block (0, 0). -/
theorem block_index : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row p of point t's block of the node features is row 2000·t + p of the array. -/
theorem rows0 (c : Dev nD) (t : Fin cfg6.N) (p : Fin 2000) (k : Fin 128) (r : Fin 100000)
    (hr : r.val = t.val * 2000 + p.val) :
    (iblk6 (F := Ideal) V c 0 t : Vec Ideal S2000x128 .f32) (ix2 p k)
      = (V c main_v68 : S100000x128.Idx → EReal) (ix2 r k) := by
  obtain ⟨e0, e1, -⟩ := block_index t
  unfold iblk6
  rw [View.read_apply]
  show V c main_v68 _ = V c main_v68 _
  congr 1
  funext a
  apply Fin.ext
  match a with
  | ⟨0, _⟩ => show win6_0.index t (0 : Fin 2) * 2000 + 1 * p.val = r.val; omega
  | ⟨1, _⟩ => show win6_0.index t (1 : Fin 2) * 128 + 1 * k.val = k.val; omega

/-- Row p of point t's block of the neighbourhood means is row 2000·t + p of the array. -/
theorem rows1 (c : Dev nD) (t : Fin cfg6.N) (p : Fin 2000) (k : Fin 128) (r : Fin 100000)
    (hr : r.val = t.val * 2000 + p.val) :
    (iblk6 (F := Ideal) V c 1 t : Vec Ideal S2000x128 .f32) (ix2 p k)
      = (V c main_v80 : S100000x128.Idx → EReal) (ix2 r k) := by
  obtain ⟨-, -, e0, e1, -⟩ := block_index t
  unfold iblk6
  rw [View.read_apply]
  show V c main_v80 _ = V c main_v80 _
  congr 1
  funext a
  apply Fin.ext
  match a with
  | ⟨0, _⟩ => show win6_1.index t (0 : Fin 2) * 2000 + 1 * p.val = r.val; omega
  | ⟨1, _⟩ => show win6_1.index t (1 : Fin 2) * 128 + 1 * k.val = k.val; omega

/-- The one block of the first weight matrix is the matrix. -/
theorem whole2 (c : Dev nD) (t : Fin cfg6.N) (k : Fin 128) (q : Fin 32) :
    (iblk6 (F := Ideal) V c 2 t : Vec Ideal S128x32 .f32) (ix2 k q)
      = (V c main_arg9 : S128x32.Idx → EReal) (ix2 k q) := by
  obtain ⟨-, -, -, -, e0, e1, -⟩ := block_index t
  unfold iblk6
  rw [View.read_apply]
  show V c main_arg9 _ = V c main_arg9 _
  congr 1
  funext a
  apply Fin.ext
  match a with
  | ⟨0, _⟩ => show win6_2.index t (0 : Fin 2) * 128 + 1 * k.val = k.val; omega
  | ⟨1, _⟩ => show win6_2.index t (1 : Fin 2) * 32 + 1 * q.val = q.val; omega

/-- The one block of the second weight matrix is the matrix. -/
theorem whole3 (c : Dev nD) (t : Fin cfg6.N) (k : Fin 128) (q : Fin 32) :
    (iblk6 (F := Ideal) V c 3 t : Vec Ideal S128x32 .f32) (ix2 k q)
      = (V c main_arg10 : S128x32.Idx → EReal) (ix2 k q) := by
  obtain ⟨-, -, -, -, -, -, e0, e1, -⟩ := block_index t
  unfold iblk6
  rw [View.read_apply]
  show V c main_arg10 _ = V c main_arg10 _
  congr 1
  funext a
  apply Fin.ext
  match a with
  | ⟨0, _⟩ => show win6_3.index t (0 : Fin 2) * 128 + 1 * k.val = k.val; omega
  | ⟨1, _⟩ => show win6_3.index t (1 : Fin 2) * 32 + 1 * q.val = q.val; omega

/-- The one block of the bias row is the row. -/
theorem whole4 (c : Dev nD) (t : Fin cfg6.N) (z : Fin 1) (q : Fin 32) :
    (iblk6 (F := Ideal) V c 4 t : Vec Ideal S1x32 .f32) (ix2 z q)
      = (V c main_v81 : S1x32.Idx → EReal) (ix2 z q) := by
  obtain ⟨-, -, -, -, -, -, -, -, e0, e1, -⟩ := block_index t
  unfold iblk6
  rw [View.read_apply]
  show V c main_v81 _ = V c main_v81 _
  congr 1
  funext a
  apply Fin.ext
  match a with
  | ⟨0, _⟩ => show win6_4.index t (0 : Fin 2) * 1 + 1 * z.val = z.val; omega
  | ⟨1, _⟩ => show win6_4.index t (1 : Fin 2) * 32 + 1 * q.val = q.val; omega

/-- What point t computes at row p, column q of its block is the layer at row 2000·t + p, column q. -/
theorem point_eq (c : Dev nD) (t : Fin cfg6.N) (p : Fin 2000) (q : Fin 32) (r : Fin 100000) (q' : Fin 32)
    (hr : r.val = t.val * 2000 + p.val) (hq : q'.val = q.val) :
    k6_pay1 (F := Ideal) (iblk6 V c 0 t) (iblk6 V c 1 t) (iblk6 V c 2 t) (iblk6 V c 3 t) (iblk6 V c 4 t) (ix2 p q)
      = lin32At (V c main_v68) (V c main_v80) (V c main_arg9) (V c main_arg10) (V c main_v81) r q' := by
  obtain rfl : q' = q := Fin.ext hq
  refine (LinPay.pay6_apply (iblk6 V c 0 t) (iblk6 V c 1 t) (iblk6 V c 2 t) (iblk6 V c 3 t) (iblk6 V c 4 t) p q').trans ?_
  unfold lin32At
  have h0 : ∀ k : Fin 128, (iblk6 (F := Ideal) V c 0 t : Vec Ideal S2000x128 .f32) (ix2 p k)
      = (V c main_v68 : S100000x128.Idx → EReal) (ix2 r k) := fun k => rows0 V c t p k r hr
  have h1 : ∀ k : Fin 128, (iblk6 (F := Ideal) V c 1 t : Vec Ideal S2000x128 .f32) (ix2 p k)
      = (V c main_v80 : S100000x128.Idx → EReal) (ix2 r k) := fun k => rows1 V c t p k r hr
  have h2 : ∀ k : Fin 128, (iblk6 (F := Ideal) V c 2 t : Vec Ideal S128x32 .f32) (ix2 k q')
      = (V c main_arg9 : S128x32.Idx → EReal) (ix2 k q') := fun k => whole2 V c t k q'
  have h3 : ∀ k : Fin 128, (iblk6 (F := Ideal) V c 3 t : Vec Ideal S128x32 .f32) (ix2 k q')
      = (V c main_arg10 : S128x32.Idx → EReal) (ix2 k q') := fun k => whole3 V c t k q'
  have h4 : (iblk6 (F := Ideal) V c 4 t : Vec Ideal S1x32 .f32) (ix2 (0 : Fin 1) q')
      = (V c main_v81 : S1x32.Idx → EReal) (ix2 (0 : Fin 1) q') := whole4 V c t 0 q'
  simp only [h0, h1, h2, h3, h4]

/-- What point t writes back is block t of the layer. -/
theorem flushed_eq (c : Dev nD) (t : Fin cfg6.N) :
    (dat6 (F := Ideal) V c).flushed 5 t = ((cfg6.win 5).blk t).view.read (Elt Ideal)
      (lin32 (V c main_v68) (V c main_v80) (V c main_arg9) (V c main_arg10) (V c main_v81)) := by
  show (cfg6.win 5).cut (grid6.coords t) ((dat6 (F := Ideal) V c).after 5 t) = _
  rw [after6_5]
  unfold out6_5
  rw [View.canon_unit_zero zero_offsets]
  simp only [View.ld_unit_zero (S := S2000x128) zero_offsets, View.ld_unit_zero (S := S128x32) zero_offsets,
    View.ld_unit_zero (S := S1x32) zero_offsets]
  obtain ⟨-, -, -, -, -, -, -, -, -, -, e0, e1⟩ := block_index t
  funext j
  obtain ⟨p, q, rfl⟩ : ∃ (p : Fin 2000) (q : Fin 32), j = ix2 p q := ⟨j 0, j 1, eq_ix2 j⟩
  exact point_eq V c t p q _ _
    (by show win6_5.index t (0 : Fin 2) * 2000 + 1 * p.val = _; omega)
    (by show win6_5.index t (1 : Fin 2) * 32 + 1 * q.val = _; omega)

/-- An index of the array is in point t's block iff each coordinate is in the block's range on its axis. -/
theorem mem_blk (t : Fin cfg6.N) (i : S100000x32.Idx) :
    i ∈ ((cfg6.win 5).blk t).view.set ↔ ∀ a : Fin 2, win6_5.index t a * S2000x32.size a ≤ (i a).val
      ∧ (i a).val < win6_5.index t a * S2000x32.size a + S2000x32.size a := by
  show i ∈ ((View.whole main_v82).slice (win6_5.rect t)).set ↔ _
  rw [View.set_slice_whole, Rect.mem_set_unit]
  exact Iff.rfl

/-- Row r of the array is in the block of point r / 2000: the 50 blocks tile the rows. -/
theorem cover (i : S100000x32.Idx) :
    ∃ t : Fin cfg6.N, (cfg6.win 5).flush t = true ∧ i ∈ ((cfg6.win 5).blk t).view.set := by
  have hi0 : (i 0).val < 100000 := (i 0).isLt
  have hi1 : (i 1).val < 32 := (i 1).isLt
  have hN : cfg6.N = 50 := rfl
  have ht : (i 0).val / 2000 < cfg6.N := by omega
  obtain ⟨-, -, -, -, -, -, -, -, -, -, e0, e1⟩ := block_index ⟨(i 0).val / 2000, ht⟩
  refine ⟨⟨(i 0).val / 2000, ht⟩, flush6_5 _, ?_⟩
  rw [mem_blk]
  intro a
  match a with
  | ⟨0, _⟩ =>
    show win6_5.index ⟨(i 0).val / 2000, ht⟩ (0 : Fin 2) * 2000 ≤ (i 0).val
      ∧ (i 0).val < win6_5.index ⟨(i 0).val / 2000, ht⟩ (0 : Fin 2) * 2000 + 2000
    have e0' : win6_5.index ⟨(i 0).val / 2000, ht⟩ (0 : Fin 2) = (i 0).val / 2000 := e0
    omega
  | ⟨1, _⟩ =>
    show win6_5.index ⟨(i 0).val / 2000, ht⟩ (1 : Fin 2) * 32 ≤ (i 1).val
      ∧ (i 1).val < win6_5.index ⟨(i 0).val / 2000, ht⟩ (1 : Fin 2) * 32 + 32
    omega

/-- The region's output array after its run is the layer of the arrays the region finds. -/
theorem final6 (c : Dev nD) : (dat6 (F := Ideal) V c).arrAt 5 cfg6.N
    = lin32 (V c main_v68) (V c main_v80) (V c main_arg9) (V c main_arg10) (V c main_v81) :=
  (dat6 (F := Ideal) V c).arrAt_eq_of_cover 5
    (lin32 (V c main_v68) (V c main_v80) (V c main_arg9) (V c main_arg10) (V c main_v81))
    (fun t _ => flushed_eq V c t) (cover)

end Cert.KernelIdeal.RegLin6

end
-- ==== Proof.RegStatsSum.lean ====
/-
  A sum over 100000 rows, regrouped as 50 consecutive groups of 2000 rows: row r lies in group r / 2000 at place
  r % 2000, and the two sums agree in any commutative monoid (only commutativity and associativity of + are used, so
  the statement holds on the extended reals, infinities included).
-/
import Mathlib.Algebra.BigOperators.Fin
import Mathlib.Logic.Equiv.Fin.Basic

namespace Cert.KernelIdeal.RegStatsSum

open scoped BigOperators

variable {M : Type*} [AddCommMonoid M]

/-- The sum of `f` over the rows 2000·n … 2000·n + 1999 of group `n` (zero when there is no such group). -/
def groupSum (f : Fin 100000 → M) (n : ℕ) : M :=
  if h : n < 50 then ∑ p : Fin 2000, f ⟨n * 2000 + p.val, by have := p.isLt; omega⟩ else 0

/-- Group `n`'s sum, for a group that exists. -/
theorem groupSum_of_lt (f : Fin 100000 → M) (n : ℕ) (h : n < 50) :
    groupSum f n = ∑ p : Fin 2000, f ⟨n * 2000 + p.val, by have := p.isLt; omega⟩ := dif_pos h

/-- The 50 group sums add up to the sum over all rows. -/
theorem sum_groups (f : Fin 100000 → M) : ∑ s ∈ Finset.range 50, groupSum f s = ∑ r : Fin 100000, f r := by
  have h1 : ∑ r : Fin 100000, f r = ∑ sp : Fin 50 × Fin 2000, f (finProdFinEquiv sp) :=
    (Equiv.sum_comp (finProdFinEquiv (m := 50) (n := 2000)) f).symm
  rw [h1, Fintype.sum_prod_type, Finset.sum_range]
  refine Finset.sum_congr rfl fun s _ => ?_
  rw [groupSum_of_lt f s.val s.isLt]
  refine Finset.sum_congr rfl fun p _ => congrArg f (Fin.ext ?_)
  show s.val * 2000 + p.val = p.val + 2000 * s.val
  omega

end Cert.KernelIdeal.RegStatsSum
-- ==== Proof.RegStats1.lean ====
/-
  The column statistics of region 1: a 100000×128 array is read in 50 consecutive blocks of 2000 rows. At the first
  block the two 1×128 accumulator rows are set to zero; at every block the block's column sums are added to the first
  row and the column sums of its squares to the second. The rows stay in place over the 50 blocks and are written back once, after the last block.
  So after block t the first row holds, at column q, the sum of x(r, q) over the rows r < 2000·(t + 1), and after the last
  block the sum over all 100000 rows (likewise the squares): a sum regrouped into 50 groups of 2000, which needs only
  commutativity and associativity of + on the extended reals.
-/
import proofs.«112237_j46686294507759_1_alg».proof.Proof.Spec
import proofs.«112237_j46686294507759_1_alg».proof.Proof.Gen.KernelIdeal.Frame
import proofs.«112237_j46686294507759_1_alg».proof.Proof.RegStatsSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegStats1

open Idealize.ShloMosaic Idealize.ShloMosaic.TcCoe Idealize.SL.Sem Cert.KernelIdeal Cert.KernelIdeal.Gen Cert.Sage
open Idealize.ShloMosaic.ValueIdx Cert.KernelIdeal.RegStatsSum
open Idealize.ShloMosaic.Pipeline (Dat)
open scoped BigOperators

theorem hz : (![0, 0] : Fin 2 → Nat) = fun _ => 0 := funext fun a => by fin_cases a <;> rfl

/-! ## What each control case leaves in the two accumulator rows -/

section Pieces
variable {F : FTy → Type} [FloatOps F]

/-- Later blocks, first row: the carried row plus the block's column sums. -/
theorem out_B_1 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S2000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S2000x128) hz, View.ld_unit_zero (S := S1x128) hz]

/-- Later blocks, second row: the carried row plus the column sums of the block's squares. -/
theorem out_B_2 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S2000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S2000x128) hz, View.ld_unit_zero (S := S1x128) hz]

/-- First block, first row: the zero row, read back, plus the block's column sums. -/
theorem out_A_1 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S2000x128 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S2000x128) hz]

/-- First block, second row: the zero row, read back, plus the column sums of the block's squares. -/
theorem out_A_2 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S2000x128 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S2000x128) hz]

end Pieces

/-! ## The stored rows at a column, on the extended reals -/

section Payload

/-- The reduction over the 2000 rows of a block, at column `q`, is the sum of the column's 2000 entries. -/
theorem blocksum_apply (y : FVec Ideal S2000x128 .f32) (q : Fin 128) :
    multiReduction .add [0] S128 y 0x00000000#32 reduces_S2000x128_S128 (.inl rfl) rfl (ix1 q) = ∑ p : Fin 2000, y (ix2 p q) := by
  refine (Ideal.multiReduction_add_single y 0x00000000#32 reduces_S2000x128_S128 (.inl rfl) rfl (ix1 q)).trans ?_
  refine Finset.sum_congr rfl fun p _ => congrArg y (funext fun a => ?_)
  match a with
  | ⟨0, _⟩ => rfl
  | ⟨1, _⟩ => rfl

/-- A carried row plus a block's column reduction, at column `q`. -/
theorem row_add_apply (a : FVec Ideal S1x128 .f32) (y : FVec Ideal S2000x128 .f32) (q : Fin 128) :
    (addf (shapeCast S1x128 a shapeCasts_S1x128_S1x128)
      (shapeCast S1x128 (multiReduction .add [0] S128 y 0x00000000#32 reduces_S2000x128_S128 (.inl rfl) rfl) shapeCasts_S128_S1x128) :
        FVec Ideal S1x128 .f32) (ix2 (0 : Fin 1) q)
      = a (ix2 (0 : Fin 1) q) + ∑ p : Fin 2000, y (ix2 p q) := by
  refine (addf_apply _ _ _).trans ?_
  rw [shapeCast_self, shapeCast_a_1a_apply, blocksum_apply]

/-- The first stored row at column `q`: the carried entry plus the sum of the block's column. -/
theorem pay4_apply (x : Vec Ideal S2000x128 .f32) (a : Vec Ideal S1x128 .f32) (q : Fin 128) :
    k1_pay4 (F := Ideal) x a (ix2 (0 : Fin 1) q) = a (ix2 (0 : Fin 1) q) + ∑ p : Fin 2000, x (ix2 p q) := by
  refine (row_add_apply a (shapeCast S2000x128 x shapeCasts_S2000x128_S2000x128) q).trans ?_
  rw [shapeCast_self]

/-- The second stored row at column `q`: the carried entry plus the sum of the squares of the block's column. -/
theorem pay5_apply (x : Vec Ideal S2000x128 .f32) (a : Vec Ideal S1x128 .f32) (q : Fin 128) :
    k1_pay5 (F := Ideal) x a (ix2 (0 : Fin 1) q) = a (ix2 (0 : Fin 1) q) + ∑ p : Fin 2000, x (ix2 p q) * x (ix2 p q) := by
  refine (row_add_apply a (mulf (shapeCast S2000x128 x shapeCasts_S2000x128_S2000x128) (shapeCast S2000x128 x shapeCasts_S2000x128_S2000x128)) q).trans ?_
  rw [shapeCast_self]
  rfl

/-- The two zero rows. -/
theorem pay1_apply (q : Fin 128) : k1_pay1 (F := Ideal) (ix2 (0 : Fin 1) q) = 0 := Ideal.ofBits_zero_f32
theorem pay2_apply (q : Fin 128) : k1_pay2 (F := Ideal) (ix2 (0 : Fin 1) q) = 0 := Ideal.ofBits_zero_f32

end Payload

/-! ## The blocks of the input array, and the running sums -/

section Region

variable (V : (c : Dev nD) → (b : Ref sig .tc) → Buf (Elt Ideal) ((c : Thread nD τ).loc b))

/-- The input array as the region finds it, entry by entry on the extended reals. -/
abbrev arrOf (c : Dev nD) : S100000x128.Idx → EReal := V c main_v22

/-- Block `t` of the input array: its rows 2000·t … 2000·t + 1999. -/
abbrev blkOf (c : Dev nD) (t : Fin cfg1.N) : Vec Ideal S2000x128 .f32 := iblk1 (F := Ideal) V c 0 t

/-- The input window's block index at block `t`: (t, 0). -/
theorem idx_facts : ∀ t : Fin cfg1.N, win1_0.index t (0 : Fin 2) = t.val ∧ win1_0.index t (1 : Fin 2) = 0 :=
  (by decide +kernel : ∀ t : Fin grid1.N, _)

/-- Entry (p, q) of block `t` is entry (2000·t + p, q) of the array. -/
theorem iblk_apply (c : Dev nD) (t : Fin cfg1.N) (p : Fin 2000) (q : Fin 128) (hr : t.val * 2000 + p.val < 100000) :
    blkOf V c t (ix2 p q) = arrOf V c (ix2 ⟨t.val * 2000 + p.val, hr⟩ q) := by
  obtain ⟨e0, e1⟩ := idx_facts t
  unfold blkOf arrOf iblk1
  rw [View.read_apply]
  show V c main_v22 (((cfg1.win 0).blk t).view.emb (ix2 p q)) = V c main_v22 _
  refine congrArg (V c main_v22) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * q.val = q.val; rw [e1]; omega

/-- Column `q` of the input array, as a function of the row. -/
abbrev colOf (c : Dev nD) (q : Fin 128) : Fin 100000 → EReal := fun r => arrOf V c (ix2 r q)

/-- The sum of block `t`'s column `q` is group `t`'s sum of the array's column `q`. -/
theorem blk_sum (c : Dev nD) (t : Fin cfg1.N) (q : Fin 128) :
    ∑ p : Fin 2000, blkOf V c t (ix2 p q) = groupSum (colOf V c q) t.val := by
  have ht : t.val < 50 := t.isLt.trans_eq N_1
  rw [groupSum_of_lt _ _ ht]
  exact Finset.sum_congr rfl fun p _ => iblk_apply V c t p q (by have := p.isLt; omega)

/-- Column `q` of the squares of the input array, as a function of the row. -/
abbrev colSq (c : Dev nD) (q : Fin 128) : Fin 100000 → EReal :=
  fun r => arrOf V c (ix2 r q) * arrOf V c (ix2 r q)

/-- The sum of the squares of block `t`'s column `q` is group `t`'s sum of the squares of the array's column `q`. -/
theorem blk_sumsq (c : Dev nD) (t : Fin cfg1.N) (q : Fin 128) :
    ∑ p : Fin 2000, blkOf V c t (ix2 p q) * blkOf V c t (ix2 p q) = groupSum (colSq V c q) t.val := by
  have ht : t.val < 50 := t.isLt.trans_eq N_1
  rw [groupSum_of_lt _ _ ht]
  exact Finset.sum_congr rfl fun p _ => by
    rw [iblk_apply V c t p q (by have := p.isLt; omega)]

/-- The first row after the first block. -/
theorem sum_first (c : Dev nD) (t : Fin cfg1.N) (h0 : t.val % 50 = 0) (q : Fin 128) :
    (outsAt1 (F := Ideal) V c t.val t.isLt).1 (ix2 (0 : Fin 1) q) = groupSum (colOf V c q) t.val := by
  rw [outsAt1_A V c t h0]
  dsimp only
  refine (congrFun (out_A_1 (F := Ideal) c (grid1.coords t) (ms1_0 t) (hs1_0 t) (ms1_1 t) (hs1_1 t) (ms1_2 t) (hs1_2 t)
    ((hcond1_0 t).mpr h0) (blkOf V c t)) (ix2 (0 : Fin 1) q)).trans ?_
  refine (pay4_apply _ _ q).trans ?_
  rw [pay1_apply, zero_add]
  exact blk_sum V c t q

/-- The first row after a later block: what the block before left, plus this block's group. -/
theorem sum_later (c : Dev nD) (t : Fin cfg1.N) (h0 : ¬t.val % 50 = 0) (q : Fin 128) :
    (outsAt1 (F := Ideal) V c t.val t.isLt).1 (ix2 (0 : Fin 1) q)
      = (outsAt1 (F := Ideal) V c (t.val - 1) (Nat.lt_of_le_of_lt (Nat.sub_le _ _) t.isLt)).1 (ix2 (0 : Fin 1) q)
        + groupSum (colOf V c q) t.val := by
  rw [outsAt1_B V c t h0]
  dsimp only
  refine (congrFun (out_B_1 (F := Ideal) c (grid1.coords t) (ms1_0 t) (hs1_0 t) (ms1_1 t) (hs1_1 t) (ms1_2 t) (hs1_2 t)
    (fun h => h0 ((hcond1_0 t).mp h)) (blkOf V c t) _ _) (ix2 (0 : Fin 1) q)).trans ?_
  refine (pay4_apply _ _ q).trans ?_
  rw [blk_sum V c t q]

/-- After block `n` the first row holds, at column `q`, the sum over the groups 0 … n. -/
theorem sum_after (c : Dev nD) (q : Fin 128) : ∀ (n : ℕ) (h : n < cfg1.N),
    (outsAt1 (F := Ideal) V c n h).1 (ix2 (0 : Fin 1) q) = ∑ s ∈ Finset.range (n + 1), groupSum (colOf V c q) s
  | 0, h => by
    rw [Finset.sum_range_one]
    exact sum_first V c ⟨0, h⟩ rfl q
  | n + 1, h => by
    have h' : n + 1 < 50 := h.trans_eq N_1
    have hB : ¬(n + 1) % 50 = 0 := by omega
    rw [Finset.sum_range_succ _ (n + 1)]
    refine (sum_later V c ⟨n + 1, h⟩ hB q).trans ?_
    show (outsAt1 (F := Ideal) V c n _).1 (ix2 (0 : Fin 1) q) + _ = _
    rw [sum_after c q n (Nat.lt_of_succ_lt h)]

/-- After the last block the first row is the column sums of the whole array. -/
theorem sum_last (c : Dev nD) (h : 49 < cfg1.N) :
    (outsAt1 (F := Ideal) V c 49 h).1 = colsum128 (arrOf V c) := by
  funext j
  obtain ⟨u, q, rfl⟩ : ∃ (u : Fin 1) (q : Fin 128), j = ix2 u q := ⟨j 0, j 1, eq_ix2 j⟩
  obtain rfl : u = 0 := Subsingleton.elim _ _
  rw [sum_after V c q 49 h]
  exact sum_groups (colOf V c q)

/-- The second row after the first block. -/
theorem sq_first (c : Dev nD) (t : Fin cfg1.N) (h0 : t.val % 50 = 0) (q : Fin 128) :
    (outsAt1 (F := Ideal) V c t.val t.isLt).2 (ix2 (0 : Fin 1) q) = groupSum (colSq V c q) t.val := by
  rw [outsAt1_A V c t h0]
  dsimp only
  refine (congrFun (out_A_2 (F := Ideal) c (grid1.coords t) (ms1_0 t) (hs1_0 t) (ms1_1 t) (hs1_1 t) (ms1_2 t) (hs1_2 t)
    ((hcond1_0 t).mpr h0) (blkOf V c t)) (ix2 (0 : Fin 1) q)).trans ?_
  refine (pay5_apply _ _ q).trans ?_
  rw [pay2_apply, zero_add]
  exact blk_sumsq V c t q

/-- The second row after a later block: what the block before left, plus this block's group. -/
theorem sq_later (c : Dev nD) (t : Fin cfg1.N) (h0 : ¬t.val % 50 = 0) (q : Fin 128) :
    (outsAt1 (F := Ideal) V c t.val t.isLt).2 (ix2 (0 : Fin 1) q)
      = (outsAt1 (F := Ideal) V c (t.val - 1) (Nat.lt_of_le_of_lt (Nat.sub_le _ _) t.isLt)).2 (ix2 (0 : Fin 1) q)
        + groupSum (colSq V c q) t.val := by
  rw [outsAt1_B V c t h0]
  dsimp only
  refine (congrFun (out_B_2 (F := Ideal) c (grid1.coords t) (ms1_0 t) (hs1_0 t) (ms1_1 t) (hs1_1 t) (ms1_2 t) (hs1_2 t)
    (fun h => h0 ((hcond1_0 t).mp h)) (blkOf V c t) _ _) (ix2 (0 : Fin 1) q)).trans ?_
  refine (pay5_apply _ _ q).trans ?_
  rw [blk_sumsq V c t q]

/-- After block `n` the second row holds, at column `q`, the sum of the squares over the groups 0 … n. -/
theorem sq_after (c : Dev nD) (q : Fin 128) : ∀ (n : ℕ) (h : n < cfg1.N),
    (outsAt1 (F := Ideal) V c n h).2 (ix2 (0 : Fin 1) q) = ∑ s ∈ Finset.range (n + 1), groupSum (colSq V c q) s
  | 0, h => by
    rw [Finset.sum_range_one]
    exact sq_first V c ⟨0, h⟩ rfl q
  | n + 1, h => by
    have h' : n + 1 < 50 := h.trans_eq N_1
    have hB : ¬(n + 1) % 50 = 0 := by omega
    rw [Finset.sum_range_succ _ (n + 1)]
    refine (sq_later V c ⟨n + 1, h⟩ hB q).trans ?_
    show (outsAt1 (F := Ideal) V c n _).2 (ix2 (0 : Fin 1) q) + _ = _
    rw [sq_after c q n (Nat.lt_of_succ_lt h)]

/-- After the last block the second row is the column sums of squares of the whole array. -/
theorem sq_last (c : Dev nD) (h : 49 < cfg1.N) :
    (outsAt1 (F := Ideal) V c 49 h).2 = colsumsq128 (arrOf V c) := by
  funext j
  obtain ⟨u, q, rfl⟩ : ∃ (u : Fin 1) (q : Fin 128), j = ix2 u q := ⟨j 0, j 1, eq_ix2 j⟩
  obtain rfl : u = 0 := Subsingleton.elim _ _
  rw [sq_after V c q 49 h]
  exact sum_groups (colSq V c q)

/-! ## The write-back after the last block, and the output arrays -/

/-- The last block. -/
abbrev tLast : Fin cfg1.N := ⟨49, by decide⟩

/-- The one write-back of the first row, after the last block, writes the column sums: the row's block is the whole
    1×128 array. -/
theorem flushed_sum (c : Dev nD) (t : Fin cfg1.N) (hf : (cfg1.win 1).flush t = true) :
    (dat1 (F := Ideal) V c).flushed 1 t = ((cfg1.win 1).blk t).view.read (Elt Ideal) (colsum128 (arrOf V c)) := by
  have h49 : t.val = 49 := by have := (flush1_1 t).mp hf; have := t.isLt.trans_eq N_1; omega
  obtain rfl : t = tLast := Fin.ext h49
  show (cfg1.win 1).cut (grid1.coords tLast) ((dat1 (F := Ideal) V c).after 1 tLast) = _
  rw [after1_1]
  show (cfg1.win 1).cut (grid1.coords tLast) (outsAt1 (F := Ideal) V c 49 _).1 = _
  rw [sum_last V c]
  have hz' : (fun a => win1_1.index tLast a * main_v23_0.ty.shape.size a) = fun _ => 0 := funext fun a => by fin_cases a <;> decide +kernel
  exact (Memref.read_access_unit_zero (Elt Ideal) main_v23_0 hz' (fun a => by rw [congrFun hz' a]; simp) (colsum128 (arrOf V c))).symm

/-- The first output array ends holding the column sums of the input array. -/
theorem final1_sum (c : Dev nD) : (dat1 (F := Ideal) V c).arrAt 1 cfg1.N = colsum128 (V c main_v22) :=
  (dat1 (F := Ideal) V c).arrAt_eq_of_cover 1 (colsum128 (arrOf V c)) (flushed_sum V c) fun i =>
    ⟨tLast, (flush1_1 tLast).mpr rfl, by
      show i ∈ ((View.whole main_v23_0).slice (win1_1.rect tLast)).set
      rw [View.set_slice_whole, Rect.mem_set_unit]
      intro a
      have h0 : (i 0 : Nat) < 1 := (i 0).isLt
      have h1 : (i 1 : Nat) < 128 := (i 1).isLt
      match a with
      | ⟨0, _⟩ => show win1_1.index tLast 0 * win1_1.size 0 ≤ (i 0 : Nat) ∧ (i 0 : Nat) < win1_1.index tLast 0 * win1_1.size 0 + win1_1.xsize (grid1.coords tLast) 0
                  rw [show win1_1.index tLast 0 * win1_1.size 0 = 0 from by decide +kernel, show win1_1.xsize (grid1.coords tLast) 0 = 1 from by decide +kernel]; omega
      | ⟨1, _⟩ => show win1_1.index tLast 1 * win1_1.size 1 ≤ (i 1 : Nat) ∧ (i 1 : Nat) < win1_1.index tLast 1 * win1_1.size 1 + win1_1.xsize (grid1.coords tLast) 1
                  rw [show win1_1.index tLast 1 * win1_1.size 1 = 0 from by decide +kernel, show win1_1.xsize (grid1.coords tLast) 1 = 128 from by decide +kernel]; omega⟩

/-- The one write-back of the second row, after the last block, writes the column sums of squares. -/
theorem flushed_sq (c : Dev nD) (t : Fin cfg1.N) (hf : (cfg1.win 2).flush t = true) :
    (dat1 (F := Ideal) V c).flushed 2 t = ((cfg1.win 2).blk t).view.read (Elt Ideal) (colsumsq128 (arrOf V c)) := by
  have h49 : t.val = 49 := by have := (flush1_2 t).mp hf; have := t.isLt.trans_eq N_1; omega
  obtain rfl : t = tLast := Fin.ext h49
  show (cfg1.win 2).cut (grid1.coords tLast) ((dat1 (F := Ideal) V c).after 2 tLast) = _
  rw [after1_2]
  show (cfg1.win 2).cut (grid1.coords tLast) (outsAt1 (F := Ideal) V c 49 _).2 = _
  rw [sq_last V c]
  have hz' : (fun a => win1_2.index tLast a * main_v23_1.ty.shape.size a) = fun _ => 0 := funext fun a => by fin_cases a <;> decide +kernel
  exact (Memref.read_access_unit_zero (Elt Ideal) main_v23_1 hz' (fun a => by rw [congrFun hz' a]; simp) (colsumsq128 (arrOf V c))).symm

/-- The second output array ends holding the column sums of squares of the input array. -/
theorem final1_sq (c : Dev nD) : (dat1 (F := Ideal) V c).arrAt 2 cfg1.N = colsumsq128 (V c main_v22) :=
  (dat1 (F := Ideal) V c).arrAt_eq_of_cover 2 (colsumsq128 (arrOf V c)) (flushed_sq V c) fun i =>
    ⟨tLast, (flush1_2 tLast).mpr rfl, by
      show i ∈ ((View.whole main_v23_1).slice (win1_2.rect tLast)).set
      rw [View.set_slice_whole, Rect.mem_set_unit]
      intro a
      have h0 : (i 0 : Nat) < 1 := (i 0).isLt
      have h1 : (i 1 : Nat) < 128 := (i 1).isLt
      match a with
      | ⟨0, _⟩ => show win1_2.index tLast 0 * win1_2.size 0 ≤ (i 0 : Nat) ∧ (i 0 : Nat) < win1_2.index tLast 0 * win1_2.size 0 + win1_2.xsize (grid1.coords tLast) 0
                  rw [show win1_2.index tLast 0 * win1_2.size 0 = 0 from by decide +kernel, show win1_2.xsize (grid1.coords tLast) 0 = 1 from by decide +kernel]; omega
      | ⟨1, _⟩ => show win1_2.index tLast 1 * win1_2.size 1 ≤ (i 1 : Nat) ∧ (i 1 : Nat) < win1_2.index tLast 1 * win1_2.size 1 + win1_2.xsize (grid1.coords tLast) 1
                  rw [show win1_2.index tLast 1 * win1_2.size 1 = 0 from by decide +kernel, show win1_2.xsize (grid1.coords tLast) 1 = 128 from by decide +kernel]; omega⟩

end Region

end Cert.KernelIdeal.RegStats1

end
-- ==== Proof.RegStats4.lean ====
/-
  The column statistics of region 4: a 100000×128 array is read in 50 consecutive blocks of 2000 rows. At the first
  block the two 1×128 accumulator rows are set to zero; at every block the block's column sums are added to the first
  row and the column sums of its squares to the second. The rows stay in place over the 50 blocks and are written back once, after the last block.
  So after block t the first row holds, at column q, the sum of x(r, q) over the rows r < 2000·(t + 1), and after the last
  block the sum over all 100000 rows (likewise the squares): a sum regrouped into 50 groups of 2000, which needs only
  commutativity and associativity of + on the extended reals.
-/
import proofs.«112237_j46686294507759_1_alg».proof.Proof.Spec
import proofs.«112237_j46686294507759_1_alg».proof.Proof.Gen.KernelIdeal.Frame
import proofs.«112237_j46686294507759_1_alg».proof.Proof.RegStatsSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegStats4

open Idealize.ShloMosaic Idealize.ShloMosaic.TcCoe Idealize.SL.Sem Cert.KernelIdeal Cert.KernelIdeal.Gen Cert.Sage
open Idealize.ShloMosaic.ValueIdx Cert.KernelIdeal.RegStatsSum
open Idealize.ShloMosaic.Pipeline (Dat)
open scoped BigOperators

theorem hz : (![0, 0] : Fin 2 → Nat) = fun _ => 0 := funext fun a => by fin_cases a <;> rfl

/-! ## What each control case leaves in the two accumulator rows -/

section Pieces
variable {F : FTy → Type} [FloatOps F]

/-- Later blocks, first row: the carried row plus the block's column sums. -/
theorem out_B_1 (c : Dev nD) (i : grid4.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S2000x128 .f32) (xo1 xo2 : Vec F S1x128 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz]
  simp only [View.readAt_eq_ld, h1.read_unread, h2.read_unread, View.ld_unit_zero (S := S2000x128) hz, View.ld_unit_zero (S := S1x128) hz]

/-- Later blocks, second row: the carried row plus the column sums of the block's squares. -/
theorem out_B_2 (c : Dev nD) (i : grid4.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S2000x128 .f32) (xo1 xo2 : Vec F S1x128 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz]
  simp only [View.readAt_eq_ld, h1.read_unread, h3.read_unread, View.ld_unit_zero (S := S2000x128) hz, View.ld_unit_zero (S := S1x128) hz]

/-- First block, first row: the zero row, read back, plus the block's column sums. -/
theorem out_A_1 (c : Dev nD) (i : grid4.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S2000x128 .f32) :
    out4_A_1 c i a1 h1 a2 h2 a3 h3 hc x = k4_pay4 x (k4_pay1 (F := F)) := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S2000x128) hz]

/-- First block, second row: the zero row, read back, plus the column sums of the block's squares. -/
theorem out_A_2 (c : Dev nD) (i : grid4.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S2000x128 .f32) :
    out4_A_2 c i a1 h1 a2 h2 a3 h3 hc x = k4_pay5 x (k4_pay2 (F := F)) := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S2000x128) hz]

end Pieces

/-! ## The stored rows at a column, on the extended reals -/

section Payload

/-- The reduction over the 2000 rows of a block, at column `q`, is the sum of the column's 2000 entries. -/
theorem blocksum_apply (y : FVec Ideal S2000x128 .f32) (q : Fin 128) :
    multiReduction .add [0] S128 y 0x00000000#32 reduces_S2000x128_S128 (.inl rfl) rfl (ix1 q) = ∑ p : Fin 2000, y (ix2 p q) := by
  refine (Ideal.multiReduction_add_single y 0x00000000#32 reduces_S2000x128_S128 (.inl rfl) rfl (ix1 q)).trans ?_
  refine Finset.sum_congr rfl fun p _ => congrArg y (funext fun a => ?_)
  match a with
  | ⟨0, _⟩ => rfl
  | ⟨1, _⟩ => rfl

/-- A carried row plus a block's column reduction, at column `q`. -/
theorem row_add_apply (a : FVec Ideal S1x128 .f32) (y : FVec Ideal S2000x128 .f32) (q : Fin 128) :
    (addf (shapeCast S1x128 a shapeCasts_S1x128_S1x128)
      (shapeCast S1x128 (multiReduction .add [0] S128 y 0x00000000#32 reduces_S2000x128_S128 (.inl rfl) rfl) shapeCasts_S128_S1x128) :
        FVec Ideal S1x128 .f32) (ix2 (0 : Fin 1) q)
      = a (ix2 (0 : Fin 1) q) + ∑ p : Fin 2000, y (ix2 p q) := by
  refine (addf_apply _ _ _).trans ?_
  rw [shapeCast_self, shapeCast_a_1a_apply, blocksum_apply]

/-- The first stored row at column `q`: the carried entry plus the sum of the block's column. -/
theorem pay4_apply (x : Vec Ideal S2000x128 .f32) (a : Vec Ideal S1x128 .f32) (q : Fin 128) :
    k4_pay4 (F := Ideal) x a (ix2 (0 : Fin 1) q) = a (ix2 (0 : Fin 1) q) + ∑ p : Fin 2000, x (ix2 p q) := by
  refine (row_add_apply a (shapeCast S2000x128 x shapeCasts_S2000x128_S2000x128) q).trans ?_
  rw [shapeCast_self]

/-- The second stored row at column `q`: the carried entry plus the sum of the squares of the block's column. -/
theorem pay5_apply (x : Vec Ideal S2000x128 .f32) (a : Vec Ideal S1x128 .f32) (q : Fin 128) :
    k4_pay5 (F := Ideal) x a (ix2 (0 : Fin 1) q) = a (ix2 (0 : Fin 1) q) + ∑ p : Fin 2000, x (ix2 p q) * x (ix2 p q) := by
  refine (row_add_apply a (mulf (shapeCast S2000x128 x shapeCasts_S2000x128_S2000x128) (shapeCast S2000x128 x shapeCasts_S2000x128_S2000x128)) q).trans ?_
  rw [shapeCast_self]
  rfl

/-- The two zero rows. -/
theorem pay1_apply (q : Fin 128) : k4_pay1 (F := Ideal) (ix2 (0 : Fin 1) q) = 0 := Ideal.ofBits_zero_f32
theorem pay2_apply (q : Fin 128) : k4_pay2 (F := Ideal) (ix2 (0 : Fin 1) q) = 0 := Ideal.ofBits_zero_f32

end Payload

/-! ## The blocks of the input array, and the running sums -/

section Region

variable (V : (c : Dev nD) → (b : Ref sig .tc) → Buf (Elt Ideal) ((c : Thread nD τ).loc b))

/-- The input array as the region finds it, entry by entry on the extended reals. -/
abbrev arrOf (c : Dev nD) : S100000x128.Idx → EReal := V c main_v52

/-- Block `t` of the input array: its rows 2000·t … 2000·t + 1999. -/
abbrev blkOf (c : Dev nD) (t : Fin cfg4.N) : Vec Ideal S2000x128 .f32 := iblk4 (F := Ideal) V c 0 t

/-- The input window's block index at block `t`: (t, 0). -/
theorem idx_facts : ∀ t : Fin cfg4.N, win4_0.index t (0 : Fin 2) = t.val ∧ win4_0.index t (1 : Fin 2) = 0 :=
  (by decide +kernel : ∀ t : Fin grid4.N, _)

/-- Entry (p, q) of block `t` is entry (2000·t + p, q) of the array. -/
theorem iblk_apply (c : Dev nD) (t : Fin cfg4.N) (p : Fin 2000) (q : Fin 128) (hr : t.val * 2000 + p.val < 100000) :
    blkOf V c t (ix2 p q) = arrOf V c (ix2 ⟨t.val * 2000 + p.val, hr⟩ q) := by
  obtain ⟨e0, e1⟩ := idx_facts t
  unfold blkOf arrOf iblk4
  rw [View.read_apply]
  show V c main_v52 (((cfg4.win 0).blk t).view.emb (ix2 p q)) = V c main_v52 _
  refine congrArg (V c main_v52) (funext fun a => Fin.ext ?_)
  match a with
  | ⟨0, _⟩ => show win4_0.index t (0 : Fin 2) * 2000 + 1 * p.val = t.val * 2000 + p.val; rw [e0]; omega
  | ⟨1, _⟩ => show win4_0.index t (1 : Fin 2) * 128 + 1 * q.val = q.val; rw [e1]; omega

/-- Column `q` of the input array, as a function of the row. -/
abbrev colOf (c : Dev nD) (q : Fin 128) : Fin 100000 → EReal := fun r => arrOf V c (ix2 r q)

/-- The sum of block `t`'s column `q` is group `t`'s sum of the array's column `q`. -/
theorem blk_sum (c : Dev nD) (t : Fin cfg4.N) (q : Fin 128) :
    ∑ p : Fin 2000, blkOf V c t (ix2 p q) = groupSum (colOf V c q) t.val := by
  have ht : t.val < 50 := t.isLt.trans_eq N_4
  rw [groupSum_of_lt _ _ ht]
  exact Finset.sum_congr rfl fun p _ => iblk_apply V c t p q (by have := p.isLt; omega)

/-- Column `q` of the squares of the input array, as a function of the row. -/
abbrev colSq (c : Dev nD) (q : Fin 128) : Fin 100000 → EReal :=
  fun r => arrOf V c (ix2 r q) * arrOf V c (ix2 r q)

/-- The sum of the squares of block `t`'s column `q` is group `t`'s sum of the squares of the array's column `q`. -/
theorem blk_sumsq (c : Dev nD) (t : Fin cfg4.N) (q : Fin 128) :
    ∑ p : Fin 2000, blkOf V c t (ix2 p q) * blkOf V c t (ix2 p q) = groupSum (colSq V c q) t.val := by
  have ht : t.val < 50 := t.isLt.trans_eq N_4
  rw [groupSum_of_lt _ _ ht]
  exact Finset.sum_congr rfl fun p _ => by
    rw [iblk_apply V c t p q (by have := p.isLt; omega)]

/-- The first row after the first block. -/
theorem sum_first (c : Dev nD) (t : Fin cfg4.N) (h0 : t.val % 50 = 0) (q : Fin 128) :
    (outsAt4 (F := Ideal) V c t.val t.isLt).1 (ix2 (0 : Fin 1) q) = groupSum (colOf V c q) t.val := by
  rw [outsAt4_A V c t h0]
  dsimp only
  refine (congrFun (out_A_1 (F := Ideal) c (grid4.coords t) (ms4_0 t) (hs4_0 t) (ms4_1 t) (hs4_1 t) (ms4_2 t) (hs4_2 t)
    ((hcond4_0 t).mpr h0) (blkOf V c t)) (ix2 (0 : Fin 1) q)).trans ?_
  refine (pay4_apply _ _ q).trans ?_
  rw [pay1_apply, zero_add]
  exact blk_sum V c t q

/-- The first row after a later block: what the block before left, plus this block's group. -/
theorem sum_later (c : Dev nD) (t : Fin cfg4.N) (h0 : ¬t.val % 50 = 0) (q : Fin 128) :
    (outsAt4 (F := Ideal) V c t.val t.isLt).1 (ix2 (0 : Fin 1) q)
      = (outsAt4 (F := Ideal) V c (t.val - 1) (Nat.lt_of_le_of_lt (Nat.sub_le _ _) t.isLt)).1 (ix2 (0 : Fin 1) q)
        + groupSum (colOf V c q) t.val := by
  rw [outsAt4_B V c t h0]
  dsimp only
  refine (congrFun (out_B_1 (F := Ideal) c (grid4.coords t) (ms4_0 t) (hs4_0 t) (ms4_1 t) (hs4_1 t) (ms4_2 t) (hs4_2 t)
    (fun h => h0 ((hcond4_0 t).mp h)) (blkOf V c t) _ _) (ix2 (0 : Fin 1) q)).trans ?_
  refine (pay4_apply _ _ q).trans ?_
  rw [blk_sum V c t q]

/-- After block `n` the first row holds, at column `q`, the sum over the groups 0 … n. -/
theorem sum_after (c : Dev nD) (q : Fin 128) : ∀ (n : ℕ) (h : n < cfg4.N),
    (outsAt4 (F := Ideal) V c n h).1 (ix2 (0 : Fin 1) q) = ∑ s ∈ Finset.range (n + 1), groupSum (colOf V c q) s
  | 0, h => by
    rw [Finset.sum_range_one]
    exact sum_first V c ⟨0, h⟩ rfl q
  | n + 1, h => by
    have h' : n + 1 < 50 := h.trans_eq N_4
    have hB : ¬(n + 1) % 50 = 0 := by omega
    rw [Finset.sum_range_succ _ (n + 1)]
    refine (sum_later V c ⟨n + 1, h⟩ hB q).trans ?_
    show (outsAt4 (F := Ideal) V c n _).1 (ix2 (0 : Fin 1) q) + _ = _
    rw [sum_after c q n (Nat.lt_of_succ_lt h)]

/-- After the last block the first row is the column sums of the whole array. -/
theorem sum_last (c : Dev nD) (h : 49 < cfg4.N) :
    (outsAt4 (F := Ideal) V c 49 h).1 = colsum128 (arrOf V c) := by
  funext j
  obtain ⟨u, q, rfl⟩ : ∃ (u : Fin 1) (q : Fin 128), j = ix2 u q := ⟨j 0, j 1, eq_ix2 j⟩
  obtain rfl : u = 0 := Subsingleton.elim _ _
  rw [sum_after V c q 49 h]
  exact sum_groups (colOf V c q)

/-- The second row after the first block. -/
theorem sq_first (c : Dev nD) (t : Fin cfg4.N) (h0 : t.val % 50 = 0) (q : Fin 128) :
    (outsAt4 (F := Ideal) V c t.val t.isLt).2 (ix2 (0 : Fin 1) q) = groupSum (colSq V c q) t.val := by
  rw [outsAt4_A V c t h0]
  dsimp only
  refine (congrFun (out_A_2 (F := Ideal) c (grid4.coords t) (ms4_0 t) (hs4_0 t) (ms4_1 t) (hs4_1 t) (ms4_2 t) (hs4_2 t)
    ((hcond4_0 t).mpr h0) (blkOf V c t)) (ix2 (0 : Fin 1) q)).trans ?_
  refine (pay5_apply _ _ q).trans ?_
  rw [pay2_apply, zero_add]
  exact blk_sumsq V c t q

/-- The second row after a later block: what the block before left, plus this block's group. -/
theorem sq_later (c : Dev nD) (t : Fin cfg4.N) (h0 : ¬t.val % 50 = 0) (q : Fin 128) :
    (outsAt4 (F := Ideal) V c t.val t.isLt).2 (ix2 (0 : Fin 1) q)
      = (outsAt4 (F := Ideal) V c (t.val - 1) (Nat.lt_of_le_of_lt (Nat.sub_le _ _) t.isLt)).2 (ix2 (0 : Fin 1) q)
        + groupSum (colSq V c q) t.val := by
  rw [outsAt4_B V c t h0]
  dsimp only
  refine (congrFun (out_B_2 (F := Ideal) c (grid4.coords t) (ms4_0 t) (hs4_0 t) (ms4_1 t) (hs4_1 t) (ms4_2 t) (hs4_2 t)
    (fun h => h0 ((hcond4_0 t).mp h)) (blkOf V c t) _ _) (ix2 (0 : Fin 1) q)).trans ?_
  refine (pay5_apply _ _ q).trans ?_
  rw [blk_sumsq V c t q]

/-- After block `n` the second row holds, at column `q`, the sum of the squares over the groups 0 … n. -/
theorem sq_after (c : Dev nD) (q : Fin 128) : ∀ (n : ℕ) (h : n < cfg4.N),
    (outsAt4 (F := Ideal) V c n h).2 (ix2 (0 : Fin 1) q) = ∑ s ∈ Finset.range (n + 1), groupSum (colSq V c q) s
  | 0, h => by
    rw [Finset.sum_range_one]
    exact sq_first V c ⟨0, h⟩ rfl q
  | n + 1, h => by
    have h' : n + 1 < 50 := h.trans_eq N_4
    have hB : ¬(n + 1) % 50 = 0 := by omega
    rw [Finset.sum_range_succ _ (n + 1)]
    refine (sq_later V c ⟨n + 1, h⟩ hB q).trans ?_
    show (outsAt4 (F := Ideal) V c n _).2 (ix2 (0 : Fin 1) q) + _ = _
    rw [sq_after c q n (Nat.lt_of_succ_lt h)]

/-- After the last block the second row is the column sums of squares of the whole array. -/
theorem sq_last (c : Dev nD) (h : 49 < cfg4.N) :
    (outsAt4 (F := Ideal) V c 49 h).2 = colsumsq128 (arrOf V c) := by
  funext j
  obtain ⟨u, q, rfl⟩ : ∃ (u : Fin 1) (q : Fin 128), j = ix2 u q := ⟨j 0, j 1, eq_ix2 j⟩
  obtain rfl : u = 0 := Subsingleton.elim _ _
  rw [sq_after V c q 49 h]
  exact sum_groups (colSq V c q)

/-! ## The write-back after the last block, and the output arrays -/

/-- The last block. -/
abbrev tLast : Fin cfg4.N := ⟨49, by decide⟩

/-- The one write-back of the first row, after the last block, writes the column sums: the row's block is the whole
    1×128 array. -/
theorem flushed_sum (c : Dev nD) (t : Fin cfg4.N) (hf : (cfg4.win 1).flush t = true) :
    (dat4 (F := Ideal) V c).flushed 1 t = ((cfg4.win 1).blk t).view.read (Elt Ideal) (colsum128 (arrOf V c)) := by
  have h49 : t.val = 49 := by have := (flush4_1 t).mp hf; have := t.isLt.trans_eq N_4; omega
  obtain rfl : t = tLast := Fin.ext h49
  show (cfg4.win 1).cut (grid4.coords tLast) ((dat4 (F := Ideal) V c).after 1 tLast) = _
  rw [after4_1]
  show (cfg4.win 1).cut (grid4.coords tLast) (outsAt4 (F := Ideal) V c 49 _).1 = _
  rw [sum_last V c]
  have hz' : (fun a => win4_1.index tLast a * main_v53_0.ty.shape.size a) = fun _ => 0 := funext fun a => by fin_cases a <;> decide +kernel
  exact (Memref.read_access_unit_zero (Elt Ideal) main_v53_0 hz' (fun a => by rw [congrFun hz' a]; simp) (colsum128 (arrOf V c))).symm

/-- The first output array ends holding the column sums of the input array. -/
theorem final4_sum (c : Dev nD) : (dat4 (F := Ideal) V c).arrAt 1 cfg4.N = colsum128 (V c main_v52) :=
  (dat4 (F := Ideal) V c).arrAt_eq_of_cover 1 (colsum128 (arrOf V c)) (flushed_sum V c) fun i =>
    ⟨tLast, (flush4_1 tLast).mpr rfl, by
      show i ∈ ((View.whole main_v53_0).slice (win4_1.rect tLast)).set
      rw [View.set_slice_whole, Rect.mem_set_unit]
      intro a
      have h0 : (i 0 : Nat) < 1 := (i 0).isLt
      have h1 : (i 1 : Nat) < 128 := (i 1).isLt
      match a with
      | ⟨0, _⟩ => show win4_1.index tLast 0 * win4_1.size 0 ≤ (i 0 : Nat) ∧ (i 0 : Nat) < win4_1.index tLast 0 * win4_1.size 0 + win4_1.xsize (grid4.coords tLast) 0
                  rw [show win4_1.index tLast 0 * win4_1.size 0 = 0 from by decide +kernel, show win4_1.xsize (grid4.coords tLast) 0 = 1 from by decide +kernel]; omega
      | ⟨1, _⟩ => show win4_1.index tLast 1 * win4_1.size 1 ≤ (i 1 : Nat) ∧ (i 1 : Nat) < win4_1.index tLast 1 * win4_1.size 1 + win4_1.xsize (grid4.coords tLast) 1
                  rw [show win4_1.index tLast 1 * win4_1.size 1 = 0 from by decide +kernel, show win4_1.xsize (grid4.coords tLast) 1 = 128 from by decide +kernel]; omega⟩

/-- The one write-back of the second row, after the last block, writes the column sums of squares. -/
theorem flushed_sq (c : Dev nD) (t : Fin cfg4.N) (hf : (cfg4.win 2).flush t = true) :
    (dat4 (F := Ideal) V c).flushed 2 t = ((cfg4.win 2).blk t).view.read (Elt Ideal) (colsumsq128 (arrOf V c)) := by
  have h49 : t.val = 49 := by have := (flush4_2 t).mp hf; have := t.isLt.trans_eq N_4; omega
  obtain rfl : t = tLast := Fin.ext h49
  show (cfg4.win 2).cut (grid4.coords tLast) ((dat4 (F := Ideal) V c).after 2 tLast) = _
  rw [after4_2]
  show (cfg4.win 2).cut (grid4.coords tLast) (outsAt4 (F := Ideal) V c 49 _).2 = _
  rw [sq_last V c]
  have hz' : (fun a => win4_2.index tLast a * main_v53_1.ty.shape.size a) = fun _ => 0 := funext fun a => by fin_cases a <;> decide +kernel
  exact (Memref.read_access_unit_zero (Elt Ideal) main_v53_1 hz' (fun a => by rw [congrFun hz' a]; simp) (colsumsq128 (arrOf V c))).symm

/-- The second output array ends holding the column sums of squares of the input array. -/
theorem final4_sq (c : Dev nD) : (dat4 (F := Ideal) V c).arrAt 2 cfg4.N = colsumsq128 (V c main_v52) :=
  (dat4 (F := Ideal) V c).arrAt_eq_of_cover 2 (colsumsq128 (arrOf V c)) (flushed_sq V c) fun i =>
    ⟨tLast, (flush4_2 tLast).mpr rfl, by
      show i ∈ ((View.whole main_v53_1).slice (win4_2.rect tLast)).set
      rw [View.set_slice_whole, Rect.mem_set_unit]
      intro a
      have h0 : (i 0 : Nat) < 1 := (i 0).isLt
      have h1 : (i 1 : Nat) < 128 := (i 1).isLt
      match a with
      | ⟨0, _⟩ => show win4_2.index tLast 0 * win4_2.size 0 ≤ (i 0 : Nat) ∧ (i 0 : Nat) < win4_2.index tLast 0 * win4_2.size 0 + win4_2.xsize (grid4.coords tLast) 0
                  rw [show win4_2.index tLast 0 * win4_2.size 0 = 0 from by decide +kernel, show win4_2.xsize (grid4.coords tLast) 0 = 1 from by decide +kernel]; omega
      | ⟨1, _⟩ => show win4_2.index tLast 1 * win4_2.size 1 ≤ (i 1 : Nat) ∧ (i 1 : Nat) < win4_2.index tLast 1 * win4_2.size 1 + win4_2.xsize (grid4.coords tLast) 1
                  rw [show win4_2.index tLast 1 * win4_2.size 1 = 0 from by decide +kernel, show win4_2.xsize (grid4.coords tLast) 1 = 128 from by decide +kernel]; omega⟩

end Region

end Cert.KernelIdeal.RegStats4

end
-- ==== Proof.RegStats7.lean ====
/-
  The column statistics of region 7: a 100000×32 array is read in 50 consecutive blocks of 2000 rows. At the first
  block the 1×32 accumulator rows are set to zero; at every block the block's column sums are added to the first
  row (the second row, of sums of squares, is not read here). The rows stay in place over the 50 blocks and are written
  back once, after the last block.
  So after block t the first row holds, at column q, the sum of x(r, q) over the rows r < 2000·(t + 1), and after the last
  block the sum over all 100000 rows: a sum regrouped into 50 groups of 2000, which needs only
  commutativity and associativity of + on the extended reals.
-/
import proofs.«112237_j46686294507759_1_alg».proof.Proof.Spec
import proofs.«112237_j46686294507759_1_alg».proof.Proof.Gen.KernelIdeal.Frame
import proofs.«112237_j46686294507759_1_alg».proof.Proof.RegStatsSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegStats7

open Idealize.ShloMosaic Idealize.ShloMosaic.TcCoe Idealize.SL.Sem Cert.KernelIdeal Cert.KernelIdeal.Gen Cert.Sage
open Idealize.ShloMosaic.ValueIdx Cert.KernelIdeal.RegStatsSum
open Idealize.ShloMosaic.Pipeline (Dat)
open scoped BigOperators

theorem hz : (![0, 0] : Fin 2 → Nat) = fun _ => 0 := funext fun a => by fin_cases a <;> rfl

/-! ## What each control case leaves in the first accumulator row -/

section Pieces
variable {F : FTy → Type} [FloatOps F]

/-- Later blocks, first row: the carried row plus the block's column sums. -/
theorem out_B_1 (c : Dev nD) (i : grid7.Coords) (a1 : Memref sig .tc .vmem S2000x32 .f32) (h1 : a1.IsWhole)
    (a2 : Memref sig .tc .vmem S1x32 .f32) (h2 : a2.IsWhole) (a3 : Memref sig .tc .vmem S1x32 .f32) (h3 : a3.IsWhole)
    (hc : ¬cond7_0 i) (x : Vec F S2000x32 .f32) (xo1 xo2 : Vec F S1x32 .f32) :
    out7_B_1 c i a1 h1 a2 h2 a3 h3 hc x xo1 xo2 = k7_pay4 x xo1 := by
  unfold out7_B_1
  rw [View.read_writes_eq_canon _ _ _ (cover7_B_1 c i a1 h1 a2 h2 a3 h3 hc x xo1 xo2)]
  unfold kernelRun7_B
  dsimp only
  rw [View.canon_unit_zero hz]
  simp only [View.readAt_eq_ld, h1.read_unread, h2.read_unread, View.ld_unit_zero (S := S2000x32) hz, View.ld_unit_zero (S := S1x32) hz]

/-- First block, first row: the zero row, read back, plus the block's column sums. -/
theorem out_A_1 (c : Dev nD) (i : grid7.Coords) (a1 : Memref sig .tc .vmem S2000x32 .f32) (h1 : a1.IsWhole)
    (a2 : Memref sig .tc .vmem S1x32 .f32) (h2 : a2.IsWhole) (a3 : Memref sig .tc .vmem S1x32 .f32) (h3 : a3.IsWhole)
    (hc : cond7_0 i) (x : Vec F S2000x32 .f32) :
    out7_A_1 c i a1 h1 a2 h2 a3 h3 hc x = k7_pay4 x (k7_pay1 (F := F)) := by
  unfold out7_A_1
  rw [View.read_writes_eq_canon _ _ _ (cover7_A_1 c i a1 h1 a2 h2 a3 h3 hc x)]
  unfold kernelRun7_A
  dsimp only
  sl_unfold_words
  rw [View.canon_cons_unit_zero (S := S1x32) hz, View.readCov_unit_zero (S := S1x32) _ hz]
  simp only [View.readAt_eq_ld, h1.read_unread, View.ld_unit_zero (S := S2000x32) hz]

end Pieces

/-! ## The stored rows at a column, on the extended reals -/

section Payload

/-- The reduction over the 2000 rows of a block, at column `q`, is the sum of the column's 2000 entries. -/
theorem blocksum_apply (y : FVec Ideal S2000x32 .f32) (q : Fin 32) :
    multiReduction .add [0] S32 y 0x00000000#32 reduces_S2000x32_S32 (.inl rfl) rfl (ix1 q) = ∑ p : Fin 2000, y (ix2 p q) := by
  refine (Ideal.multiReduction_add_single y 0x00000000#32 reduces_S2000x32_S32 (.inl rfl) rfl (ix1 q)).trans ?_
  refine Finset.sum_congr rfl fun p _ => congrArg y (funext fun a => ?_)
  match a with
  | ⟨0, _⟩ => rfl
  | ⟨1, _⟩ => rfl

/-- A carried row plus a block's column reduction, at column `q`. -/
theorem row_add_apply (a : FVec Ideal S1x32 .f32) (y : FVec Ideal S2000x32 .f32) (q : Fin 32) :
    (addf (shapeCast S1x32 a shapeCasts_S1x32_S1x32)
      (shapeCast S1x32 (multiReduction .add [0] S32 y 0x00000000#32 reduces_S2000x32_S32 (.inl rfl) rfl) shapeCasts_S32_S1x32) :
        FVec Ideal S1x32 .f32) (ix2 (0 : Fin 1) q)
      = a (ix2 (0 : Fin 1) q) + ∑ p : Fin 2000, y (ix2 p q) := by
  refine (addf_apply _ _ _).trans ?_
  rw [shapeCast_self, shapeCast_a_1a_apply, blocksum_apply]

/-- The first stored row at column `q`: the carried entry plus the sum of the block's column. -/
theorem pay4_apply (x : Vec Ideal S2000x32 .f32) (a : Vec Ideal S1x32 .f32) (q : Fin 32) :
    k7_pay4 (F := Ideal) x a (ix2 (0 : Fin 1) q) = a (ix2 (0 : Fin 1) q) + ∑ p : Fin 2000, x (ix2 p q) := by
  refine (row_add_apply a (shapeCast S2000x32 x shapeCasts_S2000x32_S2000x32) q).trans ?_
  rw [shapeCast_self]

/-- The zero row. -/
theorem pay1_apply (q : Fin 32) : k7_pay1 (F := Ideal) (ix2 (0 : Fin 1) q) = 0 := Ideal.ofBits_zero_f32

end Payload

/-! ## The blocks of the input array, and the running sums -/

section Region

variable (V : (c : Dev nD) → (b : Ref sig .tc) → Buf (Elt Ideal) ((c : Thread nD τ).loc b))

/-- The input array as the region finds it, entry by entry on the extended reals. -/
abbrev arrOf (c : Dev nD) : S100000x32.Idx → EReal := V c main_v82

/-- Block `t` of the input array: its rows 2000·t … 2000·t + 1999. -/
abbrev blkOf (c : Dev nD) (t : Fin cfg7.N) : Vec Ideal S2000x32 .f32 := iblk7 (F := Ideal) V c 0 t

/-- The input window's block index at block `t`: (t, 0). -/
theorem idx_facts : ∀ t : Fin cfg7.N, win7_0.index t (0 : Fin 2) = t.val ∧ win7_0.index t (1 : Fin 2) = 0 :=
  (by decide +kernel : ∀ t : Fin grid7.N, _)

/-- Entry (p, q) of block `t` is entry (2000·t + p, q) of the array. -/
theorem iblk_apply (c : Dev nD) (t : Fin cfg7.N) (p : Fin 2000) (q : Fin 32) (hr : t.val * 2000 + p.val < 100000) :
    blkOf V c t (ix2 p q) = arrOf V c (ix2 ⟨t.val * 2000 + p.val, hr⟩ q) := by
  obtain ⟨e0, e1⟩ := idx_facts t
  unfold blkOf arrOf iblk7
  rw [View.read_apply]
  show V c main_v82 (((cfg7.win 0).blk t).view.emb (ix2 p q)) = V c main_v82 _
  refine congrArg (V c main_v82) (funext fun a => Fin.ext ?_)
  match a with
  | ⟨0, _⟩ => show win7_0.index t (0 : Fin 2) * 2000 + 1 * p.val = t.val * 2000 + p.val; rw [e0]; omega
  | ⟨1, _⟩ => show win7_0.index t (1 : Fin 2) * 32 + 1 * q.val = q.val; rw [e1]; omega

/-- Column `q` of the input array, as a function of the row. -/
abbrev colOf (c : Dev nD) (q : Fin 32) : Fin 100000 → EReal := fun r => arrOf V c (ix2 r q)

/-- The sum of block `t`'s column `q` is group `t`'s sum of the array's column `q`. -/
theorem blk_sum (c : Dev nD) (t : Fin cfg7.N) (q : Fin 32) :
    ∑ p : Fin 2000, blkOf V c t (ix2 p q) = groupSum (colOf V c q) t.val := by
  have ht : t.val < 50 := t.isLt.trans_eq N_7
  rw [groupSum_of_lt _ _ ht]
  exact Finset.sum_congr rfl fun p _ => iblk_apply V c t p q (by have := p.isLt; omega)

/-- The first row after the first block. -/
theorem sum_first (c : Dev nD) (t : Fin cfg7.N) (h0 : t.val % 50 = 0) (q : Fin 32) :
    (outsAt7 (F := Ideal) V c t.val t.isLt).1 (ix2 (0 : Fin 1) q) = groupSum (colOf V c q) t.val := by
  rw [outsAt7_A V c t h0]
  dsimp only
  refine (congrFun (out_A_1 (F := Ideal) c (grid7.coords t) (ms7_0 t) (hs7_0 t) (ms7_1 t) (hs7_1 t) (ms7_2 t) (hs7_2 t)
    ((hcond7_0 t).mpr h0) (blkOf V c t)) (ix2 (0 : Fin 1) q)).trans ?_
  refine (pay4_apply _ _ q).trans ?_
  rw [pay1_apply, zero_add]
  exact blk_sum V c t q

/-- The first row after a later block: what the block before left, plus this block's group. -/
theorem sum_later (c : Dev nD) (t : Fin cfg7.N) (h0 : ¬t.val % 50 = 0) (q : Fin 32) :
    (outsAt7 (F := Ideal) V c t.val t.isLt).1 (ix2 (0 : Fin 1) q)
      = (outsAt7 (F := Ideal) V c (t.val - 1) (Nat.lt_of_le_of_lt (Nat.sub_le _ _) t.isLt)).1 (ix2 (0 : Fin 1) q)
        + groupSum (colOf V c q) t.val := by
  rw [outsAt7_B V c t h0]
  dsimp only
  refine (congrFun (out_B_1 (F := Ideal) c (grid7.coords t) (ms7_0 t) (hs7_0 t) (ms7_1 t) (hs7_1 t) (ms7_2 t) (hs7_2 t)
    (fun h => h0 ((hcond7_0 t).mp h)) (blkOf V c t) _ _) (ix2 (0 : Fin 1) q)).trans ?_
  refine (pay4_apply _ _ q).trans ?_
  rw [blk_sum V c t q]

/-- After block `n` the first row holds, at column `q`, the sum over the groups 0 … n. -/
theorem sum_after (c : Dev nD) (q : Fin 32) : ∀ (n : ℕ) (h : n < cfg7.N),
    (outsAt7 (F := Ideal) V c n h).1 (ix2 (0 : Fin 1) q) = ∑ s ∈ Finset.range (n + 1), groupSum (colOf V c q) s
  | 0, h => by
    rw [Finset.sum_range_one]
    exact sum_first V c ⟨0, h⟩ rfl q
  | n + 1, h => by
    have h' : n + 1 < 50 := h.trans_eq N_7
    have hB : ¬(n + 1) % 50 = 0 := by omega
    rw [Finset.sum_range_succ _ (n + 1)]
    refine (sum_later V c ⟨n + 1, h⟩ hB q).trans ?_
    show (outsAt7 (F := Ideal) V c n _).1 (ix2 (0 : Fin 1) q) + _ = _
    rw [sum_after c q n (Nat.lt_of_succ_lt h)]

/-- After the last block the first row is the column sums of the whole array. -/
theorem sum_last (c : Dev nD) (h : 49 < cfg7.N) :
    (outsAt7 (F := Ideal) V c 49 h).1 = colsum32 (arrOf V c) := by
  funext j
  obtain ⟨u, q, rfl⟩ : ∃ (u : Fin 1) (q : Fin 32), j = ix2 u q := ⟨j 0, j 1, eq_ix2 j⟩
  obtain rfl : u = 0 := Subsingleton.elim _ _
  rw [sum_after V c q 49 h]
  exact sum_groups (colOf V c q)

/-! ## The write-back after the last block, and the output arrays -/

/-- The last block. -/
abbrev tLast : Fin cfg7.N := ⟨49, by decide⟩

/-- The one write-back of the first row, after the last block, writes the column sums: the row's block is the whole
    1×32 array. -/
theorem flushed_sum (c : Dev nD) (t : Fin cfg7.N) (hf : (cfg7.win 1).flush t = true) :
    (dat7 (F := Ideal) V c).flushed 1 t = ((cfg7.win 1).blk t).view.read (Elt Ideal) (colsum32 (arrOf V c)) := by
  have h49 : t.val = 49 := by have := (flush7_1 t).mp hf; have := t.isLt.trans_eq N_7; omega
  obtain rfl : t = tLast := Fin.ext h49
  show (cfg7.win 1).cut (grid7.coords tLast) ((dat7 (F := Ideal) V c).after 1 tLast) = _
  rw [after7_1]
  show (cfg7.win 1).cut (grid7.coords tLast) (outsAt7 (F := Ideal) V c 49 _).1 = _
  rw [sum_last V c]
  have hz' : (fun a => win7_1.index tLast a * main_v83_0.ty.shape.size a) = fun _ => 0 := funext fun a => by fin_cases a <;> decide +kernel
  exact (Memref.read_access_unit_zero (Elt Ideal) main_v83_0 hz' (fun a => by rw [congrFun hz' a]; simp) (colsum32 (arrOf V c))).symm

/-- The first output array ends holding the column sums of the input array. -/
theorem final7_sum (c : Dev nD) : (dat7 (F := Ideal) V c).arrAt 1 cfg7.N = colsum32 (V c main_v82) :=
  (dat7 (F := Ideal) V c).arrAt_eq_of_cover 1 (colsum32 (arrOf V c)) (flushed_sum V c) fun i =>
    ⟨tLast, (flush7_1 tLast).mpr rfl, by
      show i ∈ ((View.whole main_v83_0).slice (win7_1.rect tLast)).set
      rw [View.set_slice_whole, Rect.mem_set_unit]
      intro a
      have h0 : (i 0 : Nat) < 1 := (i 0).isLt
      have h1 : (i 1 : Nat) < 32 := (i 1).isLt
      match a with
      | ⟨0, _⟩ => show win7_1.index tLast 0 * win7_1.size 0 ≤ (i 0 : Nat) ∧ (i 0 : Nat) < win7_1.index tLast 0 * win7_1.size 0 + win7_1.xsize (grid7.coords tLast) 0
                  rw [show win7_1.index tLast 0 * win7_1.size 0 = 0 from by decide +kernel, show win7_1.xsize (grid7.coords tLast) 0 = 1 from by decide +kernel]; omega
      | ⟨1, _⟩ => show win7_1.index tLast 1 * win7_1.size 1 ≤ (i 1 : Nat) ∧ (i 1 : Nat) < win7_1.index tLast 1 * win7_1.size 1 + win7_1.xsize (grid7.coords tLast) 1
                  rw [show win7_1.index tLast 1 * win7_1.size 1 = 0 from by decide +kernel, show win7_1.xsize (grid7.coords tLast) 1 = 32 from by decide +kernel]; omega⟩

end Region

end Cert.KernelIdeal.RegStats7

end
-- ==== Proof.RegBn2.lean ====
/-
  Custom call 2 of the idealized kernel (its calls numbered from 0) is the affine-plus-rectifier pass of a batch normalisation:
  every entry x of the 100000 x 128 array becomes  max(x * scale + shift, 0),  the scale and the shift being one
  value per column, held in two 1 x 128 rows.  The call walks the rows in 50 blocks of 2000: grid point t reads rows
  2000 t ... 2000 t + 1999 of the array (all 128 columns) together with the whole scale row and the whole shift row,
  and writes the same rows of the result.  Row r of the result is therefore written by point r / 2000 and by no other,
  the 50 blocks fill the result array, and its entry (r, q) depends only on entry (r, q) of the input and on column q
  of the two rows.  This module reads the block a point writes at an index, identifies it with the block of the
  array function `affRelu`, and concludes that the array the call leaves is `affRelu` of the arrays it found.
-/
import proofs.«112237_j46686294507759_1_alg».proof.Proof.Spec
import proofs.«112237_j46686294507759_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegBn2

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem zero_offsets : (![0, 0] : Fin 2 → Nat) = fun _ => 0 := funext fun a => by fin_cases a <;> rfl

/-- A 1 x 128 row broadcast over 2000 rows reads, at (p, q), the row's column q. -/
theorem row_bcast (v : Vec Ideal S1x128 .f32) (h : S1x128.Broadcasts S2000x128) (p : Fin 2000) (q : Fin 128) :
    broadcastTo S2000x128 v h (ix2 p q) = v (ix2 (0 : Fin 1) q) :=
  broadcastTo_1b_ab_apply v h p q

/-- The value a point stores at (p, q) of its block: the block's entry times the scale's column q plus the shift's
    column q, rectified. -/
theorem pay_apply (x0 : Vec Ideal S2000x128 .f32) (x1 x2 : Vec Ideal S1x128 .f32) (p : Fin 2000) (q : Fin 128) :
    k2_pay1 (F := Ideal) x0 x1 x2 (ix2 p q)
      = max (x0 (ix2 p q) * x1 (ix2 (0 : Fin 1) q) + x2 (ix2 (0 : Fin 1) q)) 0 := by
  unfold k2_pay1
  simp only [shapeCast_self]
  show max (x0 (ix2 p q) * broadcastTo S2000x128 x1 _ (ix2 p q) + broadcastTo S2000x128 x2 _ (ix2 p q))
      (Ideal.ofBits .f32 0x00000000#32) = _
  rw [row_bcast, row_bcast, Ideal.ofBits_zero_f32]

/-- The printed index maps over the 50 grid points: the input array's window and the result's window sit at block
    (t, 0); the scale row and the shift row have their one block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, q) of the input block at point t is entry (2000 t + p, q) of the input array. -/
theorem x_block_apply (c : Dev nD) (t : Fin cfg2.N) (p : Fin 2000) (q : Fin 128) (r : Fin 100000)
    (hr : r.val = 2000 * t.val + p.val) :
    (iblk2 (F := Ideal) V c 0 t : Vec Ideal S2000x128 .f32) (ix2 p q)
      = (V c main_v22 : S100000x128.Idx → EReal) (ix2 r q) := by
  obtain ⟨e0, e1, -⟩ := idx_facts t
  unfold iblk2
  rw [View.read_apply]
  show V c main_v22 _ = V c main_v22 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * q.val = q.val; rw [e1]; omega

/-- The scale row's one block is the scale row. -/
theorem scale_block_apply (c : Dev nD) (t : Fin cfg2.N) (q : Fin 128) :
    (iblk2 (F := Ideal) V c 1 t : Vec Ideal S1x128 .f32) (ix2 (0 : Fin 1) q)
      = (V c main_v34 : S1x128.Idx → EReal) (ix2 (0 : Fin 1) q) := by
  obtain ⟨-, -, e2, e3, -⟩ := idx_facts t
  unfold iblk2
  rw [View.read_apply]
  show V c main_v34 _ = V c main_v34 _
  congr 1
  funext a
  apply Fin.ext
  match a with
  | ⟨0, _⟩ => show win2_1.index t (0 : Fin 2) * 1 + 1 * 0 = 0; rw [e2]
  | ⟨1, _⟩ => show win2_1.index t (1 : Fin 2) * 128 + 1 * q.val = q.val; rw [e3]; omega

/-- The shift row's one block is the shift row. -/
theorem shift_block_apply (c : Dev nD) (t : Fin cfg2.N) (q : Fin 128) :
    (iblk2 (F := Ideal) V c 2 t : Vec Ideal S1x128 .f32) (ix2 (0 : Fin 1) q)
      = (V c main_v37 : S1x128.Idx → EReal) (ix2 (0 : Fin 1) q) := by
  obtain ⟨-, -, -, -, e4, e5, -⟩ := idx_facts t
  unfold iblk2
  rw [View.read_apply]
  show V c main_v37 _ = V c main_v37 _
  congr 1
  funext a
  apply Fin.ext
  match a with
  | ⟨0, _⟩ => show win2_2.index t (0 : Fin 2) * 1 + 1 * 0 = 0; rw [e4]
  | ⟨1, _⟩ => show win2_2.index t (1 : Fin 2) * 128 + 1 * q.val = q.val; rw [e5]; omega

/-- What a point stores at (p, q), from blocks that are restrictions of whole arrays: the array function's entry at
    the row r the block's row p is. -/
theorem point_eq (A : S100000x128.Idx → EReal) (sc sh : S1x128.Idx → EReal)
    (x0 : Vec Ideal S2000x128 .f32) (x1 x2 : Vec Ideal S1x128 .f32) (p : Fin 2000) (q : Fin 128) (r : Fin 100000)
    (h0 : x0 (ix2 p q) = A (ix2 r q)) (h1 : x1 (ix2 (0 : Fin 1) q) = sc (ix2 (0 : Fin 1) q))
    (h2 : x2 (ix2 (0 : Fin 1) q) = sh (ix2 (0 : Fin 1) q)) :
    k2_pay1 (F := Ideal) x0 x1 x2 (ix2 p q) = affRelu A sc sh (ix2 r q) := by
  rw [pay_apply, h0, h1, h2]
  rfl

/-- What point t writes back is block t of the array function. -/
theorem flushed_eq (c : Dev nD) (t : Fin cfg2.N) :
    (dat2 (F := Ideal) V c).flushed 3 t
      = ((cfg2.win 3).blk t).view.read (Elt Ideal) (affRelu (V c main_v22) (V c main_v34) (V c main_v37)) := by
  show (cfg2.win 3).cut (grid2.coords t) ((dat2 (F := Ideal) V c).after 3 t) = _
  rw [after2_3]
  unfold out2_3
  rw [View.canon_unit_zero zero_offsets]
  simp only [View.ld_unit_zero (S := S2000x128) zero_offsets, View.ld_unit_zero (S := S1x128) zero_offsets]
  funext j
  obtain ⟨p, q, rfl⟩ : ∃ (p : Fin 2000) (q : Fin 128), j = ix2 p q := ⟨j 0, j 1, eq_ix2 j⟩
  have ht : t.val < 50 := t.isLt
  have hp : p.val < 2000 := p.isLt
  obtain ⟨-, -, -, -, -, -, e6, e7⟩ := idx_facts t
  show k2_pay1 (F := Ideal) (iblk2 V c 0 t) (iblk2 V c 1 t) (iblk2 V c 2 t) (ix2 p q)
    = affRelu (V c main_v22) (V c main_v34) (V c main_v37) (((cfg2.win 3).blk t).view.emb (ix2 p q))
  refine (point_eq (V c main_v22) (V c main_v34) (V c main_v37) (iblk2 V c 0 t) (iblk2 V c 1 t) (iblk2 V c 2 t)
    p q ⟨2000 * t.val + p.val, by omega⟩ (x_block_apply V c t p q _ rfl) (scale_block_apply V c t q)
    (shift_block_apply V c t q)).trans ?_
  refine congrArg (affRelu (V c main_v22) (V c main_v34) (V c main_v37)) ?_
  funext a
  apply Fin.ext
  match a with
  | ⟨0, _⟩ => show 2000 * t.val + p.val = win2_3.index t (0 : Fin 2) * 2000 + 1 * p.val; rw [e6]; omega
  | ⟨1, _⟩ => show q.val = win2_3.index t (1 : Fin 2) * 128 + 1 * q.val; rw [e7]; omega

/-- An index of the result array is in point t's block iff each coordinate is in the block's range on its axis. -/
theorem mem_blk (t : Fin cfg2.N) (i : S100000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v38).slice (win2_3.rect t)).set ↔ _
  rw [View.set_slice_whole, Rect.mem_set_unit]
  exact Iff.rfl

/-- Row r of the result lies in the block of point r / 2000: the 50 blocks fill the array. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, by show (i 0).val / 2000 < grid2.N; rw [N_2]; omega⟩, rfl⟩
  obtain ⟨-, -, -, -, -, -, e6, e7⟩ := idx_facts t
  refine ⟨t, flush2_3 t, ?_⟩
  rw [mem_blk]
  intro a
  match a with
  | ⟨0, _⟩ =>
    show win2_3.index t (0 : Fin 2) * 2000 ≤ (i 0).val ∧ (i 0).val < win2_3.index t (0 : Fin 2) * 2000 + 2000
    rw [e6, ht]; omega
  | ⟨1, _⟩ =>
    show win2_3.index t (1 : Fin 2) * 128 ≤ (i 1).val ∧ (i 1).val < win2_3.index t (1 : Fin 2) * 128 + 128
    rw [e7]; omega

/-- The array the call leaves: the affine-plus-rectifier pass of the arrays it found. -/
theorem final2 (c : Dev nD) :
    (dat2 (F := Ideal) V c).arrAt 3 cfg2.N = affRelu (V c main_v22) (V c main_v34) (V c main_v37) :=
  (dat2 (F := Ideal) V c).arrAt_eq_of_cover 3 (affRelu (V c main_v22) (V c main_v34) (V c main_v37))
    (fun t _ => flushed_eq V c t) cover

end Cert.KernelIdeal.RegBn2

end
-- ==== Proof.RegBn5.lean ====
/-
  Custom call 5 of the idealized kernel (its calls numbered from 0) is the affine-plus-rectifier pass of a batch normalisation:
  every entry x of the 100000 x 128 array becomes  max(x * scale + shift, 0),  the scale and the shift being one
  value per column, held in two 1 x 128 rows.  The call walks the rows in 50 blocks of 2000: grid point t reads rows
  2000 t ... 2000 t + 1999 of the array (all 128 columns) together with the whole scale row and the whole shift row,
  and writes the same rows of the result.  Row r of the result is therefore written by point r / 2000 and by no other,
  the 50 blocks fill the result array, and its entry (r, q) depends only on entry (r, q) of the input and on column q
  of the two rows.  This module reads the block a point writes at an index, identifies it with the block of the
  array function `affRelu`, and concludes that the array the call leaves is `affRelu` of the arrays it found.
-/
import proofs.«112237_j46686294507759_1_alg».proof.Proof.Spec
import proofs.«112237_j46686294507759_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegBn5

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem zero_offsets : (![0, 0] : Fin 2 → Nat) = fun _ => 0 := funext fun a => by fin_cases a <;> rfl

/-- A 1 x 128 row broadcast over 2000 rows reads, at (p, q), the row's column q. -/
theorem row_bcast (v : Vec Ideal S1x128 .f32) (h : S1x128.Broadcasts S2000x128) (p : Fin 2000) (q : Fin 128) :
    broadcastTo S2000x128 v h (ix2 p q) = v (ix2 (0 : Fin 1) q) :=
  broadcastTo_1b_ab_apply v h p q

/-- The value a point stores at (p, q) of its block: the block's entry times the scale's column q plus the shift's
    column q, rectified. -/
theorem pay_apply (x0 : Vec Ideal S2000x128 .f32) (x1 x2 : Vec Ideal S1x128 .f32) (p : Fin 2000) (q : Fin 128) :
    k5_pay1 (F := Ideal) x0 x1 x2 (ix2 p q)
      = max (x0 (ix2 p q) * x1 (ix2 (0 : Fin 1) q) + x2 (ix2 (0 : Fin 1) q)) 0 := by
  unfold k5_pay1
  simp only [shapeCast_self]
  show max (x0 (ix2 p q) * broadcastTo S2000x128 x1 _ (ix2 p q) + broadcastTo S2000x128 x2 _ (ix2 p q))
      (Ideal.ofBits .f32 0x00000000#32) = _
  rw [row_bcast, row_bcast, Ideal.ofBits_zero_f32]

/-- The printed index maps over the 50 grid points: the input array's window and the result's window sit at block
    (t, 0); the scale row and the shift row have their one block (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Entry (p, q) of the input block at point t is entry (2000 t + p, q) of the input array. -/
theorem x_block_apply (c : Dev nD) (t : Fin cfg5.N) (p : Fin 2000) (q : Fin 128) (r : Fin 100000)
    (hr : r.val = 2000 * t.val + p.val) :
    (iblk5 (F := Ideal) V c 0 t : Vec Ideal S2000x128 .f32) (ix2 p q)
      = (V c main_v52 : S100000x128.Idx → EReal) (ix2 r q) := by
  obtain ⟨e0, e1, -⟩ := idx_facts t
  unfold iblk5
  rw [View.read_apply]
  show V c main_v52 _ = V c main_v52 _
  congr 1
  funext a
  apply Fin.ext
  match a with
  | ⟨0, _⟩ => show win5_0.index t (0 : Fin 2) * 2000 + 1 * p.val = r.val; rw [e0, hr]; omega
  | ⟨1, _⟩ => show win5_0.index t (1 : Fin 2) * 128 + 1 * q.val = q.val; rw [e1]; omega

/-- The scale row's one block is the scale row. -/
theorem scale_block_apply (c : Dev nD) (t : Fin cfg5.N) (q : Fin 128) :
    (iblk5 (F := Ideal) V c 1 t : Vec Ideal S1x128 .f32) (ix2 (0 : Fin 1) q)
      = (V c main_v64 : S1x128.Idx → EReal) (ix2 (0 : Fin 1) q) := by
  obtain ⟨-, -, e2, e3, -⟩ := idx_facts t
  unfold iblk5
  rw [View.read_apply]
  show V c main_v64 _ = V c main_v64 _
  congr 1
  funext a
  apply Fin.ext
  match a with
  | ⟨0, _⟩ => show win5_1.index t (0 : Fin 2) * 1 + 1 * 0 = 0; rw [e2]
  | ⟨1, _⟩ => show win5_1.index t (1 : Fin 2) * 128 + 1 * q.val = q.val; rw [e3]; omega

/-- The shift row's one block is the shift row. -/
theorem shift_block_apply (c : Dev nD) (t : Fin cfg5.N) (q : Fin 128) :
    (iblk5 (F := Ideal) V c 2 t : Vec Ideal S1x128 .f32) (ix2 (0 : Fin 1) q)
      = (V c main_v67 : S1x128.Idx → EReal) (ix2 (0 : Fin 1) q) := by
  obtain ⟨-, -, -, -, e4, e5, -⟩ := idx_facts t
  unfold iblk5
  rw [View.read_apply]
  show V c main_v67 _ = V c main_v67 _
  congr 1
  funext a
  apply Fin.ext
  match a with
  | ⟨0, _⟩ => show win5_2.index t (0 : Fin 2) * 1 + 1 * 0 = 0; rw [e4]
  | ⟨1, _⟩ => show win5_2.index t (1 : Fin 2) * 128 + 1 * q.val = q.val; rw [e5]; omega

/-- What a point stores at (p, q), from blocks that are restrictions of whole arrays: the array function's entry at
    the row r the block's row p is. -/
theorem point_eq (A : S100000x128.Idx → EReal) (sc sh : S1x128.Idx → EReal)
    (x0 : Vec Ideal S2000x128 .f32) (x1 x2 : Vec Ideal S1x128 .f32) (p : Fin 2000) (q : Fin 128) (r : Fin 100000)
    (h0 : x0 (ix2 p q) = A (ix2 r q)) (h1 : x1 (ix2 (0 : Fin 1) q) = sc (ix2 (0 : Fin 1) q))
    (h2 : x2 (ix2 (0 : Fin 1) q) = sh (ix2 (0 : Fin 1) q)) :
    k5_pay1 (F := Ideal) x0 x1 x2 (ix2 p q) = affRelu A sc sh (ix2 r q) := by
  rw [pay_apply, h0, h1, h2]
  rfl

/-- What point t writes back is block t of the array function. -/
theorem flushed_eq (c : Dev nD) (t : Fin cfg5.N) :
    (dat5 (F := Ideal) V c).flushed 3 t
      = ((cfg5.win 3).blk t).view.read (Elt Ideal) (affRelu (V c main_v52) (V c main_v64) (V c main_v67)) := by
  show (cfg5.win 3).cut (grid5.coords t) ((dat5 (F := Ideal) V c).after 3 t) = _
  rw [after5_3]
  unfold out5_3
  rw [View.canon_unit_zero zero_offsets]
  simp only [View.ld_unit_zero (S := S2000x128) zero_offsets, View.ld_unit_zero (S := S1x128) zero_offsets]
  funext j
  obtain ⟨p, q, rfl⟩ : ∃ (p : Fin 2000) (q : Fin 128), j = ix2 p q := ⟨j 0, j 1, eq_ix2 j⟩
  have ht : t.val < 50 := t.isLt
  have hp : p.val < 2000 := p.isLt
  obtain ⟨-, -, -, -, -, -, e6, e7⟩ := idx_facts t
  show k5_pay1 (F := Ideal) (iblk5 V c 0 t) (iblk5 V c 1 t) (iblk5 V c 2 t) (ix2 p q)
    = affRelu (V c main_v52) (V c main_v64) (V c main_v67) (((cfg5.win 3).blk t).view.emb (ix2 p q))
  refine (point_eq (V c main_v52) (V c main_v64) (V c main_v67) (iblk5 V c 0 t) (iblk5 V c 1 t) (iblk5 V c 2 t)
    p q ⟨2000 * t.val + p.val, by omega⟩ (x_block_apply V c t p q _ rfl) (scale_block_apply V c t q)
    (shift_block_apply V c t q)).trans ?_
  refine congrArg (affRelu (V c main_v52) (V c main_v64) (V c main_v67)) ?_
  funext a
  apply Fin.ext
  match a with
  | ⟨0, _⟩ => show 2000 * t.val + p.val = win5_3.index t (0 : Fin 2) * 2000 + 1 * p.val; rw [e6]; omega
  | ⟨1, _⟩ => show q.val = win5_3.index t (1 : Fin 2) * 128 + 1 * q.val; rw [e7]; omega

/-- An index of the result array is in point t's block iff each coordinate is in the block's range on its axis. -/
theorem mem_blk (t : Fin cfg5.N) (i : S100000x128.Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v68).slice (win5_3.rect t)).set ↔ _
  rw [View.set_slice_whole, Rect.mem_set_unit]
  exact Iff.rfl

/-- Row r of the result lies in the block of point r / 2000: the 50 blocks fill the array. -/
theorem cover (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ : ∃ t : Fin cfg5.N, t.val = (i 0).val / 2000 :=
    ⟨⟨(i 0).val / 2000, by show (i 0).val / 2000 < grid5.N; rw [N_5]; omega⟩, rfl⟩
  obtain ⟨-, -, -, -, -, -, e6, e7⟩ := idx_facts t
  refine ⟨t, flush5_3 t, ?_⟩
  rw [mem_blk]
  intro a
  match a with
  | ⟨0, _⟩ =>
    show win5_3.index t (0 : Fin 2) * 2000 ≤ (i 0).val ∧ (i 0).val < win5_3.index t (0 : Fin 2) * 2000 + 2000
    rw [e6, ht]; omega
  | ⟨1, _⟩ =>
    show win5_3.index t (1 : Fin 2) * 128 ≤ (i 1).val ∧ (i 1).val < win5_3.index t (1 : Fin 2) * 128 + 128
    rw [e7]; omega

/-- The array the call leaves: the affine-plus-rectifier pass of the arrays it found. -/
theorem final5 (c : Dev nD) :
    (dat5 (F := Ideal) V c).arrAt 3 cfg5.N = affRelu (V c main_v52) (V c main_v64) (V c main_v67) :=
  (dat5 (F := Ideal) V c).arrAt_eq_of_cover 3 (affRelu (V c main_v52) (V c main_v64) (V c main_v67))
    (fun t _ => flushed_eq V c t) cover

end Cert.KernelIdeal.RegBn5

end
-- ==== Proof.RefRead.lean ====
/-
  Operations of the reference program read at an index, on the extended reals: a matrix product as the sum over the
  contracted column, a column sum over the node axis as the initial value plus the sum over the rows, a vector laid
  along every row, and the rectifier as a maximum with zero.
-/
import proofs.«112237_j46686294507759_1_alg».proof.ReferenceIdeal
import Idealize.ShloMosaic.PureOps.Ideal.Laws
import Idealize.ShloMosaic.Lib.ValueIdx
import Idealize.ShloMosaic.Lib.Pipeline.Value
import Idealize.ShloMosaic.Lib.IdealHost
import Idealize.ShloMosaic.Lib.KernelVsHost

noncomputable section

namespace Cert.Sage.RefRead

open Idealize.ShloMosaic Idealize.ShloMosaic.ValueIdx Cert.ReferenceIdeal
open scoped BigOperators

variable [Cert.ReferenceIdeal.Facts₀]

/-- Entry (p, q) of  l · r  for a 100000×128 by 128×128 product: the sum over the 128 contracted columns. -/
theorem dot128_apply (l : FVec Ideal S100000x128 .f32) (r : FVec Ideal S128x128 .f32) (p : Fin 100000) (q : Fin 128) :
    Host.dotGeneral (F := Ideal) dot_S100000x128_S128x128_S100000x128_1_0_0_1_n_n none l r (ix2 p q)
      = ∑ k : Fin 128, l (ix2 p k) * r (ix2 k q) := by
  show FloatOps.dotGeneral _ none _ l r (ix2 p q) = _
  rw [Ideal.dotGeneral_apply, ← Equiv.sum_comp (contrEquiv1 dot_S100000x128_S128x128_S100000x128_1_0_0_1_n_n 128 rfl rfl).symm]
  refine Finset.sum_congr rfl fun c _ => ?_
  have c2 := contrEquiv1_symm_val dot_S100000x128_S128x128_S100000x128_1_0_0_1_n_n 128 rfl rfl c
  have l2 : dot_S100000x128_S128x128_S100000x128_1_0_0_1_n_n.lhsIdx (ix2 p q) ((contrEquiv1 _ 128 rfl rfl).symm c) = ix2 p c := by
    funext ax; apply Fin.ext
    match ax with
    | ⟨0, _⟩ => simp [DotDims.lhsIdx, dot_S100000x128_S128x128_S100000x128_1_0_0_1_n_n]; rfl
    | ⟨1, _⟩ => simp [DotDims.lhsIdx, dot_S100000x128_S128x128_S100000x128_1_0_0_1_n_n]; exact c2
  have r2 : dot_S100000x128_S128x128_S100000x128_1_0_0_1_n_n.rhsIdx (ix2 p q) ((contrEquiv1 _ 128 rfl rfl).symm c) = ix2 c q := by
    funext ax; apply Fin.ext
    match ax with
    | ⟨0, _⟩ => simp [DotDims.rhsIdx, dot_S100000x128_S128x128_S100000x128_1_0_0_1_n_n]; exact c2
    | ⟨1, _⟩ => simp [DotDims.rhsIdx, dot_S100000x128_S128x128_S100000x128_1_0_0_1_n_n]; rfl
  rw [l2, r2]

/-- Entry (p, q) of  l · r  for a 100000×128 by 128×32 product. -/
theorem dot32_apply (l : FVec Ideal S100000x128 .f32) (r : FVec Ideal S128x32 .f32) (p : Fin 100000) (q : Fin 32) :
    Host.dotGeneral (F := Ideal) dot_S100000x128_S128x32_S100000x32_1_0_0_1_n_n none l r (ix2 p q)
      = ∑ k : Fin 128, l (ix2 p k) * r (ix2 k q) := by
  show FloatOps.dotGeneral _ none _ l r (ix2 p q) = _
  rw [Ideal.dotGeneral_apply, ← Equiv.sum_comp (contrEquiv1 dot_S100000x128_S128x32_S100000x32_1_0_0_1_n_n 128 rfl rfl).symm]
  refine Finset.sum_congr rfl fun c _ => ?_
  have c2 := contrEquiv1_symm_val dot_S100000x128_S128x32_S100000x32_1_0_0_1_n_n 128 rfl rfl c
  have l2 : dot_S100000x128_S128x32_S100000x32_1_0_0_1_n_n.lhsIdx (ix2 p q) ((contrEquiv1 _ 128 rfl rfl).symm c) = ix2 p c := by
    funext ax; apply Fin.ext
    match ax with
    | ⟨0, _⟩ => simp [DotDims.lhsIdx, dot_S100000x128_S128x32_S100000x32_1_0_0_1_n_n]; rfl
    | ⟨1, _⟩ => simp [DotDims.lhsIdx, dot_S100000x128_S128x32_S100000x32_1_0_0_1_n_n]; exact c2
  have r2 : dot_S100000x128_S128x32_S100000x32_1_0_0_1_n_n.rhsIdx (ix2 p q) ((contrEquiv1 _ 128 rfl rfl).symm c) = ix2 c q := by
    funext ax; apply Fin.ext
    match ax with
    | ⟨0, _⟩ => simp [DotDims.rhsIdx, dot_S100000x128_S128x32_S100000x32_1_0_0_1_n_n]; exact c2
    | ⟨1, _⟩ => simp [DotDims.rhsIdx, dot_S100000x128_S128x32_S100000x32_1_0_0_1_n_n]; rfl
  rw [l2, r2]

/-- The column sum over the 100000 rows from a zero initial value, at column q. -/
theorem colsum128_apply (x : FVec Ideal S100000x128 .f32) (q : Fin 128) :
    Host.reduceAdd (F := Ideal) x (constant S_ .f32 0x00000000#32) Facts₀.reducesTo_S100000x128_S128_d0 Facts₀.h_S_ (ix1 q)
      = ∑ p : Fin 100000, x (ix2 p q) := by
  have h : S100000x128.Reduces [0] S128 := by decide
  rw [hostReduceAdd_apply, Ideal.hostReduceAdd_single _ h]
  show Ideal.ofBits .f32 0x00000000#32 + _ = _
  rw [Ideal.ofBits_zero_f32, zero_add]
  refine Finset.sum_congr rfl fun k _ => congrArg x ?_
  funext a; apply Fin.ext
  match a with
  | ⟨0, _⟩ => rfl
  | ⟨1, _⟩ => rfl

/-- The column sum of a 32-column array. -/
theorem colsum32_apply (x : FVec Ideal S100000x32 .f32) (q : Fin 32) :
    Host.reduceAdd (F := Ideal) x (constant S_ .f32 0x00000000#32) Facts₀.reducesTo_S100000x32_S32_d0 Facts₀.h_S_ (ix1 q)
      = ∑ p : Fin 100000, x (ix2 p q) := by
  have h : S100000x32.Reduces [0] S32 := by decide
  rw [hostReduceAdd_apply, Ideal.hostReduceAdd_single _ h]
  show Ideal.ofBits .f32 0x00000000#32 + _ = _
  rw [Ideal.ofBits_zero_f32, zero_add]
  refine Finset.sum_congr rfl fun k _ => congrArg x ?_
  funext a; apply Fin.ext
  match a with
  | ⟨0, _⟩ => rfl
  | ⟨1, _⟩ => rfl

/-- A 128-vector as a one-row matrix, read at (0, q). -/
theorem row128_apply {α : Type} (b : S128.Idx → α) (q : Fin 128) :
    broadcastInDim S1x128 ![1] Facts₀.bcast_S128_S1x128_1 b (ix2 (0 : Fin 1) q) = b (ix1 q) := by
  refine broadcastInDim_apply ![1] _ b (ix2 (0 : Fin 1) q) (ix1 q) ?_
  intro a
  match a with
  | ⟨0, _⟩ => show q.val = if (128 : ℕ) = 1 then 0 else q.val; simp

/-- A one-row matrix laid along every row, read at (p, q). -/
theorem rows128_apply {α : Type} (y : S1x128.Idx → α) (p : Fin 100000) (q : Fin 128) :
    broadcastInDim S100000x128 ![0, 1] Facts₀.bcast_S1x128_S100000x128_0_1 y (ix2 p q) = y (ix2 (0 : Fin 1) q) :=
  broadcastInDim_oneRow_apply _ y p q

/-- A scalar laid over a whole array. -/
theorem splat_apply {α : Type} {T : Shape} (h : S_.BroadcastsInDim T ![]) (x : S_.Idx → α) (j : T.Idx) :
    broadcastInDim T ![] h x j = x ix0 := broadcastInDim_scalar_apply h x j

end Cert.Sage.RefRead

end
-- ==== Proof.Alg.lean ====
import Mathlib
import Idealize.ShloMosaic.PureOps.Ideal
import Idealize.ShloMosaic.PureOps.Ideal.Laws

noncomputable section

namespace Cert.Sage.Alg

open Idealize.ShloMosaic
open scoped BigOperators

/-- An extended real that is a (finite) real number. -/
def IsReal (x : EReal) : Prop := ∃ r : ℝ, x = (r : EReal)

theorem IsReal.zero : IsReal (0 : EReal) := ⟨0, rfl⟩

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {α : Type*} (s : Finset α) (f : α → EReal) (hf : ∀ a ∈ s, IsReal (f a)) :
    IsReal (∑ a ∈ s, f a) := by
  classical
  induction s using Finset.induction_on with
  | empty => simpa using IsReal.zero
  | insert a s ha ih =>
    rw [Finset.sum_insert ha]
    exact IsReal.add (hf a (Finset.mem_insert_self a s))
      (ih fun b hb => hf b (Finset.mem_insert_of_mem hb))

theorem IsReal.div {x y : EReal} (hx : IsReal x) (hy : IsReal y) (hy0 : y ≠ 0) :
    IsReal (Ideal.div x y) := by
  obtain ⟨a, rfl⟩ := hx; obtain ⟨b, rfl⟩ := hy
  have hb : b ≠ 0 := fun h => hy0 (by rw [h]; rfl)
  rw [Ideal.div_coe hb]
  exact IsReal.mul (IsReal.coe a) (IsReal.coe _)

theorem ofBits_zero : Ideal.ofBits .f32 0x00000000#32 = (0 : EReal) := Ideal.ofBits_zero_f32

theorem ofBits_one : Ideal.ofBits .f32 0x3F800000#32 = ((1 : ℝ) : EReal) := by
  simp [Ideal.ofBits, Ideal.ieee, -EReal.coe_mul]; norm_num

theorem ofBits_N : Ideal.ofBits .f32 0x47C35000#32 = ((100000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

theorem N_sub_zero : Ideal.ofBits .f32 0x47C35000#32 - ((((0#32 : BitVec 32).toInt : ℤ) : ℝ) : EReal) = ((100000 : ℝ) : EReal) := by
  rw [ofBits_N]; simp

theorem cmp_N_pos : Ideal.cmp .ogt (Ideal.ofBits .f32 0x47C35000#32 - ((((0#32 : BitVec 32).toInt : ℤ) : ℝ) : EReal)) (Ideal.ofBits .f32 0x00000000#32) = 1#1 := by
  rw [N_sub_zero, ofBits_zero]
  have h : (0 : EReal) < ((100000 : ℝ) : EReal) := by exact_mod_cast (by norm_num : (0 : ℝ) < 100000)
  simp [Ideal.cmp, h]

theorem isReal_invdeg {α : Type*} (s : Finset α) : IsReal (Ideal.div (Ideal.ofBits .f32 0x3F800000#32) (max (Ideal.ofBits .f32 0x00000000#32 + ∑ _j ∈ s, Ideal.ofBits .f32 0x3F800000#32) (Ideal.ofBits .f32 0x3F800000#32))) := by
  rw [ofBits_one, ofBits_zero]
  refine IsReal.div (IsReal.coe 1) (IsReal.max (IsReal.add IsReal.zero (IsReal.sum s _ fun _ _ => IsReal.coe 1)) (IsReal.coe 1)) ?_
  have h : (0 : EReal) < ((1 : ℝ) : EReal) := by exact_mod_cast (by norm_num : (0 : ℝ) < 1)
  exact (lt_of_lt_of_le h (le_max_right _ _)).ne'

theorem isReal_rsqrt {r : ℝ} (h : 0 < r) : IsReal (Ideal.rsqrt (r : EReal)) := by
  rw [Ideal.rsqrt_coe, if_neg (not_lt.mpr h.le), if_neg (ne_of_gt h)]
  exact IsReal.coe _

/-- A finite sum of reals, read in the extended reals, is the sum of the summands read there. -/
theorem coe_finset_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- Over the reals, the mean of the squares minus the square of the mean is the mean of the squared
    deviations from the mean. -/
theorem var_eq {ι : Type*} [Fintype ι] (x : ι → ℝ) (n : ℝ) (hn : (Fintype.card ι : ℝ) = n) (hn0 : 0 < n) :
    (∑ j, x j * x j) * (1 / n) - ((∑ j, x j) * (1 / n)) * ((∑ j, x j) * (1 / n))
      = (∑ j, (x j - (∑ j, x j) * (1 / n)) * (x j - (∑ j, x j) * (1 / n))) * (1 / n) := by
  have hne : n ≠ 0 := ne_of_gt hn0
  generalize hm : (∑ j, x j) * (1 / n) = m
  have hS : ∑ j, x j = n * m := by rw [← hm]; field_simp
  have h1 : ∑ j, (x j - m) * (x j - m) = (∑ j, x j * x j) - 2 * m * (∑ j, x j) + n * (m * m) := by
    have h2 : ∀ j, (x j - m) * (x j - m) = x j * x j - 2 * m * x j + m * m := fun j => by ring
    simp only [h2]
    rw [Finset.sum_add_distrib, Finset.sum_sub_distrib, ← Finset.mul_sum, Finset.sum_const,
      Finset.card_univ, nsmul_eq_mul, hn]
  rw [h1, hS]
  field_simp
  ring

theorem bn_bridge {ι : Type*} [Fintype ι] (x : ι → EReal) (hx : ∀ j, IsReal (x j))
    (n : ℝ) (hn : (Fintype.card ι : ℝ) = n) (hn0 : 0 < n)
    (g β : EReal) (hg : IsReal g) (hβ : IsReal β) (e : ℝ) (he : 0 < e) (i : ι) :
    let N : EReal := (n : EReal)
    let μ : EReal := Ideal.div (∑ j, x j) N
    let vk : EReal := Ideal.div (∑ j, x j * x j) N - μ * μ
    let sc : EReal := g * Ideal.rsqrt (vk + (e : EReal))
    let sh : EReal := β - μ * sc
    let vr : EReal := Ideal.div (∑ j, (x j - μ) * (x j - μ)) N
    max (x i * sc + sh) 0 = max ((x i - μ) * Ideal.rsqrt (vr + (e : EReal)) * g + β) 0
      ∧ IsReal (max (x i * sc + sh) 0) := by
  choose x' hx' using hx
  obtain ⟨g', rfl⟩ := hg
  obtain ⟨β', rfl⟩ := hβ
  intro N μ vk sc sh vr
  have hne : n ≠ 0 := ne_of_gt hn0
  -- the mean is a real
  have hμ : μ = (((∑ j, x' j) * (1 / n) : ℝ) : EReal) := by
    show Ideal.div (∑ j, x j) (n : EReal) = _
    rw [Ideal.div_coe hne, EReal.coe_mul, coe_finset_sum]
    simp only [hx']
  generalize hm : (∑ j, x' j) * (1 / n) = m at hμ
  -- the two variances are reals, and equal
  have hvk : vk = (((∑ j, x' j * x' j) * (1 / n) - m * m : ℝ) : EReal) := by
    show Ideal.div (∑ j, x j * x j) (n : EReal) - μ * μ = _
    rw [Ideal.div_coe hne, hμ, EReal.coe_sub, EReal.coe_mul, EReal.coe_mul, coe_finset_sum]
    simp only [hx', EReal.coe_mul]
  have hvr : vr = (((∑ j, (x' j - m) * (x' j - m)) * (1 / n) : ℝ) : EReal) := by
    show Ideal.div (∑ j, (x j - μ) * (x j - μ)) (n : EReal) = _
    rw [Ideal.div_coe hne, hμ, EReal.coe_mul, coe_finset_sum]
    simp only [hx', EReal.coe_mul, EReal.coe_sub]
  have hvar : (∑ j, x' j * x' j) * (1 / n) - m * m = (∑ j, (x' j - m) * (x' j - m)) * (1 / n) := by
    have := var_eq x' n hn hn0
    rw [hm] at this
    exact this
  rw [hvar] at hvk
  generalize hv : (∑ j, (x' j - m) * (x' j - m)) * (1 / n) = v at hvk hvr
  have hv0 : 0 ≤ v := by
    rw [← hv]
    exact mul_nonneg (Finset.sum_nonneg fun j _ => mul_self_nonneg _) (by positivity)
  have hpos : 0 < v + e := by linarith
  have hrs : Ideal.rsqrt (((v : ℝ) : EReal) + (e : EReal)) = (((Real.sqrt (v + e))⁻¹ : ℝ) : EReal) := by
    rw [← EReal.coe_add, Ideal.rsqrt_coe, if_neg (not_lt.mpr hpos.le), if_neg (ne_of_gt hpos)]
  generalize hR : (Real.sqrt (v + e))⁻¹ = R at hrs
  have hsc : sc = ((g' * R : ℝ) : EReal) := by
    show (g' : EReal) * Ideal.rsqrt (vk + (e : EReal)) = _
    rw [hvk, hrs, EReal.coe_mul]
  have hL : x i * sc + sh = ((x' i * (g' * R) + (β' - m * (g' * R)) : ℝ) : EReal) := by
    show x i * sc + ((β' : EReal) - μ * sc) = _
    rw [hx' i, hsc, hμ]
    simp only [EReal.coe_mul, EReal.coe_add, EReal.coe_sub]
  have hRt : (x i - μ) * Ideal.rsqrt (vr + (e : EReal)) * (g' : EReal) + (β' : EReal)
      = ((x' i * (g' * R) + (β' - m * (g' * R)) : ℝ) : EReal) := by
    rw [hx' i, hμ, hvr, hrs]
    have : x' i * (g' * R) + (β' - m * (g' * R)) = (x' i - m) * R * g' + β' := by ring
    rw [this]
    simp only [EReal.coe_mul, EReal.coe_add, EReal.coe_sub]
  refine ⟨by rw [hL, hRt], ?_⟩
  rw [hL]
  exact IsReal.max (IsReal.coe _) IsReal.zero

end Cert.Sage.Alg

end
-- ==== Proof.Bridge.lean ====
/-
  The reference's stages meet the kernel program's, index by index on the extended reals.  The linear layer: the
  reference's two matrix products, bias broadcast and rectifier are, entry by entry, the sums over the 128
  contracted columns plus the bias, cut below at zero.  The column normalisation: the reference centres each column
  by its mean, scales by the reciprocal root of the mean squared deviation plus the stabiliser, by the gain, and
  shifts by the offset; the kernel program forms the variance as mean of squares less squared mean and folds mean
  and gain into one scale and one shift per column.  On columns of REAL entries the two agree (the variance
  identity needs finiteness), and the result is again real.
-/
import proofs.«112237_j46686294507759_1_alg».proof.Proof.RefStages
import proofs.«112237_j46686294507759_1_alg».proof.Proof.KStages
import proofs.«112237_j46686294507759_1_alg».proof.Proof.Spec
import proofs.«112237_j46686294507759_1_alg».proof.Proof.RefRead
import proofs.«112237_j46686294507759_1_alg».proof.Proof.Alg
import proofs.«112237_j46686294507759_1_alg».proof.Proof.Gen.ReferenceIdeal
import proofs.«112237_j46686294507759_1_alg».proof.Proof.Gen.KernelIdeal
import Idealize.ShloMosaic.Lib.Pipeline.Value
import Idealize.ShloMosaic.Lib.ValueIdx
import Idealize.ShloMosaic.Lib.IdealHost

noncomputable section

namespace Cert.Sage.Bridge

open Idealize.ShloMosaic Idealize.ShloMosaic.ValueIdx
open Cert.Sage Cert.Sage.Alg Cert.Sage.RefRead
open scoped BigOperators

local notation "S100000x128" => Cert.KernelIdeal.S100000x128
local notation "S128x128" => Cert.KernelIdeal.S128x128
local notation "S128" => Cert.KernelIdeal.S128
local notation "S1x128" => Cert.KernelIdeal.S1x128

/-- The bias read as a one-row matrix, at (0, q). -/
theorem row128_at (b : FVec Ideal S128 .f32) (q : Fin 128) :
    Cert.KernelIdeal.KRun.row128 (F := Ideal) b (ix2 (0 : Fin 1) q) = b (ix1 q) := by
  unfold Cert.KernelIdeal.KRun.row128
  refine shapeCast_apply b _ (ix2 (0 : Fin 1) q) (ix1 q) ?_
  rw [Shape.rowMajor_val_two, Shape.rowMajor_val_one]; show q.val = 0 * 128 + q.val; omega

/-- The reference's rectified linear layer is the kernel's, entry by entry. -/
theorem linRelu_eq (h a : FVec Ideal S100000x128 .f32) (Ws Wn : FVec Ideal S128x128 .f32) (b : FVec Ideal S128 .f32) :
    Cert.ReferenceIdeal.RefRun.relu128 (F := Ideal) (Cert.ReferenceIdeal.RefRun.lin128 h a Ws Wn b)
      = linRelu128 h a Ws Wn (Cert.KernelIdeal.KRun.row128 b) := by
  funext i
  obtain ⟨p, q, rfl⟩ : ∃ (p : Fin 100000) (q : Fin 128), i = ix2 p q := ⟨i 0, i 1, eq_ix2 i⟩
  unfold Cert.ReferenceIdeal.RefRun.relu128 Cert.ReferenceIdeal.RefRun.lin128
  rw [maximumf_apply, splat_apply, constant_apply, Ideal.ofBits_zero_f32, addf_apply, addf_apply, dot128_apply, dot128_apply,
    rows128_apply, row128_apply]
  show _ = linRelu128At h a Ws Wn (Cert.KernelIdeal.KRun.row128 b) p q
  unfold linRelu128At
  rw [row128_at]

/-- The reference's column mean at column q. -/
theorem colMean128_at (y : FVec Ideal S100000x128 .f32) (q : Fin 128) :
    Cert.ReferenceIdeal.RefRun.colMean128 (F := Ideal) y (ix1 q)
      = Ideal.div (∑ p : Fin 100000, y (ix2 p q)) (Ideal.ofBits .f32 0x47C35000#32) := by
  unfold Cert.ReferenceIdeal.RefRun.colMean128
  rw [hostDivf_apply, colsum128_apply, splat_apply, constant_apply]

/-- The count the reference's variance divides by: the row count less the zero it is given. -/
theorem varCount_at : Cert.ReferenceIdeal.RefRun.varCount (F := Ideal) ix0
      = Ideal.ofBits .f32 0x47C35000#32 - ((((0#32 : BitVec 32).toInt : ℤ) : ℝ) : EReal) := rfl

/-- The reference's squared deviation at (p, q). -/
theorem sqDev128_at (y : FVec Ideal S100000x128 .f32) (p : Fin 100000) (q : Fin 128) :
    Cert.ReferenceIdeal.RefRun.sqDev128 (F := Ideal) y (ix2 p q)
      = (y (ix2 p q) - Ideal.div (∑ r : Fin 100000, y (ix2 r q)) (Ideal.ofBits .f32 0x47C35000#32))
        * (y (ix2 p q) - Ideal.div (∑ r : Fin 100000, y (ix2 r q)) (Ideal.ofBits .f32 0x47C35000#32)) := by
  unfold Cert.ReferenceIdeal.RefRun.sqDev128
  rw [mulf_apply, subf_apply, rows128_apply, hostDivf_apply, row128_apply, colsum128_apply, splat_apply, constant_apply]

/-- The reference's column variance at column q: the count is positive, so the quotient is selected. -/
theorem colVar128_at (y : FVec Ideal S100000x128 .f32) (q : Fin 128) :
    Cert.ReferenceIdeal.RefRun.colVar128 (F := Ideal) y (ix1 q)
      = Ideal.div (∑ p : Fin 100000,
            (y (ix2 p q) - Ideal.div (∑ r : Fin 100000, y (ix2 r q)) (Ideal.ofBits .f32 0x47C35000#32))
            * (y (ix2 p q) - Ideal.div (∑ r : Fin 100000, y (ix2 r q)) (Ideal.ofBits .f32 0x47C35000#32)))
          ((100000 : ℝ) : EReal) := by
  unfold Cert.ReferenceIdeal.RefRun.colVar128
  rw [select_apply, splat_apply, cmpf_apply, constant_apply, varCount_at]
  have hc : FloatOps.cmpf (F := Ideal) .ogt (Ideal.ofBits .f32 0x47C35000#32 - ((((0#32 : BitVec 32).toInt : ℤ) : ℝ) : EReal))
      (Ideal.ofBits .f32 0x00000000#32) = 1#1 := cmp_N_pos
  rw [hc, select_one, hostDivf_apply, colsum128_apply, splat_apply, varCount_at, N_sub_zero]
  refine congrArg (fun s => Ideal.div s ((100000 : ℝ) : EReal)) ?_
  exact Finset.sum_congr rfl fun p _ => sqDev128_at y p q

/-- The reciprocal square root on the host, at an index. -/
theorem hostRsqrt_at {s : Shape} (x : FVec Ideal s .f32) (i : s.Idx) : Host.rsqrt x i = Ideal.rsqrt (x i) := rfl

/-- The reference's normalised and rectified entry (p, q). -/
theorem bnRelu_at (y : FVec Ideal S100000x128 .f32) (g be : FVec Ideal S128 .f32) (p : Fin 100000) (q : Fin 128) :
    Cert.ReferenceIdeal.RefRun.relu128 (F := Ideal) (Cert.ReferenceIdeal.RefRun.bn y g be) (ix2 p q)
      = max ((y (ix2 p q) - Ideal.div (∑ r : Fin 100000, y (ix2 r q)) (Ideal.ofBits .f32 0x47C35000#32))
          * Ideal.rsqrt (Ideal.div (∑ r : Fin 100000,
              (y (ix2 r q) - Ideal.div (∑ r : Fin 100000, y (ix2 r q)) (Ideal.ofBits .f32 0x47C35000#32))
              * (y (ix2 r q) - Ideal.div (∑ r : Fin 100000, y (ix2 r q)) (Ideal.ofBits .f32 0x47C35000#32)))
              ((100000 : ℝ) : EReal) + Ideal.ofBits .f32 0x3727C5AC#32)
          * g (ix1 q) + be (ix1 q)) 0 := by
  unfold Cert.ReferenceIdeal.RefRun.relu128 Cert.ReferenceIdeal.RefRun.bn
  rw [maximumf_apply, splat_apply, constant_apply, Ideal.ofBits_zero_f32, addf_apply, mulf_apply, mulf_apply, subf_apply,
    rows128_apply, rows128_apply, rows128_apply, rows128_apply, row128_apply, row128_apply, row128_apply, row128_apply,
    hostRsqrt_at, addf_apply, splat_apply, constant_apply, colMean128_at, colVar128_at]

/-- The kernel program's column mean row at (0, q), over the column sums of y. -/
theorem mean128_at (s : FVec Ideal S1x128 .f32) (q : Fin 128) :
    Cert.KernelIdeal.KRun.mean128 (F := Ideal) s (ix2 (0 : Fin 1) q) = Ideal.div (s (ix2 (0 : Fin 1) q)) (Ideal.ofBits .f32 0x47C35000#32) := by
  unfold Cert.KernelIdeal.KRun.mean128
  rw [hostDivf_apply]
  refine congrArg (Ideal.div _) ?_
  exact (broadcastInDim_scalar_apply _ _ _).trans rfl

/-- The kernel program's scale row at (0, q). -/
theorem scale_at (s sq : FVec Ideal S1x128 .f32) (g : FVec Ideal S128 .f32) (q : Fin 128) :
    Cert.KernelIdeal.KRun.scale (F := Ideal) s sq g (ix2 (0 : Fin 1) q)
      = g (ix1 q) * Ideal.rsqrt ((Ideal.div (sq (ix2 (0 : Fin 1) q)) (Ideal.ofBits .f32 0x47C35000#32)
          - Ideal.div (s (ix2 (0 : Fin 1) q)) (Ideal.ofBits .f32 0x47C35000#32) * Ideal.div (s (ix2 (0 : Fin 1) q)) (Ideal.ofBits .f32 0x47C35000#32))
          + Ideal.ofBits .f32 0x3727C5AC#32) := by
  unfold Cert.KernelIdeal.KRun.scale
  rw [mulf_apply, row128_at, hostRsqrt_at, addf_apply, subf_apply, mulf_apply, mean128_at, mean128_at]
  have he : broadcastInDim S1x128 ![] Cert.KernelIdeal.Gen.bcast_S_S1x128 (constant (F := Ideal) Cert.KernelIdeal.S_ .f32 0x3727C5AC#32) (ix2 (0 : Fin 1) q)
      = Ideal.ofBits .f32 0x3727C5AC#32 := (broadcastInDim_scalar_apply _ _ _).trans rfl
  rw [he]

/-- The kernel program's shift row at (0, q). -/
theorem shift_at (s sq : FVec Ideal S1x128 .f32) (g be : FVec Ideal S128 .f32) (q : Fin 128) :
    Cert.KernelIdeal.KRun.shift (F := Ideal) s sq g be (ix2 (0 : Fin 1) q)
      = be (ix1 q) - Ideal.div (s (ix2 (0 : Fin 1) q)) (Ideal.ofBits .f32 0x47C35000#32) * Cert.KernelIdeal.KRun.scale (F := Ideal) s sq g (ix2 (0 : Fin 1) q) := by
  unfold Cert.KernelIdeal.KRun.shift
  rw [subf_apply, row128_at, mulf_apply, mean128_at]

/-- On a column of reals the two normalisations agree entry by entry, and the result is real. -/
theorem bn_eq (y : FVec Ideal S100000x128 .f32) (g be : FVec Ideal S128 .f32)
    (hy : ∀ i, IsReal (y i)) (hg : ∀ i, IsReal (g i)) (hbe : ∀ i, IsReal (be i)) :
    Cert.ReferenceIdeal.RefRun.relu128 (F := Ideal) (Cert.ReferenceIdeal.RefRun.bn y g be)
        = affRelu y (Cert.KernelIdeal.KRun.scale (colsum128 y) (colsumsq128 y) g)
            (Cert.KernelIdeal.KRun.shift (colsum128 y) (colsumsq128 y) g be)
      ∧ ∀ i, IsReal (affRelu y (Cert.KernelIdeal.KRun.scale (colsum128 y) (colsumsq128 y) g)
            (Cert.KernelIdeal.KRun.shift (colsum128 y) (colsumsq128 y) g be) i) := by
  obtain ⟨e, he, heq⟩ := ofBits_eps
  have key : ∀ (p : Fin 100000) (q : Fin 128),
      affRelu y (Cert.KernelIdeal.KRun.scale (colsum128 y) (colsumsq128 y) g)
            (Cert.KernelIdeal.KRun.shift (colsum128 y) (colsumsq128 y) g be) (ix2 p q)
        = Cert.ReferenceIdeal.RefRun.relu128 (F := Ideal) (Cert.ReferenceIdeal.RefRun.bn y g be) (ix2 p q)
      ∧ IsReal (affRelu y (Cert.KernelIdeal.KRun.scale (colsum128 y) (colsumsq128 y) g)
            (Cert.KernelIdeal.KRun.shift (colsum128 y) (colsumsq128 y) g be) (ix2 p q)) := by
    intro p q
    have hb := bn_bridge (fun r : Fin 100000 => y (ix2 r q)) (fun r => hy _) 100000 (by simp) (by norm_num)
      (g (ix1 q)) (be (ix1 q)) (hg _) (hbe _) e he p
    have hL : affRelu y (Cert.KernelIdeal.KRun.scale (colsum128 y) (colsumsq128 y) g)
            (Cert.KernelIdeal.KRun.shift (colsum128 y) (colsumsq128 y) g be) (ix2 p q)
        = max (y (ix2 p q) * (g (ix1 q) * Ideal.rsqrt ((Ideal.div (∑ r : Fin 100000, y (ix2 r q) * y (ix2 r q)) ((100000 : ℝ) : EReal)
              - Ideal.div (∑ r : Fin 100000, y (ix2 r q)) ((100000 : ℝ) : EReal) * Ideal.div (∑ r : Fin 100000, y (ix2 r q)) ((100000 : ℝ) : EReal)) + (e : EReal)))
            + (be (ix1 q) - Ideal.div (∑ r : Fin 100000, y (ix2 r q)) ((100000 : ℝ) : EReal)
                * (g (ix1 q) * Ideal.rsqrt ((Ideal.div (∑ r : Fin 100000, y (ix2 r q) * y (ix2 r q)) ((100000 : ℝ) : EReal)
              - Ideal.div (∑ r : Fin 100000, y (ix2 r q)) ((100000 : ℝ) : EReal) * Ideal.div (∑ r : Fin 100000, y (ix2 r q)) ((100000 : ℝ) : EReal)) + (e : EReal))))) 0 := by
      show max (y (ix2 p q) * Cert.KernelIdeal.KRun.scale (F := Ideal) (colsum128 y) (colsumsq128 y) g (ix2 (0 : Fin 1) q)
          + Cert.KernelIdeal.KRun.shift (F := Ideal) (colsum128 y) (colsumsq128 y) g be (ix2 (0 : Fin 1) q)) 0 = _
      rw [shift_at, scale_at, ofBits_N, heq]
      rfl
    rw [hL, bnRelu_at, ofBits_N, heq]
    exact ⟨hb.1, hb.2⟩
  refine ⟨?_, ?_⟩
  · funext i
    obtain ⟨p, q, rfl⟩ : ∃ (p : Fin 100000) (q : Fin 128), i = ix2 p q := ⟨i 0, i 1, eq_ix2 i⟩
    exact (key p q).1.symm
  · intro i
    obtain ⟨p, q, rfl⟩ : ∃ (p : Fin 100000) (q : Fin 128), i = ix2 p q := ⟨i 0, i 1, eq_ix2 i⟩
    exact (key p q).2

end Cert.Sage.Bridge

end
-- ==== Proof.BridgeEnds.lean ====
import proofs.«112237_j46686294507759_1_alg».proof.Proof.RefStages
import proofs.«112237_j46686294507759_1_alg».proof.Proof.KStages
import proofs.«112237_j46686294507759_1_alg».proof.Proof.Spec
import proofs.«112237_j46686294507759_1_alg».proof.Proof.RefRead
import proofs.«112237_j46686294507759_1_alg».proof.Proof.Gen.ReferenceIdeal
import proofs.«112237_j46686294507759_1_alg».proof.Proof.Gen.KernelIdeal

noncomputable section

namespace Cert.Sage.BridgeEnds

open Idealize.ShloMosaic Idealize.ShloMosaic.ValueIdx
open scoped BigOperators

/-- The two programs normalise the edge-source indices by the same operations. -/
theorem normIdx_eq (src : IVec Cert.KernelIdeal.S1600000 32) :
    Cert.ReferenceIdeal.RefRun.normIdx src = Cert.KernelIdeal.KRun.normIdx src := rfl

/-- The two programs compute the reciprocal in-degree column by the same operations. -/
theorem invDeg_eq (dst : IVec Cert.KernelIdeal.S1600000 32) :
    Cert.ReferenceIdeal.RefRun.invDeg (F := Ideal) dst = Cert.KernelIdeal.KRun.invDeg (F := Ideal) dst := rfl

/-- The two programs compute the neighbourhood mean by the same operations. -/
theorem agg_eq (h : FVec Ideal Cert.KernelIdeal.S100000x128 .f32) (src dst : IVec Cert.KernelIdeal.S1600000 32) :
    Cert.ReferenceIdeal.RefRun.agg (F := Ideal) h src dst = Cert.KernelIdeal.KRun.agg (F := Ideal) h src dst := by
  unfold Cert.ReferenceIdeal.RefRun.agg Cert.KernelIdeal.KRun.agg
    Cert.ReferenceIdeal.RefRun.aggWith Cert.KernelIdeal.KRun.aggWith
  rw [normIdx_eq, invDeg_eq]
  rfl

/-- A 32-vector laid as a one-row matrix, read at (0, q). -/
theorem row32_apply {α : Type} (b : Cert.ReferenceIdeal.S32.Idx → α) (q : Fin 32) :
    broadcastInDim Cert.ReferenceIdeal.S1x32 ![1] Cert.ReferenceIdeal.Facts₀.bcast_S32_S1x32_1 b (ix2 (0 : Fin 1) q)
      = b (ix1 q) := by
  refine broadcastInDim_apply ![1] _ b (ix2 (0 : Fin 1) q) (ix1 q) ?_
  intro a
  match a with
  | ⟨0, _⟩ => show q.val = if (32 : ℕ) = 1 then 0 else q.val; simp

/-- The reference's column sums of the last layer, laid as a row, are the column sums over the 100000 rows. -/
theorem sumRow_eq (h3 : FVec Ideal Cert.KernelIdeal.S100000x32 .f32) :
    broadcastInDim Cert.ReferenceIdeal.S1x32 ![1] Cert.ReferenceIdeal.Facts₀.bcast_S32_S1x32_1
        (Host.reduceAdd (F := Ideal) h3 (constant Cert.ReferenceIdeal.S_ .f32 0x00000000#32)
          Cert.ReferenceIdeal.Facts₀.reducesTo_S100000x32_S32_d0 Cert.ReferenceIdeal.Facts₀.h_S_)
      = Cert.Sage.colsum32 h3 := by
  funext i
  obtain ⟨p, q, rfl⟩ : ∃ (p : Fin 1) (q : Fin 32), i = ix2 p q := ⟨i 0, i 1, eq_ix2 i⟩
  obtain rfl : p = 0 := Subsingleton.elim _ _
  rw [row32_apply, Cert.Sage.RefRead.colsum32_apply]
  rfl

/-- The kernel program's closing softmax is the reference's softmax of the column means. -/
theorem ktail_eq (s : FVec Ideal Cert.KernelIdeal.S1x32 .f32) :
    Cert.KernelIdeal.KRun.tail (F := Ideal) s
      = Cert.ReferenceIdeal.RefRun.softmaxRow (F := Ideal) (Cert.KernelIdeal.KRun.mean32 (F := Ideal) s) := rfl

/-- The reference's tail is the kernel program's tail of the column sums. -/
theorem tail_eq (h3 : FVec Ideal Cert.KernelIdeal.S100000x32 .f32) :
    Cert.ReferenceIdeal.RefRun.tail (F := Ideal) h3
      = Cert.KernelIdeal.KRun.tail (F := Ideal) (Cert.Sage.colsum32 h3) := by
  rw [ktail_eq]
  unfold Cert.ReferenceIdeal.RefRun.tail Cert.ReferenceIdeal.RefRun.colMean32 Cert.KernelIdeal.KRun.mean32
  rw [sumRow_eq]

end Cert.Sage.BridgeEnds

end
-- ==== Proof.BridgeLin32.lean ====
import proofs.«112237_j46686294507759_1_alg».proof.Proof.RefStages
import proofs.«112237_j46686294507759_1_alg».proof.Proof.KStages
import proofs.«112237_j46686294507759_1_alg».proof.Proof.Spec
import proofs.«112237_j46686294507759_1_alg».proof.Proof.RefRead
import proofs.«112237_j46686294507759_1_alg».proof.Proof.BridgeEnds
import proofs.«112237_j46686294507759_1_alg».proof.Proof.Gen.ReferenceIdeal
import proofs.«112237_j46686294507759_1_alg».proof.Proof.Gen.KernelIdeal
import Idealize.ShloMosaic.Lib.Pipeline.Value
import Idealize.ShloMosaic.Lib.ValueIdx
import Idealize.ShloMosaic.Lib.IdealHost
import Idealize.ShloMosaic.Lib.KernelVsHost

noncomputable section

namespace Cert.Sage.BridgeLin32

open Idealize.ShloMosaic Idealize.ShloMosaic.ValueIdx
open Cert.Sage Cert.Sage.RefRead Cert.Sage.BridgeEnds
open scoped BigOperators

/-- The bias read as a one-row matrix, at (0, q). -/
theorem row32_at (b : FVec Ideal Cert.KernelIdeal.S32 .f32) (q : Fin 32) :
    Cert.KernelIdeal.KRun.row32 (F := Ideal) b (ix2 (0 : Fin 1) q) = b (ix1 q) := by
  unfold Cert.KernelIdeal.KRun.row32
  refine shapeCast_apply b _ (ix2 (0 : Fin 1) q) (ix1 q) ?_
  rw [Shape.rowMajor_val_two, Shape.rowMajor_val_one]; show q.val = 0 * 32 + q.val; omega

/-- A one-row matrix of 32 columns laid along every row, read at (p, q). -/
theorem rows32_apply {α : Type} (y : Cert.ReferenceIdeal.S1x32.Idx → α) (p : Fin 100000) (q : Fin 32) :
    broadcastInDim Cert.ReferenceIdeal.S100000x32 ![0, 1] Cert.ReferenceIdeal.Facts₀.bcast_S1x32_S100000x32_0_1 y (ix2 p q)
      = y (ix2 (0 : Fin 1) q) :=
  broadcastInDim_oneRow_apply _ y p q

/-- The reference's output layer is the kernel's, entry by entry. -/
theorem lin32_eq (h a : FVec Ideal Cert.KernelIdeal.S100000x128 .f32) (Ws Wn : FVec Ideal Cert.KernelIdeal.S128x32 .f32)
    (b : FVec Ideal Cert.KernelIdeal.S32 .f32) :
    Cert.ReferenceIdeal.RefRun.lin32 (F := Ideal) h a Ws Wn b = Cert.Sage.lin32 h a Ws Wn (Cert.KernelIdeal.KRun.row32 b) := by
  funext i
  obtain ⟨p, q, rfl⟩ : ∃ (p : Fin 100000) (q : Fin 32), i = ix2 p q := ⟨i 0, i 1, eq_ix2 i⟩
  unfold Cert.ReferenceIdeal.RefRun.lin32
  rw [addf_apply, addf_apply, dot32_apply, dot32_apply, rows32_apply, row32_apply]
  show _ = lin32At h a Ws Wn (Cert.KernelIdeal.KRun.row32 b) p q
  unfold lin32At
  rw [row32_at]

end Cert.Sage.BridgeLin32

end
-- ==== Proof.FinAgg.lean ====
/-
  The neighbourhood mean of an array of real numbers is an array of real numbers.  The mean is computed on the host
  by three operations that cannot leave the reals: a gather (every gathered entry IS an entry of the operand), an
  accumulating scatter (each entry of the operand plus a finite sum of update entries), and a multiplication by the
  reciprocal of  max(number of incoming edges, 1),  a quotient of reals with a positive denominator.  The same holds
  for the linear layers of the specification: finite sums of products of reals, a sum, a maximum with zero.
-/
import proofs.«112237_j46686294507759_1_alg».proof.Proof.Alg
import proofs.«112237_j46686294507759_1_alg».proof.Proof.Spec
import proofs.«112237_j46686294507759_1_alg».proof.Proof.KStages
import Idealize.ShloMosaic.Lib.IdealHost

noncomputable section

namespace Cert.Sage.FinAgg

open Idealize.ShloMosaic Idealize.ShloMosaic.ValueIdx Cert.KernelIdeal Cert.Sage
open scoped BigOperators

/-- Every entry of a gather is an entry of its operand. -/
theorem isReal_gather {s si t : Shape} {w : Nat} (d : GatherDims s si t) (x : s.Idx → EReal) (idx : IVec si w)
    (hx : ∀ i, Alg.IsReal (x i)) (j : t.Idx) : Alg.IsReal (Host.gather d x idx j) :=
  hx _

/-- An accumulating scatter of reals into reals: each entry is the operand's plus a finite sum of updates. -/
theorem isReal_scatterAdd {s si u : Shape} {w : Nat} (d : ScatterDims s si u) (x : FVec Ideal s .f32) (idx : IVec si w)
    (upd : FVec Ideal u .f32) (hx : ∀ i, Alg.IsReal (x i)) (hu : ∀ j, Alg.IsReal (upd j)) (i : s.Idx) :
    Alg.IsReal (Host.scatterAdd d x idx upd i) := by
  unfold Host.scatterAdd
  rw [Ideal.hostScatterAdd_def]
  unfold Ideal.hostScatterAdd
  exact Alg.IsReal.add (hx i) (Alg.IsReal.sum _ _ fun j _ => hu j)

/-- The rectified linear layer with 128 output columns maps reals to reals. -/
theorem isReal_linRelu128 (h a : S100000x128.Idx → EReal) (Ws Wn : S128x128.Idx → EReal) (b : S1x128.Idx → EReal)
    (hh : ∀ i, Alg.IsReal (h i)) (ha : ∀ i, Alg.IsReal (a i)) (hWs : ∀ i, Alg.IsReal (Ws i))
    (hWn : ∀ i, Alg.IsReal (Wn i)) (hb : ∀ i, Alg.IsReal (b i)) (i : S100000x128.Idx) :
    Alg.IsReal (linRelu128 h a Ws Wn b i) := by
  unfold linRelu128 linRelu128At
  exact Alg.IsReal.max (Alg.IsReal.add (Alg.IsReal.add
    (Alg.IsReal.sum _ _ fun k _ => Alg.IsReal.mul (hh _) (hWs _))
    (Alg.IsReal.sum _ _ fun k _ => Alg.IsReal.mul (ha _) (hWn _))) (hb _)) Alg.IsReal.zero

/-- The output layer (32 columns, no rectifier) maps reals to reals. -/
theorem isReal_lin32 (h a : S100000x128.Idx → EReal) (Ws Wn : S128x32.Idx → EReal) (b : S1x32.Idx → EReal)
    (hh : ∀ i, Alg.IsReal (h i)) (ha : ∀ i, Alg.IsReal (a i)) (hWs : ∀ i, Alg.IsReal (Ws i))
    (hWn : ∀ i, Alg.IsReal (Wn i)) (hb : ∀ i, Alg.IsReal (b i)) (i : S100000x32.Idx) :
    Alg.IsReal (lin32 h a Ws Wn b i) := by
  unfold lin32 lin32At
  exact Alg.IsReal.add (Alg.IsReal.add
    (Alg.IsReal.sum _ _ fun k _ => Alg.IsReal.mul (hh _) (hWs _))
    (Alg.IsReal.sum _ _ fun k _ => Alg.IsReal.mul (ha _) (hWn _))) (hb _)

/-- The affine-plus-rectifier pass maps reals to reals. -/
theorem isReal_affRelu (x : S100000x128.Idx → EReal) (sc sh : S1x128.Idx → EReal)
    (hx : ∀ i, Alg.IsReal (x i)) (hsc : ∀ i, Alg.IsReal (sc i)) (hsh : ∀ i, Alg.IsReal (sh i)) (i : S100000x128.Idx) :
    Alg.IsReal (affRelu x sc sh i) := by
  unfold affRelu
  exact Alg.IsReal.max (Alg.IsReal.add (Alg.IsReal.mul (hx _) (hsc _)) (hsh _)) Alg.IsReal.zero

/-- A scalar constant broadcast to any shape reads the constant everywhere. -/
theorem bcast_const (T : Shape) (h : S_.BroadcastsInDim T ![]) (b : BitVec 32) (j : T.Idx) :
    broadcastInDim T ![] h (constant (F := Ideal) S_ .f32 b) j = Ideal.ofBits .f32 b := by
  rw [broadcastInDim_scalar_apply, constant_apply]

/-- Every entry of a broadcast is an entry of its operand. -/
theorem isReal_bcast {s t : Shape} (dims : Fin s.rank → Fin t.rank) (h : s.BroadcastsInDim t dims)
    (x : s.Idx → EReal) (hx : ∀ k, Alg.IsReal (x k)) (j : t.Idx) : Alg.IsReal (broadcastInDim t dims h x j) :=
  hx _

/-- One over the maximum of a count and one is a real: the count is zero plus a finite sum of ones. -/
theorem isReal_recip_count {s si u : Shape} {w : Nat} (d : ScatterDims s si u) (idx : IVec si w)
    (one zero : FVec Ideal s .f32) (ones : FVec Ideal u .f32)
    (h1 : ∀ k, one k = Ideal.ofBits .f32 0x3F800000#32) (h0 : ∀ k, zero k = Ideal.ofBits .f32 0x00000000#32)
    (hu : ∀ j, ones j = Ideal.ofBits .f32 0x3F800000#32) (k : s.Idx) :
    Alg.IsReal (Host.divf one (maximumf (Host.scatterAdd d zero idx ones) one) k) := by
  rw [hostDivf_apply, maximumf_apply]
  unfold Host.scatterAdd
  rw [Ideal.hostScatterAdd_def]
  unfold Ideal.hostScatterAdd
  rw [h1, h0]
  simp only [hu]
  exact Alg.isReal_invdeg _

/-- The reciprocal in-degree of every node is a real. -/
theorem isReal_invDeg (dst : IVec S1600000 32) (i : S100000x1.Idx) :
    Alg.IsReal (Cert.KernelIdeal.KRun.invDeg (F := Ideal) dst i) := by
  unfold Cert.KernelIdeal.KRun.invDeg
  refine isReal_bcast _ _ _ (fun k => ?_) i
  exact isReal_recip_count _ _ _ _ _ (fun k => bcast_const _ _ _ k) (fun k => bcast_const _ _ _ k)
    (fun j => bcast_const _ _ _ j) k

/-- The neighbourhood mean of an array of reals is an array of reals: a finite sum of gathered entries times the
    reciprocal in-degree. -/
theorem isReal_agg (h : FVec Ideal S100000x128 .f32) (src dst : IVec S1600000 32) (hh : ∀ i, Alg.IsReal (h i))
    (i : S100000x128.Idx) : Alg.IsReal (Cert.KernelIdeal.KRun.agg (F := Ideal) h src dst i) := by
  unfold Cert.KernelIdeal.KRun.agg Cert.KernelIdeal.KRun.aggWith
  rw [mulf_apply]
  refine Alg.IsReal.mul (isReal_scatterAdd _ _ _ _ (fun k => ?_) (fun j => isReal_gather _ _ _ hh j) i)
    (isReal_bcast _ _ _ (fun k => isReal_invDeg dst k) i)
  rw [bcast_const, Alg.ofBits_zero]
  exact Alg.IsReal.zero

end Cert.Sage.FinAgg

end
-- ==== Proof.BridgeAll.lean ====
/-
  From arguments that agree, the reference's result is the kernel program's: layer by layer the neighbourhood means
  are the same operations, the linear layers agree entry by entry, and on real entries the column normalisations
  agree; realness is carried from the inputs through the gather, the scatter-add, the matrix products and the
  normalisation itself.
-/
import proofs.«112237_j46686294507759_1_alg».proof.Proof.Bridge
import proofs.«112237_j46686294507759_1_alg».proof.Proof.BridgeEnds
import proofs.«112237_j46686294507759_1_alg».proof.Proof.BridgeLin32
import proofs.«112237_j46686294507759_1_alg».proof.Proof.FinAgg

noncomputable section

namespace Cert.Sage.BridgeAll

open Idealize.ShloMosaic Idealize.ShloMosaic.ValueIdx
open Cert.Sage Cert.Sage.Alg Cert.Sage.Bridge Cert.Sage.BridgeEnds Cert.Sage.BridgeLin32 Cert.Sage.FinAgg

local notation "S100000x128" => Cert.KernelIdeal.S100000x128
local notation "S1600000" => Cert.KernelIdeal.S1600000
local notation "S128x128" => Cert.KernelIdeal.S128x128
local notation "S128x32" => Cert.KernelIdeal.S128x32
local notation "S128" => Cert.KernelIdeal.S128
local notation "S32" => Cert.KernelIdeal.S32
local notation "S1x128" => Cert.KernelIdeal.S1x128

/-- A real bias stays real when read as a row. -/
theorem isReal_row128 (b : FVec Ideal S128 .f32) (hb : ∀ i, IsReal (b i)) (i : Cert.KernelIdeal.S1x128.Idx) :
    IsReal (Cert.KernelIdeal.KRun.row128 (F := Ideal) b i) := by
  obtain ⟨r, q, rfl⟩ : ∃ (r : Fin 1) (q : Fin 128), i = ix2 r q := ⟨i 0, i 1, eq_ix2 i⟩
  have hr : r = 0 := Subsingleton.elim _ _
  subst hr
  rw [row128_at]; exact hb _

/-- The reference's result is the kernel program's, on real inputs. -/
theorem result_eq (x0 : FVec Ideal S100000x128 .f32) (src dst : IVec S1600000 32)
    (Ws0 Wn0 : FVec Ideal S128x128 .f32) (b0 : FVec Ideal S128 .f32)
    (Ws1 Wn1 : FVec Ideal S128x128 .f32) (b1 : FVec Ideal S128 .f32)
    (Ws2 Wn2 : FVec Ideal S128x32 .f32) (b2 : FVec Ideal S32 .f32)
    (g0 be0 g1 be1 : FVec Ideal S128 .f32)
    (hx0 : ∀ i, IsReal (x0 i)) (hWs0 : ∀ i, IsReal (Ws0 i)) (hWn0 : ∀ i, IsReal (Wn0 i)) (hb0 : ∀ i, IsReal (b0 i))
    (hWs1 : ∀ i, IsReal (Ws1 i)) (hWn1 : ∀ i, IsReal (Wn1 i)) (hb1 : ∀ i, IsReal (b1 i))
    (hg0 : ∀ i, IsReal (g0 i)) (hbe0 : ∀ i, IsReal (be0 i)) (hg1 : ∀ i, IsReal (g1 i)) (hbe1 : ∀ i, IsReal (be1 i)) :
    Cert.ReferenceIdeal.RefRun.result (F := Ideal) x0 src dst Ws0 Wn0 b0 Ws1 Wn1 b1 Ws2 Wn2 b2 g0 be0 g1 be1
      = Cert.KernelIdeal.KRun.kresult x0 src dst Ws0 Wn0 b0 Ws1 Wn1 b1 Ws2 Wn2 b2 g0 be0 g1 be1 := by
  -- layer 0
  have E0 : Cert.ReferenceIdeal.RefRun.relu128 (F := Ideal)
        (Cert.ReferenceIdeal.RefRun.lin128 x0 (Cert.ReferenceIdeal.RefRun.agg x0 src dst) Ws0 Wn0 b0)
      = linRelu128 x0 (Cert.KernelIdeal.KRun.agg x0 src dst) Ws0 Wn0 (Cert.KernelIdeal.KRun.row128 b0) := by
    rw [agg_eq, linRelu_eq]
  have hy0 : ∀ i, IsReal (linRelu128 x0 (Cert.KernelIdeal.KRun.agg x0 src dst) Ws0 Wn0 (Cert.KernelIdeal.KRun.row128 b0) i) :=
    isReal_linRelu128 _ _ _ _ _ hx0 (isReal_agg _ _ _ hx0) hWs0 hWn0 (isReal_row128 _ hb0)
  obtain ⟨E1, hh1⟩ := bn_eq _ g0 be0 hy0 hg0 hbe0
  -- layer 1
  have E2 := fun (h1 : FVec Ideal S100000x128 .f32) =>
    show Cert.ReferenceIdeal.RefRun.relu128 (F := Ideal)
        (Cert.ReferenceIdeal.RefRun.lin128 h1 (Cert.ReferenceIdeal.RefRun.agg h1 src dst) Ws1 Wn1 b1)
      = linRelu128 h1 (Cert.KernelIdeal.KRun.agg h1 src dst) Ws1 Wn1 (Cert.KernelIdeal.KRun.row128 b1) from by
    rw [agg_eq, linRelu_eq]
  have hy1 := isReal_linRelu128 _ _ Ws1 Wn1 (Cert.KernelIdeal.KRun.row128 b1) hh1 (isReal_agg _ src dst hh1) hWs1 hWn1 (isReal_row128 _ hb1)
  obtain ⟨E3, -⟩ := bn_eq _ g1 be1 hy1 hg1 hbe1
  -- layer 2 and the closing softmax
  have E4 := fun (h2 : FVec Ideal S100000x128 .f32) =>
    show Cert.ReferenceIdeal.RefRun.tail (F := Ideal)
        (Cert.ReferenceIdeal.RefRun.lin32 h2 (Cert.ReferenceIdeal.RefRun.agg h2 src dst) Ws2 Wn2 b2)
      = Cert.KernelIdeal.KRun.tail (F := Ideal) (colsum32 (lin32 h2 (Cert.KernelIdeal.KRun.agg h2 src dst) Ws2 Wn2 (Cert.KernelIdeal.KRun.row32 b2))) from by
    rw [agg_eq, lin32_eq, tail_eq]
  unfold Cert.ReferenceIdeal.RefRun.result Cert.KernelIdeal.KRun.kresult
  dsimp only
  rw [E0, E1, E2, E3, E4]

end Cert.Sage.BridgeAll

end
-- ==== Proof.FinIn.lean ====
import proofs.«112237_j46686294507759_1_alg».proof.Defs
import proofs.«112237_j46686294507759_1_alg».proof.Proof.Gen.Pre_finite_inputs
import proofs.«112237_j46686294507759_1_alg».proof.Proof.Alg
import Idealize.ShloMosaic.Lib.ReduceAll
import Idealize.ShloMosaic.Lib.ValueIdx

noncomputable section

namespace Cert.Sage.FinIn

open Idealize.ShloMosaic Cert.Pre_finite_inputs

/-- The rank-0 shape has one index. -/
instance : Subsingleton S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value is below `+∞` is a real. -/
theorem isReal_of_abs_lt (x : EReal)
    (h : Ideal.cmp .olt (max x (-x)) (Ideal.ofBits .f32 0x7F800000#32) = 1#1) : Alg.IsReal x := by
  rw [ofBits_inf] at h
  have h' : max x (-x) < ⊤ := by
    by_contra hn
    have h2 : Ideal.cmp .olt (max x (-x)) ⊤ = BitVec.ofBool (decide (max x (-x) < ⊤)) := rfl
    rw [h2, decide_eq_false hn] at h
    exact absurd h (by decide)
  induction x using EReal.rec with
  | bot => simp at h'
  | coe r => exact ⟨r, rfl⟩
  | top => simp at h'

/-- A conjunction of two one-bit vectors that is 1 at an index has both 1 there. -/
theorem andi_one {s : Shape} (A B : IVec s 1) (j : s.Idx) (h : andi A B j = 1#1) : A j = 1#1 ∧ B j = 1#1 :=
  IntOp.andi_eq_one.1 h

/-- One `all(|a| < +∞)` of the predicate: every entry of `a` is a real. -/
theorem all_real {s : Shape} {axes : List (Fin s.rank)} (a : FVec Ideal s .f32)
    (hb : S_.BroadcastsInDim s (![] : Fin 0 → Fin s.rank)) (hr : s.ReducesTo axes S_) (hS : 0 < S_.numel)
    (e : Host.reduce IntOp.andi
      (cmpf .olt (Host.absf a) (broadcastInDim s ![] hb (constant (F := Ideal) S_ .f32 0x7F800000#32)))
      (constantI S_ 1 1#1) hr hS ValueIdx.ix0 = 1#1) (i : s.Idx) : Alg.IsReal (a i) :=
  isReal_of_abs_lt (a i) (Host.reduce_andi_all _ _ hr hS ValueIdx.ix0 e i)

/-- The precondition decoded: every float argument array holds reals. -/
theorem fin_of_pre [Cert.Pre_finite_inputs.Facts]
    (a0 : FVec Ideal S100000x128 .f32) (a1 a2 : IVec S1600000 32)
    (a3 a4 : FVec Ideal S128x128 .f32) (a5 : FVec Ideal S128 .f32)
    (a6 a7 : FVec Ideal S128x128 .f32) (a8 : FVec Ideal S128 .f32)
    (a9 a10 : FVec Ideal S128x32 .f32) (a11 : FVec Ideal S32 .f32)
    (a12 a13 a14 a15 : FVec Ideal S128 .f32)
    (h : Cert.Pre_finite_inputs.fn (F := Ideal) a0 a1 a2 a3 a4 a5 a6 a7 a8 a9 a10 a11 a12 a13 a14 a15 = fun _ => 1#1) :
    (∀ i, Alg.IsReal (a0 i)) ∧ (∀ i, Alg.IsReal (a3 i)) ∧ (∀ i, Alg.IsReal (a4 i)) ∧ (∀ i, Alg.IsReal (a5 i))
      ∧ (∀ i, Alg.IsReal (a6 i)) ∧ (∀ i, Alg.IsReal (a7 i)) ∧ (∀ i, Alg.IsReal (a8 i)) ∧ (∀ i, Alg.IsReal (a9 i))
      ∧ (∀ i, Alg.IsReal (a10 i)) ∧ (∀ i, Alg.IsReal (a11 i)) ∧ (∀ i, Alg.IsReal (a12 i)) ∧ (∀ i, Alg.IsReal (a13 i))
      ∧ (∀ i, Alg.IsReal (a14 i)) ∧ (∀ i, Alg.IsReal (a15 i)) := by
  have h0 := congrFun h ValueIdx.ix0
  dsimp only [fn, fn_part1, fn_part2, fn_part3, fn_part4] at h0
  obtain ⟨h0, e15⟩ := andi_one _ _ _ h0
  obtain ⟨h0, e14⟩ := andi_one _ _ _ h0
  obtain ⟨h0, e13⟩ := andi_one _ _ _ h0
  obtain ⟨h0, e12⟩ := andi_one _ _ _ h0
  obtain ⟨h0, e11⟩ := andi_one _ _ _ h0
  obtain ⟨h0, e10⟩ := andi_one _ _ _ h0
  obtain ⟨h0, e9⟩ := andi_one _ _ _ h0
  obtain ⟨h0, e8⟩ := andi_one _ _ _ h0
  obtain ⟨h0, e7⟩ := andi_one _ _ _ h0
  obtain ⟨h0, e6⟩ := andi_one _ _ _ h0
  obtain ⟨h0, e5⟩ := andi_one _ _ _ h0
  obtain ⟨h0, e4⟩ := andi_one _ _ _ h0
  obtain ⟨e0, e3⟩ := andi_one _ _ _ h0
  exact ⟨all_real a0 _ _ _ e0, all_real a3 _ _ _ e3, all_real a4 _ _ _ e4, all_real a5 _ _ _ e5,
    all_real a6 _ _ _ e6, all_real a7 _ _ _ e7, all_real a8 _ _ _ e8, all_real a9 _ _ _ e9,
    all_real a10 _ _ _ e10, all_real a11 _ _ _ e11, all_real a12 _ _ _ e12, all_real a13 _ _ _ e13,
    all_real a14 _ _ _ e14, all_real a15 _ _ _ e15⟩

end Cert.Sage.FinIn

end
-- ==== Proof.lean ====
/-
  The certificate of a three-layer mean-aggregating graph network (100000 nodes, 1600000 edges): the kernel program
  computes each layer's linear combination, column statistics and normalisation in tiled regions over the node axis,
  the reference computes them as whole-array operations.  At the extended reals the two agree from inputs that are
  real numbers: a layer's linear combination is the same sum over the contracted columns however the rows are tiled;
  the column sums over fifty blocks of two thousand rows are the sums over all rows; and the variance as mean of
  squares less squared mean is the mean squared deviation, an identity of real numbers, which is where the
  precondition (every float input finite) is used — realness is carried from the inputs through the gather, the
  scatter-add, the products and each normalisation.  The neighbourhood means and the closing softmax are the same
  operations in both programs.  Each program's run ends with its arguments as launched.
-/
import proofs.«112237_j46686294507759_1_alg».proof.Defs
import proofs.«112237_j46686294507759_1_alg».proof.Proof.Gen.Kernel
import proofs.«112237_j46686294507759_1_alg».proof.Proof.Gen.Kernel.Frame
import proofs.«112237_j46686294507759_1_alg».proof.Proof.Gen.KernelIdeal
import proofs.«112237_j46686294507759_1_alg».proof.Proof.Gen.KernelIdeal.Frame
import proofs.«112237_j46686294507759_1_alg».proof.Proof.Gen.ReferenceIdeal
import proofs.«112237_j46686294507759_1_alg».proof.Proof.Gen.Pre_finite_inputs
import proofs.«112237_j46686294507759_1_alg».proof.Proof.KRun
import proofs.«112237_j46686294507759_1_alg».proof.Proof.RefRun
import proofs.«112237_j46686294507759_1_alg».proof.Proof.RegLin0
import proofs.«112237_j46686294507759_1_alg».proof.Proof.RegLin3
import proofs.«112237_j46686294507759_1_alg».proof.Proof.RegLin6
import proofs.«112237_j46686294507759_1_alg».proof.Proof.RegStats1
import proofs.«112237_j46686294507759_1_alg».proof.Proof.RegStats4
import proofs.«112237_j46686294507759_1_alg».proof.Proof.RegStats7
import proofs.«112237_j46686294507759_1_alg».proof.Proof.RegBn2
import proofs.«112237_j46686294507759_1_alg».proof.Proof.RegBn5
import proofs.«112237_j46686294507759_1_alg».proof.Proof.BridgeAll
import proofs.«112237_j46686294507759_1_alg».proof.Proof.FinIn
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments, under the precondition, both programs end with the same result. -/
theorem algebraic : Cert.algebraic_KernelIdeal_ReferenceIdeal := by
  intro m ρ m' ρ' hpre hagree
  refine ⟨_, Cert.KernelIdeal.KRun.run m ρ
      (fun V c => Cert.KernelIdeal.RegLin0.final0 V c) (fun V c => Cert.KernelIdeal.RegStats1.final1_sum V c)
      (fun V c => Cert.KernelIdeal.RegStats1.final1_sq V c) (fun V c => Cert.KernelIdeal.RegBn2.final2 V c)
      (fun V c => Cert.KernelIdeal.RegLin3.final3 V c) (fun V c => Cert.KernelIdeal.RegStats4.final4_sum V c)
      (fun V c => Cert.KernelIdeal.RegStats4.final4_sq V c) (fun V c => Cert.KernelIdeal.RegBn5.final5 V c)
      (fun V c => Cert.KernelIdeal.RegLin6.final6 V c) (fun V c => Cert.KernelIdeal.RegStats7.final7_sum V c), ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9, a10, a11, a12, a13, a14, a15⟩ := hagree c
  rw [a0, a1, a2, a3, a4, a5, a6, a7, a8, a9, a10, a11, a12, a13, a14, a15]
  obtain ⟨f0, f3, f4, f5, f6, f7, f8, -, -, -, f12, f13, f14, f15⟩ := Cert.Sage.FinIn.fin_of_pre _ _ _ _ _ _ _ _ _ _ _ _ _ _ _ _ (hpre c)
  exact Cert.Sage.BridgeAll.result_eq _ _ _ _ _ _ _ _ _ _ _ _ _ _ _ _ f0 f3 f4 f5 f6 f7 f8 f12 f13 f14 f15

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
